-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S8192x1024 : Shape := ⟨2, ![8192, 1024]⟩
abbrev S1024x256 : Shape := ⟨2, ![1024, 256]⟩
abbrev S8192 : Shape := ⟨1, ![8192]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S32x1024 .f32) (main_arg1 : FVec F S8192x1024 .f32) (main_arg2 : FVec F S1024x256 .f32) (main_arg3 : IVec S8192 32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  main_v13
-- ==== Kernel.lean ====
abbrev S32x1024 : Shape := ⟨2, ![32, 1024]⟩
abbrev S8192x1024 : Shape := ⟨2, ![8192, 1024]⟩
abbrev S1024x256 : Shape := ⟨2, ![1024, 256]⟩
abbrev S8192 : Shape := ⟨1, ![8192]⟩
abbrev S8192x1 : Shape := ⟨2, ![8192, 1]⟩
abbrev S8192x256 : Shape := ⟨2, ![8192, 256]⟩
abbrev S2048x1024 : Shape := ⟨2, ![2048, 1024]⟩
abbrev S2048x256 : Shape := ⟨2, ![2048, 256]⟩
abbrev S32x256 : Shape := ⟨2, ![32, 256]⟩
abbrev S_ : Shape := ⟨0, ![]⟩
abbrev S32 : Shape := ⟨1, ![32]⟩
abbrev S32x1 : Shape := ⟨2, ![32, 1]⟩
abbrev S2048x1 : Shape := ⟨2, ![2048, 1]⟩
abbrev S2048 : Shape := ⟨1, ![2048]⟩
abbrev S1x2048 : Shape := ⟨2, ![1, 2048]⟩
abbrev S256x2048 : Shape := ⟨2, ![256, 2048]⟩
abbrev S32x2048 : Shape := ⟨2, ![32, 2048]⟩
abbrev S32x1000 : Shape := ⟨2, ![32, 1000]⟩

abbrev nBuf : Space → Nat
  | .hbm => 13
  | .vmem => 15
  | .smem => 0
  | _ => 0

abbrev bufTy : (tb : Table) → Fin (tcTables nBuf tb) → BufTy
  | .hbm, ⟨0, _⟩ => ⟨S32x1024, .f32⟩
  | .hbm, ⟨1, _⟩ => ⟨S8192x1024, .f32⟩
  | .hbm, ⟨2, _⟩ => ⟨S1024x256, .f32⟩
  | .hbm, ⟨3, _⟩ => ⟨S8192, .i32⟩
  | .hbm, ⟨4, _⟩ => ⟨S8192x1, .i32⟩
  | .hbm, ⟨5, _⟩ => ⟨S8192x256, .f32⟩
  | .hbm, ⟨6, _⟩ => ⟨S32x256, .f32⟩
  | .hbm, ⟨7, _⟩ => ⟨S32x256, .f32⟩
  | .hbm, ⟨8, _⟩ => ⟨S_, .f32⟩
  | .hbm, ⟨9, _⟩ => ⟨S32, .f32⟩
  | .hbm, ⟨10, _⟩ => ⟨S32x1, .f32⟩
  | .hbm, ⟨11, _⟩ => ⟨S32x1024, .f32⟩
  | .hbm, ⟨12, _⟩ => ⟨S32x1000, .f32⟩
  | .local _ .vmem, ⟨0, _⟩ => ⟨S2048x1024, .f32⟩
  | .local _ .vmem, ⟨1, _⟩ => ⟨S2048x1024, .f32⟩
  | .local _ .vmem, ⟨2, _⟩ => ⟨S1024x256, .f32⟩
  | .local _ .vmem, ⟨3, _⟩ => ⟨S2048x256, .f32⟩
  | .local _ .vmem, ⟨4, _⟩ => ⟨S2048x256, .f32⟩
  | .local _ .vmem, ⟨5, _⟩ => ⟨S32x256, .f32⟩
  | .local _ .vmem, ⟨6, _⟩ => ⟨S32x1, .f32⟩
  | .local _ .vmem, ⟨7, _⟩ => ⟨S2048x256, .f32⟩
  | .local _ .vmem, ⟨8, _⟩ => ⟨S2048x256, .f32⟩
  | .local _ .vmem, ⟨9, _⟩ => ⟨S2048x1, .i32⟩
  | .local _ .vmem, ⟨10, _⟩ => ⟨S2048x1, .i32⟩
  | .local _ .vmem, ⟨11, _⟩ => ⟨S32x1024, .f32⟩
  | .local _ .vmem, ⟨12, _⟩ => ⟨S32x1, .f32⟩
  | .local _ .vmem, ⟨13, _⟩ => ⟨S32x1, .f32⟩
  | .local _ .vmem, ⟨14, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 4], ![false, false]⟩

def k1_cond2 (i : grid1.Coords) : BitVec 1 :=
  let arg1 : BitVec 32 := BitVec.ofNat 32 (i 1).val
  let c3_i32 : BitVec 32 := 3#32
  let v67 : BitVec 1 := Scalar.cmpi .eq arg1 c3_i32
  let v68 : BitVec 32 := Scalar.extui v67
  let c0_i32_27 : BitVec 32 := 0#32
  let v69 : BitVec 1 := Scalar.cmpi .ne v68 c0_i32_27
  v69

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S32x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S32x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

class Facts₀ : Prop where
  shapeCasts_S8192_S8192x1 : S8192.ShapeCasts S8192x1
  inb_S2048x1024_S2048x1024_0_0 : ∀ a, (![0, 0] : Fin 2 → Nat) a + S2048x1024.size a ≤ S2048x1024.size a
  h_S2048x1024 : 0 < S2048x1024.numel
  inb_S1024x256_S1024x256_0_0 : ∀ a, (![0, 0] : Fin 2 → Nat) a + S1024x256.size a ≤ S1024x256.size a
  h_S1024x256 : 0 < S1024x256.numel
  inb_S2048x256_S2048x256_0_0 : ∀ a, (![0, 0] : Fin 2 → Nat) a + S2048x256.size a ≤ S2048x256.size a
  h_S2048x256 : 0 < S2048x256.numel
  reducesTo_S32x256_S32_d1 : S32x256.ReducesTo [1] S32
  h_S_ : 0 < S_.numel
  bcast_S32_S32x1_0 : S32.BroadcastsInDim S32x1 (![0] : Fin 1 → Fin S32x1.rank)
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  shapeCasts_S2048x256_S2048x256 : S2048x256.ShapeCasts S2048x256
  reduces_S2048x256_S2048 : S2048x256.Reduces [1] S2048
  shapeCasts_S2048_S1x2048 : S2048.ShapeCasts S1x2048
  inb_S32x256_S32x256_0_0 : ∀ a, (![0, 0] : Fin 2 → Nat) a + S32x256.size a ≤ S32x256.size a
  h_S32x256 : 0 < S32x256.numel
  shapeCasts_S32x256_S32x256 : S32x256.ShapeCasts S32x256
  transposes_S2048x256_p1_0_S256x2048 : S2048x256.Transposes [1, 0] S256x2048
  broadcasts_S32x1_S32x2048 : S32x1.Broadcasts S32x2048
  broadcasts_S1x2048_S32x2048 : S1x2048.Broadcasts S32x2048
  iota_S32x2048_d1_w32 : S32x2048.Iotas .tc 32 [1]
  reduces_S32x2048_S32 : S32x2048.Reduces [1] S32
  shapeCasts_S32_S32x1 : S32.ShapeCasts S32x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1024_d1_w32 : S2048x1024.Iotas .tc 32 [1]
  broadcasts_S2048x1_S2048x1024 : S2048x1.Broadcasts S2048x1024
  natLt_1_32 : 1 < 32
  bitsLt_bf16_f32 : FTy.bits .bf16 < FTy.bits .f32
  broadcasts_S32x1_S32x1024 : S32x1.Broadcasts S32x1024
  slices_S32x1024_S32x1000_0_0 : S32x1024.Slices ![0, 0] S32x1000
  dot_S2048x1024_S1024x256_S2048x256_1_0_0_1_n_n_wf : DotDims.WF S2048x1024 S1024x256 S2048x256 [1] [0] [0] [1] [] []
  dot_S32x1024_S1024x256_S32x256_1_0_0_1_n_n_wf : DotDims.WF S32x1024 S1024x256 S32x256 [1] [0] [0] [1] [] []
  dot_S32x256_S256x2048_S32x2048_1_0_0_1_n_n_wf : DotDims.WF S32x256 S256x2048 S32x2048 [1] [0] [0] [1] [] []
  dot_S32x2048_S2048x1024_S32x1024_1_0_0_1_n_n_wf : DotDims.WF S32x2048 S2048x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S32x256.size a ≤ S32x256.size a
  hwx1_0 : ∀ i : grid1.Coords, EltTy.bits .f32 = 32 ∨ (Rect.block (s := S32x256) S32x256.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S32x1.size a
  hwx1_1 : ∀ i : grid1.Coords, EltTy.bits .f32 = 32 ∨ (Rect.block (s := S32x1) S32x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S8192x256.size a
  hwx1_2 : ∀ i : grid1.Coords, EltTy.bits .f32 = 32 ∨ (Rect.block (s := S8192x256) S2048x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S8192x1.size a
  hwx1_3 : ∀ i : grid1.Coords, EltTy.bits .i32 = 32 ∨ (Rect.block (s := S8192x1) S2048x1.size (cc1_transform_3 i) (hinb1_3 i)).WholeWords (EltTy.packing .i32)
  hstage1_4 : ∀ j, (stage1_4 j).IsWhole
  nbuf1_4 : grid1.bufCount reads1_4 false = 1
  hreads1_4 : ∀ i i' : grid1.Coords, (∀ a, reads1_4 a = true → i a = i' a) → cc1_transform_4 i = cc1_transform_4 i'
  hinb1_4 : ∀ (i : grid1.Coords) a, (cc1_transform_4 i a + 1) * S32x1024.size a ≤ S32x1024.size a
  hwx1_4 : ∀ i : grid1.Coords, EltTy.bits .f32 = 32 ∨ (Rect.block (s := S32x1024) S32x1024.size (cc1_transform_4 i) (hinb1_4 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S32x1024_S1024x256_S32x256_1_0_0_1_n_n : DotDims S32x1024 S1024x256 S32x256 where
  lhsContracting := [1]
  rhsContracting := [0]
  lhsNonContracting := [0]
  rhsNonContracting := [1]
  lhsBatch := []
  rhsBatch := []
  wf := dot_S32x1024_S1024x256_S32x256_1_0_0_1_n_n_wf
def dot_S32x256_S256x2048_S32x2048_1_0_0_1_n_n : DotDims S32x256 S256x2048 S32x2048 where
  lhsContracting := [1]
  rhsContracting := [0]
  lhsNonContracting := [0]
  rhsNonContracting := [1]
  lhsBatch := []
  rhsBatch := []
  wf := dot_S32x256_S256x2048_S32x2048_1_0_0_1_n_n_wf
def dot_S32x2048_S2048x1024_S32x1024_1_0_0_1_n_n : DotDims S32x2048 S2048x1024 S32x1024 where
  lhsContracting := [1]
  rhsContracting := [0]
  lhsNonContracting := [0]
  rhsNonContracting := [1]
  lhsBatch := []
  rhsBatch := []
  wf := dot_S32x2048_S2048x1024_S32x1024_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S32x256.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S32x1.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S32x1024.size cc1_transform_4 reads1_4 true false 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S32x1024 : Shape := ⟨2, ![32, 1024]⟩
abbrev S8192x1024 : Shape := ⟨2, ![8192, 1024]⟩
abbrev S1024x256 : Shape := ⟨2, ![1024, 256]⟩
abbrev S8192 : Shape := ⟨1, ![8192]⟩
abbrev S8192x1 : Shape := ⟨2, ![8192, 1]⟩
abbrev S1x1000 : Shape := ⟨2, ![1, 1000]⟩
abbrev S8192x1000 : Shape := ⟨2, ![8192, 1000]⟩
abbrev S32x256 : Shape := ⟨2, ![32, 256]⟩
abbrev S8192x256 : Shape := ⟨2, ![8192, 256]⟩
abbrev S_ : Shape := ⟨0, ![]⟩
abbrev S32 : Shape := ⟨1, ![32]⟩
abbrev S32x1 : Shape := ⟨2, ![32, 1]⟩
abbrev S1x8192 : Shape := ⟨2, ![1, 8192]⟩
abbrev S32x8192 : Shape := ⟨2, ![32, 8192]⟩
abbrev S256x8192 : Shape := ⟨2, ![256, 8192]⟩
abbrev S32x1000 : Shape := ⟨2, ![32, 1000]⟩

abbrev nBuf : Space → Nat
  | .hbm => 49
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S8192x1024, .f32⟩
  | .hbm, ⟨2, _⟩ => ⟨S1024x256, .f32⟩
  | .hbm, ⟨3, _⟩ => ⟨S8192, .i32⟩
  | .hbm, ⟨4, _⟩ => ⟨S8192x1, .i32⟩
  | .hbm, ⟨5, _⟩ => ⟨S1x1000, .i32⟩
  | .hbm, ⟨6, _⟩ => ⟨S8192x1000, .i32⟩
  | .hbm, ⟨7, _⟩ => ⟨S8192x1000, .i32⟩
  | .hbm, ⟨8, _⟩ => ⟨S8192x1000, .i1⟩
  | .hbm, ⟨9, _⟩ => ⟨S8192x1000, .f32⟩
  | .hbm, ⟨10, _⟩ => ⟨S32x256, .f32⟩
  | .hbm, ⟨11, _⟩ => ⟨S8192x256, .f32⟩
  | .hbm, ⟨12, _⟩ => ⟨S32x256, .f32⟩
  | .hbm, ⟨13, _⟩ => ⟨S_, .f32⟩
  | .hbm, ⟨14, _⟩ => ⟨S32, .f32⟩
  | .hbm, ⟨15, _⟩ => ⟨S32x1, .f32⟩
  | .hbm, ⟨16, _⟩ => ⟨S8192x256, .f32⟩
  | .hbm, ⟨17, _⟩ => ⟨S_, .f32⟩
  | .hbm, ⟨18, _⟩ => ⟨S8192, .f32⟩
  | .hbm, ⟨19, _⟩ => ⟨S1x8192, .f32⟩
  | .hbm, ⟨20, _⟩ => ⟨S32x8192, .f32⟩
  | .hbm, ⟨21, _⟩ => ⟨S32x8192, .f32⟩
  | .hbm, ⟨22, _⟩ => ⟨S32x8192, .f32⟩
  | .hbm, ⟨23, _⟩ => ⟨S256x8192, .f32⟩
  | .hbm, ⟨24, _⟩ => ⟨S32x8192, .f32⟩
  | .hbm, ⟨25, _⟩ => ⟨S_, .f32⟩
  | .hbm, ⟨26, _⟩ => ⟨S32x8192, .f32⟩
  | .hbm, ⟨27, _⟩ => ⟨S32x8192, .f32⟩
  | .hbm, ⟨28, _⟩ => ⟨S32x8192, .f32⟩
  | .hbm, ⟨29, _⟩ => ⟨S32x8192, .f32⟩
  | .hbm, ⟨30, _⟩ => ⟨S_, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S32x1, .f32⟩
  | .hbm, ⟨36, _⟩ => ⟨S32x8192, .f32⟩
  | .hbm, ⟨37, _⟩ => ⟨S32x8192, .f32⟩
  | .hbm, ⟨38, _⟩ => ⟨S32x8192, .f32⟩
  | .hbm, ⟨39, _⟩ => ⟨S_, .f32⟩
  | .hbm, ⟨40, _⟩ => ⟨S32, .f32⟩
  | .hbm, ⟨41, _⟩ => ⟨S32x1, .f32⟩
  | .hbm, ⟨42, _⟩ => ⟨S32x8192, .f32⟩
  | .hbm, ⟨43, _⟩ => ⟨S32x8192, .f32⟩
  | .hbm, ⟨44, _⟩ => ⟨S32x1000, .f32⟩
  | .hbm, ⟨45, _⟩ => ⟨S_, .f32⟩
  | .hbm, ⟨46, _⟩ => ⟨S32x1000, .f32⟩
  | .hbm, ⟨47, _⟩ => ⟨S32x1000, .f32⟩
  | .hbm, ⟨48, _⟩ => ⟨S32x1000, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x1000_0_1 : S8192x1.BroadcastsInDim S8192x1000 (![0, 1] : Fin 2 → Fin S8192x1000.rank)
  bcast_S1x1000_S8192x1000_0_1 : S1x1000.BroadcastsInDim S8192x1000 (![0, 1] : Fin 2 → Fin S8192x1000.rank)
  reducesTo_S32x256_S32_d1 : S32x256.ReducesTo [1] S32
  h_S_ : 0 < S_.numel
  bcast_S32_S32x1_0 : S32.BroadcastsInDim S32x1 (![0] : Fin 1 → Fin S32x1.rank)
  reducesTo_S8192x256_S8192_d1 : S8192x256.ReducesTo [1] S8192
  bcast_S8192_S1x8192_1 : S8192.BroadcastsInDim S1x8192 (![1] : Fin 1 → Fin S1x8192.rank)
  bcast_S32x1_S32x8192_0_1 : S32x1.BroadcastsInDim S32x8192 (![0, 1] : Fin 2 → Fin S32x8192.rank)
  bcast_S1x8192_S32x8192_0_1 : S1x8192.BroadcastsInDim S32x8192 (![0, 1] : Fin 2 → Fin S32x8192.rank)
  transposes_S8192x256_S256x8192_1_0 : S8192x256.Transposes [1, 0] S256x8192
  bcast_S_S32x8192 : S_.BroadcastsInDim S32x8192 (![] : Fin 0 → Fin S32x8192.rank)
  reducesTo_S32x8192_S32_d1 : S32x8192.ReducesTo [1] S32
  bcast_S_S32 : S_.BroadcastsInDim S32 (![] : Fin 0 → Fin S32.rank)
  bcast_S_S32x1000 : S_.BroadcastsInDim S32x1000 (![] : Fin 0 → Fin S32x1000.rank)
  dot_S32x1024_S1024x256_S32x256_1_0_0_1_n_n_wf : DotDims.WF S32x1024 S1024x256 S32x256 [1] [0] [0] [1] [] []
  dot_S8192x1024_S1024x256_S8192x256_1_0_0_1_n_n_wf : DotDims.WF S8192x1024 S1024x256 S8192x256 [1] [0] [0] [1] [] []
  dot_S32x256_S256x8192_S32x8192_1_0_0_1_n_n_wf : DotDims.WF S32x256 S256x8192 S32x8192 [1] [0] [0] [1] [] []
  dot_S32x8192_S8192x1000_S32x1000_1_0_0_1_n_n_wf : DotDims.WF S32x8192 S8192x1000 S32x1000 [1] [0] [0] [1] [] []

variable [Facts₀]

def dot_S32x1024_S1024x256_S32x256_1_0_0_1_n_n : DotDims S32x1024 S1024x256 S32x256 where
  lhsContracting := [1]
  rhsContracting := [0]
  lhsNonContracting := [0]
  rhsNonContracting := [1]
  lhsBatch := []
  rhsBatch := []
  wf := dot_S32x1024_S1024x256_S32x256_1_0_0_1_n_n_wf
def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S32x256_S256x8192_S32x8192_1_0_0_1_n_n : DotDims S32x256 S256x8192 S32x8192 where
  lhsContracting := [1]
  rhsContracting := [0]
  lhsNonContracting := [0]
  rhsNonContracting := [1]
  lhsBatch := []
  rhsBatch := []
  wf := dot_S32x256_S256x8192_S32x8192_1_0_0_1_n_n_wf
def dot_S32x8192_S8192x1000_S32x1000_1_0_0_1_n_n : DotDims S32x8192 S8192x1000 S32x1000 where
  lhsContracting := [1]
  rhsContracting := [0]
  lhsNonContracting := [0]
  rhsNonContracting := [1]
  lhsBatch := []
  rhsBatch := []
  wf := dot_S32x8192_S8192x1000_S32x1000_1_0_0_1_n_n_wf

class Facts : Prop extends Facts₀ where

variable [Facts]
-- ==== Proof.Region0K.lean ====
/-
  Region 0 of @main — the projection kernel `cc0__proj_kernel` on its grid of 4 points — as a pipeline body
  whose effect on the staging buffers is a closed function of the input blocks.

  The pipeline has three windows: window 0 is a 2048x1024 block of the left operand (a new block at every point),
  window 1 is the whole 1024x256 right operand (the same block at every point), window 2 is the 2048x256 block of
  the result (written back at every point). At a point the body reads windows 0 and 1 through their whole
  rectangles and overwrites the whole of window 2 with the matrix product of what it read; the value it reads of
  window 2 beforehand is never used. Hence after the body the two input buffers are as found and the output
  buffer is `out0_2` of the two input blocks, whatever it held.

  Everything is stated at a parameter `V`: the contents of the core's buffers when the region is entered.
-/
import proofs.«131352_j66331474920046_2_alg».proof.Proof.Gen.Kernel.Launch
import proofs.«131352_j66331474920046_2_alg».proof.Proof.Gen.Kernel.Skeleton
import proofs.«131352_j66331474920046_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands recurses once per coordinate
set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The blocks of the windows -/

/-- The block of window `w` at point `t`: the part of the window's array, as `V` has it, that the point's block
    index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 (left operand; its block index is the point, so it is transferred at every point): at every point the
    buffer the body is handed holds the point's block. Stated for any proof data over `V`'s array whose body
    leaves the block in place. The window is whole blocks (nothing clipped) and is live at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (right operand; its block index is constant, so it is transferred at the first point only): at every
    point the buffer the body is handed still holds that one block — at a later point nothing was transferred, the
    block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each buffer whole -/

abbrev r0_0 : Rect S2048x1024 := Rect.unit (s := S2048x1024) ![0, 0] S2048x1024.size inb_S2048x1024_S2048x1024_0_0
abbrev r0_1 : Rect S1024x256 := Rect.unit (s := S1024x256) ![0, 0] S1024x256.size inb_S1024x256_S1024x256_0_0
abbrev r0_2 : Rect S2048x256 := Rect.unit (s := S2048x256) ![0, 0] S2048x256.size inb_S2048x256_S2048x256_0_0

/-! ## What the body leaves in the output buffer -/

/-- The output buffer after the body, as a function of the two input blocks: the single store — the product of the
    left block by the right block, added to a zero accumulator — laid over the whole buffer. -/
def out0_2 (x0 : Vec F S2048x1024 .f32) (x1 : Vec F S1024x256 .f32) : Vec F S2048x256 .f32 :=
  View.canon [⟨r0_2, k0_pay1 (View.ld x0 r0_0) (View.ld x1 r0_1)⟩]

/-- The one stored rectangle is the whole buffer, so every index of the buffer lies in it. -/
theorem cover0_2 (p0 : Vec F S2048x256 .f32) (y : S2048x256.Idx) :
    ∃ pc ∈ ([⟨r0_2, p0⟩] : List (View.Piece (Elt F) S2048x256 .f32)), y ∈ pc.1.set :=
  View.cover_of_tiled [⟨r0_2, p0⟩] S2048x256.size (by rfl) y

/-! ## The body's triple -/

set_option maxHeartbeats 1000000 in
/-- On whole buffers — the two inputs reading `x0` and `x1`, the output holding anything — the body runs to its
    continuation with the inputs unchanged and the output reading `out0_2 x0 x1`. The grid coordinate is not read. -/
theorem sound_kernel0 (c : Dev nD) (E : Set ℕ) (i : grid0.Coords)
    (arg1 : Memref sig .tc .vmem S2048x1024 .f32) (harg1 : arg1.IsWhole)
    (arg2 : Memref sig .tc .vmem S1024x256 .f32) (harg2 : arg2.IsWhole)
    (arg3 : Memref sig .tc .vmem S2048x256 .f32) (harg3 : arg3.IsWhole)
    (x0 : Vec F S2048x1024 .f32) (x1 : Vec F S1024x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- The proof data of pipeline 0 on core `c`: its arrays are `V`'s; after the body at point `t` each input buffer
    holds the point's block and the output buffer holds `out0_2` of the two; the invariant is the one of a body that
    touches only its windows' buffers (the other scoped buffers and the generator register pass through); nothing
    is owed; all shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- What the body finds in each input buffer: the point's block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, what is owed, and each window's current buffer at
    what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies at those blocks; the
    invariant and what is owed are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Region0

end
-- ==== Proof.Region1BaseK.lean ====
/-
  The second kernel of the program: a softmax-weighted class histogram accumulated tile by tile over four grid
  points, its running maximum, running denominator and running numerator carried from point to point in three
  buffers of the kernel's own, its one output written at the last point only. This module states what every
  run of its body is phrased over: which of the body's two conditionals a grid point takes, where the output's
  window is left untouched, the buffers the body is called with, and the blocks the input windows hold.
-/
import proofs.«131352_j66331474920046_2_alg».proof.Proof.Gen.Kernel.Launch
import proofs.«131352_j66331474920046_2_alg».proof.Proof.Gen.Kernel.Skeleton
import proofs.«131352_j66331474920046_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditionals of the body, decided over the four grid points -/

/-- The body's first conditional (reset the carried state) as a statement about the grid coordinates. -/
abbrev condFirst (i : grid1.Coords) : Prop :=
  (Scalar.cmpi .ne (Scalar.extui (Scalar.cmpi .eq (BitVec.ofNat 32 (i 1).val) 0#32)) 0#32) = 1#1
/-- It is taken at the first point and nowhere else. -/
theorem condFirst_iff : ∀ t : Fin cfg1.N, condFirst (grid1.coords t) ↔ t.val = 0 :=
  (by decide +kernel : ∀ t : Fin grid1.N, condFirst (grid1.coords t) ↔ t.val = 0)

/-- The body's second conditional (normalise, take the logarithm, store the output). -/
abbrev condLast (i : grid1.Coords) : Prop := k1_cond2 i = 1#1
/-- It is taken at the last point and nowhere else. -/
theorem condLast_iff : ∀ t : Fin cfg1.N, condLast (grid1.coords t) ↔ t.val = 3 :=
  (by decide +kernel : ∀ t : Fin grid1.N, condLast (grid1.coords t) ↔ t.val = 3)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
/-- Away from the last point the body stores nothing into the output's window and the window is not written back. -/
theorem idle_4 : ∀ t : Fin cfg1.N, ¬condLast (grid1.coords t) → cfg1.idle 4 (grid1.coords t) = true := by decide +kernel
theorem noFlush_4 : ∀ t : Fin cfg1.N, ¬condLast (grid1.coords t) → (cfg1.win 4).flush t = false := by decide +kernel
/-- At the last point it is stored whole. -/
theorem live_4 : ∀ t : Fin cfg1.N, condLast (grid1.coords t) → cfg1.idle 4 (grid1.coords t) = false := by decide +kernel

/-! ## The buffers the body is called with -/

abbrev ms_0 (t : Fin cfg1.N) : Memref sig .tc .vmem S32x256 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S32x1 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S2048x256 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S2048x1 .i32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S32x1024 .f32 := win1_4.stage (cfg1.slots t 4)
abbrev hs_4 (t : Fin cfg1.N) : (ms_4 t).IsWhole := hstage1_4 ((cfg1.slots t 4).cast nbuf1_4)
/-- The three carried buffers: the running maximum, the running denominator, the running numerator. -/
abbrev scMax : Memref sig .tc .vmem S32x1 .f32 := Memref.whole cc1_scratch0
abbrev scDen : Memref sig .tc .vmem S32x1 .f32 := Memref.whole cc1_scratch1
abbrev scNum : Memref sig .tc .vmem S32x1024 .f32 := Memref.whole cc1_scratch2
/-- Views through which their contents, and the output buffer's, are stated. -/
abbrev VMax : View sig .tc .vmem S32x1 .f32 := scMax.view
abbrev VDen : View sig .tc .vmem S32x1 .f32 := scDen.view
abbrev VNum : View sig .tc .vmem S32x1024 .f32 := scNum.view
abbrev VOut : View sig .tc .vmem S32x1024 .f32 := (Memref.whole cc1_stg4_0 : Memref sig .tc .vmem S32x1024 .f32).view

/-- A scoped buffer of the core held whole at some contents. -/
abbrev anyAt (c : Dev nD) (b : Ref sig .tc) : sProp 𝕄 :=
  iprop(∃ f : Buf (Elt F) ((c : Thread nD τ).loc b), ((c : Thread nD τ).loc b) ↦{fullShare} f)

/-- The region's plain invariant spelled out: the first kernel's five staging buffers at some contents, the three
    carried buffers as memrefs owned at some contents, and the generator register at some state. -/
theorem PhiA_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg2_0 ∗ anyAt (F := F) c cc0_stg2_1
          ∗ (∃ d, owns (c : Thread nD τ) scMax fullShare d) ∗ (∃ d, owns (c : Thread nD τ) scDen fullShare d)
          ∗ (∃ d, owns (c : Thread nD τ) scNum fullShare d)) ∗ (∃ r, prngReg c r)) := by
  unfold Pipeline.ΦA; rw [scopedRest1_eq]; simp only [scMax, scDen, scNum, owns_whole]; try rfl

/-! ## The input windows' blocks, read off the arrays as the region finds them -/

section Blocks
variable (V : (c : Dev nD) → (b : Ref sig .tc) → Buf (Elt F) ((c : Thread nD τ).loc b))

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (a window whose
    block index does not move keeps the block it fetched at the first point). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Blocks

end Cert.Kernel.Region1

end
-- ==== Proof.Region1RunFirstK.lean ====
/-
  The second kernel's body run whole AT THE FIRST GRID POINT (the reset is taken, the final normalisation is not): on
  whole buffers — the four inputs at their contents, the output's buffer at contents it hands back untouched, the three
  carried buffers at anything — it ends with the inputs as they were and each carried buffer rewritten by the stores the
  run finds (their pieces, last first, are the witness).
-/
import proofs.«131352_j66331474920046_2_alg».proof.Proof.Region1BaseK

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runFirst (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i)
    (x0 : Vec F S32x256 .f32) (x1 : Vec F S32x1 .f32) (x2 : Vec F S2048x256 .f32) (x3 : Vec F S2048x1 .i32) :
    Σ' (LM : List (View.Piece (Elt F) S32x1 .f32)) (LD : List (View.Piece (Elt F) S32x1 .f32)), { LN : List (View.Piece (Elt F) S32x1024 .f32) //
      ∀ (xi : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LD) ∗ (∃ f, arg9.view.loc (c : Thread nD τ) ↦[arg9.view.set]{fullShare} arg9.view.writes (Elt F) f LN)) -∗ K ⟨⟩))
          ⊢ wp frame (wpE (defs₀ (F := F)) Variants.none c none) E (cc1__nwhead_kernel i arg2 harg2 arg3 harg3 arg4 harg4 arg5 harg5 arg6 harg6 arg7 harg7 arg8 harg8 arg9 harg9) K } := by
  refine ⟨?_, ?_, ?_, fun xi E K => ?run⟩
  case run =>
    simp only [cc1__nwhead_kernel_eq_skeleton]; unfold cc1__nwhead_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]; · iexists _; iexact H7
    isplitl [H8]; · iexists _; iexact H8
    iexists _; iexact H9

end Cert.Kernel.Region1

end
-- ==== Proof.Region1RunMidK.lean ====
/-
  The second kernel's body run whole AT A MIDDLE GRID POINT (neither conditional taken): the carried buffers enter at the
  contents the point before left and are rewritten; the output's buffer is handed back untouched.
-/
import proofs.«131352_j66331474920046_2_alg».proof.Proof.Region1RunFirstK

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runMid (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i)
    (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) :
    Σ' (LM : List (View.Piece (Elt F) S32x1 .f32)) (LD : List (View.Piece (Elt F) S32x1 .f32)), { LN : List (View.Piece (Elt F) S32x1024 .f32) //
      ∀ (xi : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi
            ∗ owns (c : Thread nD τ) arg7 fullShare xm ∗ owns (c : Thread nD τ) arg8 fullShare xl ∗ owns (c : Thread nD τ) arg9 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LD) ∗ (∃ f, arg9.view.loc (c : Thread nD τ) ↦[arg9.view.set]{fullShare} arg9.view.writes (Elt F) f LN)) -∗ K ⟨⟩))
          ⊢ wp frame (wpE (defs₀ (F := F)) Variants.none c none) E (cc1__nwhead_kernel i arg2 harg2 arg3 harg3 arg4 harg4 arg5 harg5 arg6 harg6 arg7 harg7 arg8 harg8 arg9 harg9) K } := by
  refine ⟨?_, ?_, ?_, fun xi E K => ?run⟩
  case run =>
    simp only [cc1__nwhead_kernel_eq_skeleton]; unfold cc1__nwhead_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf6
    obtain rfl := harg7.eq_unread hf7; obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]; · iexists _; iexact H7
    isplitl [H8]; · iexists _; iexact H8
    iexists _; iexact H9

end Cert.Kernel.Region1

end
-- ==== Proof.Region1RunLastK.lean ====
/-
  The second kernel's body run whole AT THE LAST GRID POINT (no reset; the normalisation, the logarithm and the output's
  store are taken): the carried buffers enter at the contents the point before left and are rewritten, and the output's
  buffer, entered at anything, ends rewritten by the one store the run finds.
-/
import proofs.«131352_j66331474920046_2_alg».proof.Proof.Region1RunMidK

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i)
    (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) :
    Σ' (LO : List (View.Piece (Elt F) S32x1024 .f32)) (LM : List (View.Piece (Elt F) S32x1 .f32)) (LD : List (View.Piece (Elt F) S32x1 .f32)), { LN : List (View.Piece (Elt F) S32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xm ∗ owns (c : Thread nD τ) arg8 fullShare xl ∗ owns (c : Thread nD τ) arg9 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LD) ∗ (∃ f, arg9.view.loc (c : Thread nD τ) ↦[arg9.view.set]{fullShare} arg9.view.writes (Elt F) f LN)) -∗ K ⟨⟩))
          ⊢ wp frame (wpE (defs₀ (F := F)) Variants.none c none) E (cc1__nwhead_kernel i arg2 harg2 arg3 harg3 arg4 harg4 arg5 harg5 arg6 harg6 arg7 harg7 arg8 harg8 arg9 harg9) K } := by
  refine ⟨?_, ?_, ?_, ?_, fun E K => ?run⟩
  case run =>
    simp only [cc1__nwhead_kernel_eq_skeleton]; unfold cc1__nwhead_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3
    obtain rfl := harg7.eq_unread hf7; obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    isplitl [H8]; · iexists _; iexact H8
    iexists _; iexact H9

end Cert.Kernel.Region1

end
-- ==== Proof.Region1K.lean ====
/-
  The second kernel point by point. What each of its three kinds of grid point (first, middle, last) leaves in the
  three carried buffers and in the output's buffer; the state after each of the four points as a recursion on the
  point (each point's run started from what the point before left); the region's invariant that carries that
  state from point to point; the pipeline's proof data over it; and the body's obligation at every point.
-/
import proofs.«131352_j66331474920046_2_alg».proof.Proof.Region1RunLastK

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each kind of point leaves -/

/-- What the First point's run leaves in the running maximum: its stores read back. -/
def maxFirst (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i) (x0 : Vec F S32x256 .f32) (x1 : Vec F S32x1 .f32) (x2 : Vec F S2048x256 .f32) (x3 : Vec F S2048x1 .i32) : Vec F S32x1 .f32 :=
  VMax.read (Elt F) (VMax.writes (Elt F) VMax.junk (runFirst c i arg2 harg2 arg3 harg3 arg4 harg4 arg5 harg5 arg6 harg6 arg7 harg7 arg8 harg8 arg9 harg9 hc0 hc1 x0 x1 x2 x3).1)
/-- Those stores tile the buffer, so they cover it. -/
theorem cover_maxFirst (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i) (x0 : Vec F S32x256 .f32) (x1 : Vec F S32x1 .f32) (x2 : Vec F S2048x256 .f32) (x3 : Vec F S2048x1 .i32) (y : S32x1.Idx) :
    ∃ pc ∈ (runFirst c i arg2 harg2 arg3 harg3 arg4 harg4 arg5 harg5 arg6 harg6 arg7 harg7 arg8 harg8 arg9 harg9 hc0 hc1 x0 x1 x2 x3).1, y ∈ pc.1.set :=
  View.cover_of_tiledL (runFirst c i arg2 harg2 arg3 harg3 arg4 harg4 arg5 harg5 arg6 harg6 arg7 harg7 arg8 harg8 arg9 harg9 hc0 hc1 x0 x1 x2 x3).1 S32x1.size (by sl_kernel_rfl) y
/-- What the First point's run leaves in the running denominator: its stores read back. -/
def denFirst (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i) (x0 : Vec F S32x256 .f32) (x1 : Vec F S32x1 .f32) (x2 : Vec F S2048x256 .f32) (x3 : Vec F S2048x1 .i32) : Vec F S32x1 .f32 :=
  VDen.read (Elt F) (VDen.writes (Elt F) VDen.junk (runFirst c i arg2 harg2 arg3 harg3 arg4 harg4 arg5 harg5 arg6 harg6 arg7 harg7 arg8 harg8 arg9 harg9 hc0 hc1 x0 x1 x2 x3).2.1)
/-- Those stores tile the buffer, so they cover it. -/
theorem cover_denFirst (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i) (x0 : Vec F S32x256 .f32) (x1 : Vec F S32x1 .f32) (x2 : Vec F S2048x256 .f32) (x3 : Vec F S2048x1 .i32) (y : S32x1.Idx) :
    ∃ pc ∈ (runFirst c i arg2 harg2 arg3 harg3 arg4 harg4 arg5 harg5 arg6 harg6 arg7 harg7 arg8 harg8 arg9 harg9 hc0 hc1 x0 x1 x2 x3).2.1, y ∈ pc.1.set :=
  View.cover_of_tiledL (runFirst c i arg2 harg2 arg3 harg3 arg4 harg4 arg5 harg5 arg6 harg6 arg7 harg7 arg8 harg8 arg9 harg9 hc0 hc1 x0 x1 x2 x3).2.1 S32x1.size (by sl_kernel_rfl) y
/-- What the First point's run leaves in the running numerator: its stores read back. -/
def numFirst (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i) (x0 : Vec F S32x256 .f32) (x1 : Vec F S32x1 .f32) (x2 : Vec F S2048x256 .f32) (x3 : Vec F S2048x1 .i32) : Vec F S32x1024 .f32 :=
  VNum.read (Elt F) (VNum.writes (Elt F) VNum.junk (runFirst c i arg2 harg2 arg3 harg3 arg4 harg4 arg5 harg5 arg6 harg6 arg7 harg7 arg8 harg8 arg9 harg9 hc0 hc1 x0 x1 x2 x3).2.2.1)
/-- Those stores tile the buffer, so they cover it. -/
theorem cover_numFirst (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i) (x0 : Vec F S32x256 .f32) (x1 : Vec F S32x1 .f32) (x2 : Vec F S2048x256 .f32) (x3 : Vec F S2048x1 .i32) (y : S32x1024.Idx) :
    ∃ pc ∈ (runFirst c i arg2 harg2 arg3 harg3 arg4 harg4 arg5 harg5 arg6 harg6 arg7 harg7 arg8 harg8 arg9 harg9 hc0 hc1 x0 x1 x2 x3).2.2.1, y ∈ pc.1.set :=
  View.cover_of_tiledL (runFirst c i arg2 harg2 arg3 harg3 arg4 harg4 arg5 harg5 arg6 harg6 arg7 harg7 arg8 harg8 arg9 harg9 hc0 hc1 x0 x1 x2 x3).2.2.1 S32x1024.size (by sl_kernel_rfl) y

/-- What the Mid point's run leaves in the running maximum: its stores read back. -/
def maxMid (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) : Vec F S32x1 .f32 :=
  VMax.read (Elt F) (VMax.writes (Elt F) VMax.junk (runMid c i arg2 harg2 arg3 harg3 arg4 harg4 arg5 harg5 arg6 harg6 arg7 harg7 arg8 harg8 arg9 harg9 hc0 hc1 x0 x1 x2 x3 xm xl xa).1)
/-- Those stores tile the buffer, so they cover it. -/
theorem cover_maxMid (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) (y : S32x1.Idx) :
    ∃ pc ∈ (runMid c i arg2 harg2 arg3 harg3 arg4 harg4 arg5 harg5 arg6 harg6 arg7 harg7 arg8 harg8 arg9 harg9 hc0 hc1 x0 x1 x2 x3 xm xl xa).1, y ∈ pc.1.set :=
  View.cover_of_tiledL (runMid c i arg2 harg2 arg3 harg3 arg4 harg4 arg5 harg5 arg6 harg6 arg7 harg7 arg8 harg8 arg9 harg9 hc0 hc1 x0 x1 x2 x3 xm xl xa).1 S32x1.size (by sl_kernel_rfl) y
/-- What the Mid point's run leaves in the running denominator: its stores read back. -/
def denMid (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) : Vec F S32x1 .f32 :=
  VDen.read (Elt F) (VDen.writes (Elt F) VDen.junk (runMid c i arg2 harg2 arg3 harg3 arg4 harg4 arg5 harg5 arg6 harg6 arg7 harg7 arg8 harg8 arg9 harg9 hc0 hc1 x0 x1 x2 x3 xm xl xa).2.1)
/-- Those stores tile the buffer, so they cover it. -/
theorem cover_denMid (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) (y : S32x1.Idx) :
    ∃ pc ∈ (runMid c i arg2 harg2 arg3 harg3 arg4 harg4 arg5 harg5 arg6 harg6 arg7 harg7 arg8 harg8 arg9 harg9 hc0 hc1 x0 x1 x2 x3 xm xl xa).2.1, y ∈ pc.1.set :=
  View.cover_of_tiledL (runMid c i arg2 harg2 arg3 harg3 arg4 harg4 arg5 harg5 arg6 harg6 arg7 harg7 arg8 harg8 arg9 harg9 hc0 hc1 x0 x1 x2 x3 xm xl xa).2.1 S32x1.size (by sl_kernel_rfl) y
/-- What the Mid point's run leaves in the running numerator: its stores read back. -/
def numMid (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) : Vec F S32x1024 .f32 :=
  VNum.read (Elt F) (VNum.writes (Elt F) VNum.junk (runMid c i arg2 harg2 arg3 harg3 arg4 harg4 arg5 harg5 arg6 harg6 arg7 harg7 arg8 harg8 arg9 harg9 hc0 hc1 x0 x1 x2 x3 xm xl xa).2.2.1)
/-- Those stores tile the buffer, so they cover it. -/
theorem cover_numMid (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) (y : S32x1024.Idx) :
    ∃ pc ∈ (runMid c i arg2 harg2 arg3 harg3 arg4 harg4 arg5 harg5 arg6 harg6 arg7 harg7 arg8 harg8 arg9 harg9 hc0 hc1 x0 x1 x2 x3 xm xl xa).2.2.1, y ∈ pc.1.set :=
  View.cover_of_tiledL (runMid c i arg2 harg2 arg3 harg3 arg4 harg4 arg5 harg5 arg6 harg6 arg7 harg7 arg8 harg8 arg9 harg9 hc0 hc1 x0 x1 x2 x3 xm xl xa).2.2.1 S32x1024.size (by sl_kernel_rfl) y

/-- What the Last point's run leaves in the output's buffer: its stores read back. -/
def outLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) : Vec F S32x1024 .f32 :=
  VOut.read (Elt F) (VOut.writes (Elt F) VOut.junk (runLast c i arg2 harg2 arg3 harg3 arg4 harg4 arg5 harg5 arg6 harg6 arg7 harg7 arg8 harg8 arg9 harg9 hc0 hc1 x0 x1 x2 x3 xm xl xa).1)
/-- Those stores tile the buffer, so they cover it. -/
theorem cover_outLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) (y : S32x1024.Idx) :
    ∃ pc ∈ (runLast c i arg2 harg2 arg3 harg3 arg4 harg4 arg5 harg5 arg6 harg6 arg7 harg7 arg8 harg8 arg9 harg9 hc0 hc1 x0 x1 x2 x3 xm xl xa).1, y ∈ pc.1.set :=
  View.cover_of_tiledL (runLast c i arg2 harg2 arg3 harg3 arg4 harg4 arg5 harg5 arg6 harg6 arg7 harg7 arg8 harg8 arg9 harg9 hc0 hc1 x0 x1 x2 x3 xm xl xa).1 S32x1024.size (by sl_kernel_rfl) y
/-- What the Last point's run leaves in the running maximum: its stores read back. -/
def maxLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) : Vec F S32x1 .f32 :=
  VMax.read (Elt F) (VMax.writes (Elt F) VMax.junk (runLast c i arg2 harg2 arg3 harg3 arg4 harg4 arg5 harg5 arg6 harg6 arg7 harg7 arg8 harg8 arg9 harg9 hc0 hc1 x0 x1 x2 x3 xm xl xa).2.1)
/-- Those stores tile the buffer, so they cover it. -/
theorem cover_maxLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) (y : S32x1.Idx) :
    ∃ pc ∈ (runLast c i arg2 harg2 arg3 harg3 arg4 harg4 arg5 harg5 arg6 harg6 arg7 harg7 arg8 harg8 arg9 harg9 hc0 hc1 x0 x1 x2 x3 xm xl xa).2.1, y ∈ pc.1.set :=
  View.cover_of_tiledL (runLast c i arg2 harg2 arg3 harg3 arg4 harg4 arg5 harg5 arg6 harg6 arg7 harg7 arg8 harg8 arg9 harg9 hc0 hc1 x0 x1 x2 x3 xm xl xa).2.1 S32x1.size (by sl_kernel_rfl) y
/-- What the Last point's run leaves in the running denominator: its stores read back. -/
def denLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) : Vec F S32x1 .f32 :=
  VDen.read (Elt F) (VDen.writes (Elt F) VDen.junk (runLast c i arg2 harg2 arg3 harg3 arg4 harg4 arg5 harg5 arg6 harg6 arg7 harg7 arg8 harg8 arg9 harg9 hc0 hc1 x0 x1 x2 x3 xm xl xa).2.2.1)
/-- Those stores tile the buffer, so they cover it. -/
theorem cover_denLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) (y : S32x1.Idx) :
    ∃ pc ∈ (runLast c i arg2 harg2 arg3 harg3 arg4 harg4 arg5 harg5 arg6 harg6 arg7 harg7 arg8 harg8 arg9 harg9 hc0 hc1 x0 x1 x2 x3 xm xl xa).2.2.1, y ∈ pc.1.set :=
  View.cover_of_tiledL (runLast c i arg2 harg2 arg3 harg3 arg4 harg4 arg5 harg5 arg6 harg6 arg7 harg7 arg8 harg8 arg9 harg9 hc0 hc1 x0 x1 x2 x3 xm xl xa).2.2.1 S32x1.size (by sl_kernel_rfl) y
/-- What the Last point's run leaves in the running numerator: its stores read back. -/
def numLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) : Vec F S32x1024 .f32 :=
  VNum.read (Elt F) (VNum.writes (Elt F) VNum.junk (runLast c i arg2 harg2 arg3 harg3 arg4 harg4 arg5 harg5 arg6 harg6 arg7 harg7 arg8 harg8 arg9 harg9 hc0 hc1 x0 x1 x2 x3 xm xl xa).2.2.2.1)
/-- Those stores tile the buffer, so they cover it. -/
theorem cover_numLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) (y : S32x1024.Idx) :
    ∃ pc ∈ (runLast c i arg2 harg2 arg3 harg3 arg4 harg4 arg5 harg5 arg6 harg6 arg7 harg7 arg8 harg8 arg9 harg9 hc0 hc1 x0 x1 x2 x3 xm xl xa).2.2.2.1, y ∈ pc.1.set :=
  View.cover_of_tiledL (runLast c i arg2 harg2 arg3 harg3 arg4 harg4 arg5 harg5 arg6 harg6 arg7 harg7 arg8 harg8 arg9 harg9 hc0 hc1 x0 x1 x2 x3 xm xl xa).2.2.2.1 S32x1024.size (by sl_kernel_rfl) y

section Points
variable (V : (c : Dev nD) → (b : Ref sig .tc) → Buf (Elt F) ((c : Thread nD τ).loc b))

/-! ## The state after each point -/

/-- What the output's buffer and the three carried buffers hold after the body at position `n`: the first point run
    from anything, every later point from what the point before left; the output's component is read only at the last
    point (elsewhere the window is idle and the component is a placeholder nothing consults). -/
def stateAt (c : Dev nD) : (n : ℕ) → n < cfg1.N → Vec F S32x1024 .f32 × Vec F S32x1 .f32 × Vec F S32x1 .f32 × Vec F S32x1024 .f32
  | 0, hn =>
    (VOut.read (Elt F) VOut.junk,
     maxFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scMax (Memref.isWhole_whole _) scDen (Memref.isWhole_whole _) scNum (Memref.isWhole_whole _) ((condFirst_iff ⟨0, hn⟩).mpr rfl) (fun h => absurd ((condLast_iff ⟨0, hn⟩).mp h) (show ¬ (0 : ℕ) = 3 by decide)) (iblk V c 0 ⟨0, hn⟩) (iblk V c 1 ⟨0, hn⟩) (iblk V c 2 ⟨0, hn⟩) (iblk V c 3 ⟨0, hn⟩),
     denFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scMax (Memref.isWhole_whole _) scDen (Memref.isWhole_whole _) scNum (Memref.isWhole_whole _) ((condFirst_iff ⟨0, hn⟩).mpr rfl) (fun h => absurd ((condLast_iff ⟨0, hn⟩).mp h) (show ¬ (0 : ℕ) = 3 by decide)) (iblk V c 0 ⟨0, hn⟩) (iblk V c 1 ⟨0, hn⟩) (iblk V c 2 ⟨0, hn⟩) (iblk V c 3 ⟨0, hn⟩),
     numFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scMax (Memref.isWhole_whole _) scDen (Memref.isWhole_whole _) scNum (Memref.isWhole_whole _) ((condFirst_iff ⟨0, hn⟩).mpr rfl) (fun h => absurd ((condLast_iff ⟨0, hn⟩).mp h) (show ¬ (0 : ℕ) = 3 by decide)) (iblk V c 0 ⟨0, hn⟩) (iblk V c 1 ⟨0, hn⟩) (iblk V c 2 ⟨0, hn⟩) (iblk V c 3 ⟨0, hn⟩))
  | n + 1, hn =>
    if h3 : n + 1 = 3 then
      (outLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n)) ((condLast_iff ⟨n + 1, hn⟩).mpr h3) (iblk V c 0 ⟨n + 1, hn⟩) (iblk V c 1 ⟨n + 1, hn⟩) (iblk V c 2 ⟨n + 1, hn⟩) (iblk V c 3 ⟨n + 1, hn⟩) (stateAt c n (Nat.lt_of_succ_lt hn)).2.1 (stateAt c n (Nat.lt_of_succ_lt hn)).2.2.1 (stateAt c n (Nat.lt_of_succ_lt hn)).2.2.2,
       maxLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n)) ((condLast_iff ⟨n + 1, hn⟩).mpr h3) (iblk V c 0 ⟨n + 1, hn⟩) (iblk V c 1 ⟨n + 1, hn⟩) (iblk V c 2 ⟨n + 1, hn⟩) (iblk V c 3 ⟨n + 1, hn⟩) (stateAt c n (Nat.lt_of_succ_lt hn)).2.1 (stateAt c n (Nat.lt_of_succ_lt hn)).2.2.1 (stateAt c n (Nat.lt_of_succ_lt hn)).2.2.2,
       denLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n)) ((condLast_iff ⟨n + 1, hn⟩).mpr h3) (iblk V c 0 ⟨n + 1, hn⟩) (iblk V c 1 ⟨n + 1, hn⟩) (iblk V c 2 ⟨n + 1, hn⟩) (iblk V c 3 ⟨n + 1, hn⟩) (stateAt c n (Nat.lt_of_succ_lt hn)).2.1 (stateAt c n (Nat.lt_of_succ_lt hn)).2.2.1 (stateAt c n (Nat.lt_of_succ_lt hn)).2.2.2,
       numLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n)) ((condLast_iff ⟨n + 1, hn⟩).mpr h3) (iblk V c 0 ⟨n + 1, hn⟩) (iblk V c 1 ⟨n + 1, hn⟩) (iblk V c 2 ⟨n + 1, hn⟩) (iblk V c 3 ⟨n + 1, hn⟩) (stateAt c n (Nat.lt_of_succ_lt hn)).2.1 (stateAt c n (Nat.lt_of_succ_lt hn)).2.2.1 (stateAt c n (Nat.lt_of_succ_lt hn)).2.2.2)
    else
      (VOut.read (Elt F) VOut.junk,
       maxMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n)) (fun h => h3 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (stateAt c n (Nat.lt_of_succ_lt hn)).2.1 (stateAt c n (Nat.lt_of_succ_lt hn)).2.2.1 (stateAt c n (Nat.lt_of_succ_lt hn)).2.2.2,
       denMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n)) (fun h => h3 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (stateAt c n (Nat.lt_of_succ_lt hn)).2.1 (stateAt c n (Nat.lt_of_succ_lt hn)).2.2.1 (stateAt c n (Nat.lt_of_succ_lt hn)).2.2.2,
       numMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n)) (fun h => h3 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (stateAt c n (Nat.lt_of_succ_lt hn)).2.1 (stateAt c n (Nat.lt_of_succ_lt hn)).2.2.1 (stateAt c n (Nat.lt_of_succ_lt hn)).2.2.2)

/-- The point before `t`, when `t` is not the first. -/
abbrev prevState (c : Dev nD) (t : Fin cfg1.N) := stateAt V c (t.val - 1) (Nat.lt_of_le_of_lt (Nat.sub_le _ _) t.isLt)

/-- The state after the first point. -/
theorem stateAt_first (c : Dev nD) (t : Fin cfg1.N) (h0 : t.val = 0) (h3 : ¬t.val = 3) :
    stateAt V c t.val t.isLt =
      (VOut.read (Elt F) VOut.junk,
       maxFirst c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) ((condFirst_iff t).mpr h0) (fun h => h3 ((condLast_iff t).mp h)) (iblk V c 0 t) (iblk V c 1 t) (iblk V c 2 t) (iblk V c 3 t),
       denFirst c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) ((condFirst_iff t).mpr h0) (fun h => h3 ((condLast_iff t).mp h)) (iblk V c 0 t) (iblk V c 1 t) (iblk V c 2 t) (iblk V c 3 t),
       numFirst c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) ((condFirst_iff t).mpr h0) (fun h => h3 ((condLast_iff t).mp h)) (iblk V c 0 t) (iblk V c 1 t) (iblk V c 2 t) (iblk V c 3 t)) := by
  obtain ⟨n, hn⟩ := t
  cases n with
  | zero => exact rfl
  | succ n => exact absurd h0 (Nat.succ_ne_zero n)

/-- The state after a middle point, over what the point before left. -/
theorem stateAt_mid (c : Dev nD) (t : Fin cfg1.N) (h0 : ¬t.val = 0) (h3 : ¬t.val = 3) :
    stateAt V c t.val t.isLt =
      (VOut.read (Elt F) VOut.junk,
       maxMid c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) (fun h => h3 ((condLast_iff t).mp h)) (iblk V c 0 t) (iblk V c 1 t) (iblk V c 2 t) (iblk V c 3 t) (prevState V c t).2.1 (prevState V c t).2.2.1 (prevState V c t).2.2.2,
       denMid c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) (fun h => h3 ((condLast_iff t).mp h)) (iblk V c 0 t) (iblk V c 1 t) (iblk V c 2 t) (iblk V c 3 t) (prevState V c t).2.1 (prevState V c t).2.2.1 (prevState V c t).2.2.2,
       numMid c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) (fun h => h3 ((condLast_iff t).mp h)) (iblk V c 0 t) (iblk V c 1 t) (iblk V c 2 t) (iblk V c 3 t) (prevState V c t).2.1 (prevState V c t).2.2.1 (prevState V c t).2.2.2) := by
  obtain ⟨n, hn⟩ := t
  cases n with
  | zero => exact absurd rfl h0
  | succ n => exact (dif_neg h3).trans rfl

/-- The state after the last point, over what the point before left. -/
theorem stateAt_last (c : Dev nD) (t : Fin cfg1.N) (h0 : ¬t.val = 0) (h3 : t.val = 3) :
    stateAt V c t.val t.isLt =
      (outLast c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) ((condLast_iff t).mpr h3) (iblk V c 0 t) (iblk V c 1 t) (iblk V c 2 t) (iblk V c 3 t) (prevState V c t).2.1 (prevState V c t).2.2.1 (prevState V c t).2.2.2,
       maxLast c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) ((condLast_iff t).mpr h3) (iblk V c 0 t) (iblk V c 1 t) (iblk V c 2 t) (iblk V c 3 t) (prevState V c t).2.1 (prevState V c t).2.2.1 (prevState V c t).2.2.2,
       denLast c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) ((condLast_iff t).mpr h3) (iblk V c 0 t) (iblk V c 1 t) (iblk V c 2 t) (iblk V c 3 t) (prevState V c t).2.1 (prevState V c t).2.2.1 (prevState V c t).2.2.2,
       numLast c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) ((condLast_iff t).mpr h3) (iblk V c 0 t) (iblk V c 1 t) (iblk V c 2 t) (iblk V c 3 t) (prevState V c t).2.1 (prevState V c t).2.2.1 (prevState V c t).2.2.2) := by
  obtain ⟨n, hn⟩ := t
  cases n with
  | zero => exact absurd rfl h0
  | succ n => exact (dif_pos h3).trans rfl

/-! ## The invariant that carries the state -/

/-- Before the first point the region's plain invariant (every scoped buffer at anything); after point `n` the first
    kernel's staging buffers at anything and the three carried buffers at that point's state. -/
def PhiS (c : Dev nD) : (n : ℕ) → n ≤ cfg1.N → sProp 𝕄
  | 0, _ => Pipeline.ΦA spec1 c
  | n + 1, hn => iprop(iprop(anyAt (F := F) c cc0_stg0_0 ∗ anyAt (F := F) c cc0_stg0_1 ∗ anyAt (F := F) c cc0_stg1_0 ∗ anyAt (F := F) c cc0_stg2_0 ∗ anyAt (F := F) c cc0_stg2_1
      ∗ owns (c : Thread nD τ) scMax fullShare (stateAt V c n hn).2.1 ∗ owns (c : Thread nD τ) scDen fullShare (stateAt V c n hn).2.2.1
      ∗ owns (c : Thread nD τ) scNum fullShare (stateAt V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt (F := F) c cc0_stg0_0 ∗ anyAt (F := F) c cc0_stg0_1 ∗ anyAt (F := F) c cc0_stg1_0 ∗ anyAt (F := F) c cc0_stg2_0 ∗ anyAt (F := F) c cc0_stg2_1
      ∗ owns (c : Thread nD τ) scMax fullShare (stateAt V c n hn).2.1 ∗ owns (c : Thread nD τ) scDen fullShare (stateAt V c n hn).2.2.1
      ∗ owns (c : Thread nD τ) scNum fullShare (stateAt V c n hn).2.2.2) ∗ (∃ r, prngReg c r)) := rfl

theorem PhiS_pos (c : Dev nD) (n : ℕ) (h : n ≤ cfg1.N) (hz : n ≠ 0) :
    PhiS V c n h = iprop(iprop(anyAt (F := F) c cc0_stg0_0 ∗ anyAt (F := F) c cc0_stg0_1 ∗ anyAt (F := F) c cc0_stg1_0 ∗ anyAt (F := F) c cc0_stg2_0 ∗ anyAt (F := F) c cc0_stg2_1
      ∗ owns (c : Thread nD τ) scMax fullShare (stateAt V c (n - 1) (by omega)).2.1 ∗ owns (c : Thread nD τ) scDen fullShare (stateAt V c (n - 1) (by omega)).2.2.1
      ∗ owns (c : Thread nD τ) scNum fullShare (stateAt V c (n - 1) (by omega)).2.2.2) ∗ (∃ r, prngReg c r)) := by
  cases n with
  | zero => exact absurd rfl hz
  | succ n => rfl

/-! ## The pipeline's proof data -/

/-- The arrays as the region finds them; after the body at point `t` each input's buffer at its block and the output's at
    the state's output component; the invariant the one above; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (stateAt V c t.val t.isLt).1
  Φ t := PhiS V c t.val (Nat.le_of_lt_succ t.isLt)
  q _ := fullShare
  owed _ := 0

theorem A_eq (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after_0 (c : Dev nD) (t : Fin cfg1.N) : (dat1 V c).after 0 t = iblk V c 0 t := by dsimp only [dat1]
theorem after_1 (c : Dev nD) (t : Fin cfg1.N) : (dat1 V c).after 1 t = iblk V c 1 t := by dsimp only [dat1]
theorem after_2 (c : Dev nD) (t : Fin cfg1.N) : (dat1 V c).after 2 t = iblk V c 2 t := by dsimp only [dat1]
theorem after_3 (c : Dev nD) (t : Fin cfg1.N) : (dat1 V c).after 3 t = iblk V c 3 t := by dsimp only [dat1]
theorem after_4 (c : Dev nD) (t : Fin cfg1.N) : (dat1 V c).after 4 t = (stateAt V c t.val t.isLt).1 := by dsimp only [dat1]

theorem before_0 (c : Dev nD) (t : Fin cfg1.N) (d) : (dat1 V c).before 0 t d = iblk V c 0 t :=
  before_0_of V (dat1 V c) (A_eq V c 0) (after_0 V c) t d
theorem before_1 (c : Dev nD) (t : Fin cfg1.N) (d) : (dat1 V c).before 1 t d = iblk V c 1 t :=
  before_1_of V (dat1 V c) (A_eq V c 1) (after_1 V c) t d
theorem before_2 (c : Dev nD) (t : Fin cfg1.N) (d) : (dat1 V c).before 2 t d = iblk V c 2 t :=
  before_2_of V (dat1 V c) (A_eq V c 2) (after_2 V c) t d
theorem before_3 (c : Dev nD) (t : Fin cfg1.N) (d) : (dat1 V c).before 3 t d = iblk V c 3 t :=
  before_3_of V (dat1 V c) (A_eq V c 3) (after_3 V c) t d

end Points

end Cert.Kernel.Region1

end
-- ==== Proof.Region1BodyK.lean ====
/-
  The second kernel's body against the pipeline's obligation: at a first, a middle and the last grid point the body, called
  with each input window's block, the carried buffers at what the invariant says and the output's buffer, runs to
  the invariant at the next point — the carried buffers at that point's state — with every window's buffer as the
  proof data states; then the obligation at every point, and the invariant's two ends.
-/
import proofs.«131352_j66331474920046_2_alg».proof.Proof.Region1K

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-- What the body is called with at point `t`, -/
def bodyPre (c : Dev nD) (t : Fin cfg1.N) : sProp 𝕄 :=
  iprop((dat1 V c).Φ t.castSucc ∗ (dat1 V c).owesAt () t.castSucc
    ∗ (∃ d, owns (c : Thread nD τ) (ms_0 t) fullShare ((dat1 V c).before 0 t d))
    ∗ (∃ d, owns (c : Thread nD τ) (ms_1 t) fullShare ((dat1 V c).before 1 t d))
    ∗ (∃ d, owns (c : Thread nD τ) (ms_2 t) fullShare ((dat1 V c).before 2 t d))
    ∗ (∃ d, owns (c : Thread nD τ) (ms_3 t) fullShare ((dat1 V c).before 3 t d))
    ∗ (∃ d, owns (c : Thread nD τ) (ms_4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

/-- The rewriting every case starts with: the inputs' buffers hold their blocks, nothing is owed, the invariant after
    the point is the carried buffers at the point's state. -/
theorem body_goal_eq (c : Dev nD) (t : Fin cfg1.N) :
    (bodyPre V c t ⊢ wp frame (wpE (defs₀ (F := F)) Variants.none c none) Set.univ (bodyAt1 t) (fun _ => bodyPost V c t)) ↔
    (iprop((dat1 V c).Φ t.castSucc ∗ (dat1 V c).owesAt () t.castSucc
        ∗ (∃ d : (cfg1.win 0).block.Idx → Elt F (cfg1.win 0).elt, owns (c : Thread nD τ) (ms_0 t) fullShare (iblk V c 0 t))
        ∗ (∃ d : (cfg1.win 1).block.Idx → Elt F (cfg1.win 1).elt, owns (c : Thread nD τ) (ms_1 t) fullShare (iblk V c 1 t))
        ∗ (∃ d : (cfg1.win 2).block.Idx → Elt F (cfg1.win 2).elt, owns (c : Thread nD τ) (ms_2 t) fullShare (iblk V c 2 t))
        ∗ (∃ d : (cfg1.win 3).block.Idx → Elt F (cfg1.win 3).elt, owns (c : Thread nD τ) (ms_3 t) fullShare (iblk V c 3 t))
        ∗ (∃ d, owns (c : Thread nD τ) (ms_4 t) fullShare ((dat1 V c).before 4 t d)))
      ⊢ wp frame (wpE (defs₀ (F := F)) Variants.none c none) Set.univ (bodyAt1 t) (fun _ =>
        iprop(PhiS V c (t.val + 1) t.isLt ∗ (dat1 V c).owesAt () t.castSucc
          ∗ (dat1 V c).leavesExact 0 t ∗ (dat1 V c).leavesExact 1 t ∗ (dat1 V c).leavesExact 2 t
          ∗ (dat1 V c).leavesExact 3 t ∗ (dat1 V c).leavesExact 4 t))) := by
  unfold bodyPre bodyPost
  simp only [before_0, before_1, before_2, before_3]
  rfl

set_option maxHeartbeats 4000000 in
/-- The body at the first point. -/
theorem sound_body_first (c : Dev nD) (t : Fin cfg1.N) (h0 : t.val = 0) (h3 : ¬t.val = 3) :
    bodyPre V c t ⊢ wp frame (wpE (defs₀ (F := F)) Variants.none c none) Set.univ (bodyAt1 t) (fun _ => bodyPost V c t) := by
  rw [body_goal_eq]; unfold bodyAt1; rw [PhiS_succ]
  rw [show (dat1 V c).leavesExact 0 t = owns (c : Thread nD τ) (ms_0 t) fullShare ((dat1 V c).after 0 t) from by
    unfold Dat.leavesExact; rw [live_0 t], after_0]
  rw [show (dat1 V c).leavesExact 1 t = owns (c : Thread nD τ) (ms_1 t) fullShare ((dat1 V c).after 1 t) from by
    unfold Dat.leavesExact; rw [live_1 t], after_1]
  rw [show (dat1 V c).leavesExact 2 t = owns (c : Thread nD τ) (ms_2 t) fullShare ((dat1 V c).after 2 t) from by
    unfold Dat.leavesExact; rw [live_2 t], after_2]
  rw [show (dat1 V c).leavesExact 3 t = owns (c : Thread nD τ) (ms_3 t) fullShare ((dat1 V c).after 3 t) from by
    unfold Dat.leavesExact; rw [live_3 t], after_3]
  rw [Dat.leavesExact_idle (dat1 V c) 4 t (idle_4 t (fun h => h3 ((condLast_iff t).mp h))) (noFlush_4 t (fun h => h3 ((condLast_iff t).mp h)))]
  rw [stateAt_first V c t h0 h3]
  unfold maxFirst denFirst numFirst; (try dsimp only)
  rw [PhiS_castSucc V c t, PhiS_zero V c _ _ h0, PhiA_eq]
  iintro ⟨⟨⟨Ha, Hb, Hc, Hd, He, HM, HD, HN⟩, Hg⟩, Ho, ⟨%d0, H0⟩, ⟨%d1, H1⟩, ⟨%d2, H2⟩, ⟨%d3, H3⟩, ⟨%d4, H4⟩⟩
  iapply ((runFirst c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) ((condFirst_iff t).mpr h0) (fun h => h3 ((condLast_iff t).mp h)) (iblk V c 0 t) (iblk V c 1 t) (iblk V c 2 t) (iblk V c 3 t)).2.2.2 _ Set.univ _)
  isplitl [H0]; · iexact H0
  isplitl [H1]; · iexact H1
  isplitl [H2]; · iexact H2
  isplitl [H3]; · iexact H3
  isplitl [H4]; · iexact H4
  isplitl [HM]; · iexact HM
  isplitl [HD]; · iexact HD
  isplitl [HN]; · iexact HN
  iintro ⟨H0, H1, H2, H3, H4, ⟨%eM, HM⟩, ⟨%eD, HD⟩, ⟨%eN, HN⟩⟩
  isplitl [Ha Hb Hc Hd He HM HD HN Hg]
  · isplitr [Hg]
    · isplitl [Ha]; · iexact Ha
      isplitl [Hb]; · iexact Hb
      isplitl [Hc]; · iexact Hc
      isplitl [Hd]; · iexact Hd
      isplitl [He]; · iexact He
      isplitl [HM]
      · unfold owns; iexists _; isplitr
        swap; · iexact HM
        ipureintro; exact View.read_writes_of_cover _ _ _ _ _ (cover_maxFirst c _ _ _ _ _ _ _ _ _ _ _ _ _ _ _ _ _ _ _ _ _ _ _)
      isplitl [HD]
      · unfold owns; iexists _; isplitr
        swap; · iexact HD
        ipureintro; exact View.read_writes_of_cover _ _ _ _ _ (cover_denFirst c _ _ _ _ _ _ _ _ _ _ _ _ _ _ _ _ _ _ _ _ _ _ _)
      unfold owns; iexists _; isplitr
      swap; · iexact HN
      ipureintro; exact View.read_writes_of_cover _ _ _ _ _ (cover_numFirst c _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a middle point. -/
theorem sound_body_mid (c : Dev nD) (t : Fin cfg1.N) (h0 : ¬t.val = 0) (h3 : ¬t.val = 3) :
    bodyPre V c t ⊢ wp frame (wpE (defs₀ (F := F)) Variants.none c none) Set.univ (bodyAt1 t) (fun _ => bodyPost V c t) := by
  rw [body_goal_eq]; unfold bodyAt1; rw [PhiS_succ]
  rw [show (dat1 V c).leavesExact 0 t = owns (c : Thread nD τ) (ms_0 t) fullShare ((dat1 V c).after 0 t) from by
    unfold Dat.leavesExact; rw [live_0 t], after_0]
  rw [show (dat1 V c).leavesExact 1 t = owns (c : Thread nD τ) (ms_1 t) fullShare ((dat1 V c).after 1 t) from by
    unfold Dat.leavesExact; rw [live_1 t], after_1]
  rw [show (dat1 V c).leavesExact 2 t = owns (c : Thread nD τ) (ms_2 t) fullShare ((dat1 V c).after 2 t) from by
    unfold Dat.leavesExact; rw [live_2 t], after_2]
  rw [show (dat1 V c).leavesExact 3 t = owns (c : Thread nD τ) (ms_3 t) fullShare ((dat1 V c).after 3 t) from by
    unfold Dat.leavesExact; rw [live_3 t], after_3]
  rw [Dat.leavesExact_idle (dat1 V c) 4 t (idle_4 t (fun h => h3 ((condLast_iff t).mp h))) (noFlush_4 t (fun h => h3 ((condLast_iff t).mp h)))]
  rw [stateAt_mid V c t h0 h3]
  unfold maxMid denMid numMid; (try dsimp only)
  rw [PhiS_castSucc V c t, PhiS_pos V c _ _ h0]
  iintro ⟨⟨⟨Ha, Hb, Hc, Hd, He, HM, HD, HN⟩, Hg⟩, Ho, ⟨%d0, H0⟩, ⟨%d1, H1⟩, ⟨%d2, H2⟩, ⟨%d3, H3⟩, ⟨%d4, H4⟩⟩
  iapply ((runMid c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) (fun h => h3 ((condLast_iff t).mp h)) (iblk V c 0 t) (iblk V c 1 t) (iblk V c 2 t) (iblk V c 3 t) _ _ _).2.2.2 _ Set.univ _)
  isplitl [H0]; · iexact H0
  isplitl [H1]; · iexact H1
  isplitl [H2]; · iexact H2
  isplitl [H3]; · iexact H3
  isplitl [H4]; · iexact H4
  isplitl [HM]; · iexact HM
  isplitl [HD]; · iexact HD
  isplitl [HN]; · iexact HN
  iintro ⟨H0, H1, H2, H3, H4, ⟨%eM, HM⟩, ⟨%eD, HD⟩, ⟨%eN, HN⟩⟩
  isplitl [Ha Hb Hc Hd He HM HD HN Hg]
  · isplitr [Hg]
    · isplitl [Ha]; · iexact Ha
      isplitl [Hb]; · iexact Hb
      isplitl [Hc]; · iexact Hc
      isplitl [Hd]; · iexact Hd
      isplitl [He]; · iexact He
      isplitl [HM]
      · unfold owns; iexists _; isplitr
        swap; · iexact HM
        ipureintro; exact View.read_writes_of_cover _ _ _ _ _ (cover_maxMid c _ _ _ _ _ _ _ _ _ _ _ _ _ _ _ _ _ _ _ _ _ _ _ _ _ _)
      isplitl [HD]
      · unfold owns; iexists _; isplitr
        swap; · iexact HD
        ipureintro; exact View.read_writes_of_cover _ _ _ _ _ (cover_denMid c _ _ _ _ _ _ _ _ _ _ _ _ _ _ _ _ _ _ _ _ _ _ _ _ _ _)
      unfold owns; iexists _; isplitr
      swap; · iexact HN
      ipureintro; exact View.read_writes_of_cover _ _ _ _ _ (cover_numMid c _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at the last point. -/
theorem sound_body_last (c : Dev nD) (t : Fin cfg1.N) (h0 : ¬t.val = 0) (h3 : t.val = 3) :
    bodyPre V c t ⊢ wp frame (wpE (defs₀ (F := F)) Variants.none c none) Set.univ (bodyAt1 t) (fun _ => bodyPost V c t) := by
  rw [body_goal_eq]; unfold bodyAt1; rw [PhiS_succ]
  rw [show (dat1 V c).leavesExact 0 t = owns (c : Thread nD τ) (ms_0 t) fullShare ((dat1 V c).after 0 t) from by
    unfold Dat.leavesExact; rw [live_0 t], after_0]
  rw [show (dat1 V c).leavesExact 1 t = owns (c : Thread nD τ) (ms_1 t) fullShare ((dat1 V c).after 1 t) from by
    unfold Dat.leavesExact; rw [live_1 t], after_1]
  rw [show (dat1 V c).leavesExact 2 t = owns (c : Thread nD τ) (ms_2 t) fullShare ((dat1 V c).after 2 t) from by
    unfold Dat.leavesExact; rw [live_2 t], after_2]
  rw [show (dat1 V c).leavesExact 3 t = owns (c : Thread nD τ) (ms_3 t) fullShare ((dat1 V c).after 3 t) from by
    unfold Dat.leavesExact; rw [live_3 t], after_3]
  rw [show (dat1 V c).leavesExact 4 t = owns (c : Thread nD τ) (ms_4 t) fullShare ((dat1 V c).after 4 t) from by
    unfold Dat.leavesExact; rw [live_4 t ((condLast_iff t).mpr h3)], after_4]
  rw [stateAt_last V c t h0 h3]
  unfold outLast maxLast denLast numLast; (try dsimp only)
  rw [PhiS_castSucc V c t, PhiS_pos V c _ _ h0]
  iintro ⟨⟨⟨Ha, Hb, Hc, Hd, He, HM, HD, HN⟩, Hg⟩, Ho, ⟨%d0, H0⟩, ⟨%d1, H1⟩, ⟨%d2, H2⟩, ⟨%d3, H3⟩, ⟨%d4, H4⟩⟩
  iapply ((runLast c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) ((condLast_iff t).mpr h3) (iblk V c 0 t) (iblk V c 1 t) (iblk V c 2 t) (iblk V c 3 t) _ _ _).2.2.2.2 Set.univ _)
  isplitl [H0]; · iexact H0
  isplitl [H1]; · iexact H1
  isplitl [H2]; · iexact H2
  isplitl [H3]; · iexact H3
  isplitl [H4]; · iexists _; iexact H4
  isplitl [HM]; · iexact HM
  isplitl [HD]; · iexact HD
  isplitl [HN]; · iexact HN
  iintro ⟨H0, H1, H2, H3, ⟨%e4, H4⟩, ⟨%eM, HM⟩, ⟨%eD, HD⟩, ⟨%eN, HN⟩⟩
  isplitl [Ha Hb Hc Hd He HM HD HN Hg]
  · isplitr [Hg]
    · isplitl [Ha]; · iexact Ha
      isplitl [Hb]; · iexact Hb
      isplitl [Hc]; · iexact Hc
      isplitl [Hd]; · iexact Hd
      isplitl [He]; · iexact He
      isplitl [HM]
      · unfold owns; iexists _; isplitr
        swap; · iexact HM
        ipureintro; exact View.read_writes_of_cover _ _ _ _ _ (cover_maxLast c _ _ _ _ _ _ _ _ _ _ _ _ _ _ _ _ _ _ _ _ _ _ _ _ _ _)
      isplitl [HD]
      · unfold owns; iexists _; isplitr
        swap; · iexact HD
        ipureintro; exact View.read_writes_of_cover _ _ _ _ _ (cover_denLast c _ _ _ _ _ _ _ _ _ _ _ _ _ _ _ _ _ _ _ _ _ _ _ _ _ _)
      unfold owns; iexists _; isplitr
      swap; · iexact HN
      ipureintro; exact View.read_writes_of_cover _ _ _ _ _ (cover_numLast c _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover_outLast c _ _ _ _ _ _ _ _ _ _ _ _ _ _ _ _ _ _ _ _ _ _ _ _ _ _)

/-- The body at any point. -/
theorem sound_body (c : Dev nD) (t : Fin cfg1.N) :
    bodyPre V c t ⊢ wp frame (wpE (defs₀ (F := F)) Variants.none c none) Set.univ (bodyAt1 t) (fun _ => bodyPost V c t) := by
  have hN : t.val < 4 := lt_of_lt_of_eq t.isLt (show cfg1.N = 4 from N_1)
  by_cases h0 : t.val = 0
  · exact sound_body_first V c t h0 (by omega)
  · by_cases h3 : t.val = 3
    · exact sound_body_last V c t h0 h3
    · exact sound_body_mid V c t h0 h3

/-- The pipeline's body obligation, at every point. -/
theorem body_obligation1 (c : Dev nD) : BodyObligation (dat1 (F := F) V c) (defs₀ (F := F)) Variants.none () Set.univ := fun t => by
  rw [bigSep_W1, bigSep_W1]
  exact sound_body V c t

/-- The region's plain invariant is the tracked one before the first point. -/
theorem phi_in (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the tracked invariant gives the plain one back: the carried buffers' contents are forgotten. -/
theorem phi_out (c : Dev nD) : (dat1 V c).Φ (Fin.last cfg1.N) ⊢ Pipeline.ΦA spec1 c := by
  have hz : (Fin.last cfg1.N).val ≠ 0 := by rw [Fin.val_last]; have : cfg1.N = 4 := N_1; omega
  rw [show (dat1 V c).Φ (Fin.last cfg1.N) = PhiS V c (Fin.last cfg1.N).val (Nat.le_of_lt_succ (Fin.last cfg1.N).isLt) from rfl,
    PhiS_pos V c _ _ hz, PhiA_eq]
  iintro ⟨⟨Ha, Hb, Hc, Hd, He, HM, HD, HN⟩, Hg⟩
  isplitr [Hg]
  · isplitl [Ha]; · iexact Ha
    isplitl [Hb]; · iexact Hb
    isplitl [Hc]; · iexact Hc
    isplitl [Hd]; · iexact Hd
    isplitl [He]; · iexact He
    isplitl [HM]; · iexists _; iexact HM
    isplitl [HD]; · iexists _; iexact HD
    iexists _; iexact HN
  iexact Hg

end Body

end Cert.Kernel.Region1

end
-- ==== Proof.WholeK.lean ====
/-
  The whole program as five segments — a host stretch, the projection kernel, a host stretch, the tile-by-tile kernel,
  a host stretch — over one thread state per boundary: every unscoped buffer of the core at the boundary's contents, the
  generator register at some state, nothing owed. The contents fold through the program: a host stretch applies its
  operations, a kernel region replaces its arrays by what its write-backs leave. Each region enters by splitting its
  arrays out of the unscoped buffers and leaves by putting them back; the second region's invariant also carries its
  three buffers from grid point to grid point. The run names every unscoped buffer's final contents.
-/
import proofs.«131352_j66331474920046_2_alg».proof.Proof.Region0K
import proofs.«131352_j66331474920046_2_alg».proof.Proof.Region1BodyK
import proofs.«131352_j66331474920046_2_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the first host stretch: the projection kernel's entry. -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- After the projection kernel: its arrays at what its write-backs leave, every other buffer as entered. -/
def B2 (c : Dev nD) : Valuation τ sig (Elt F) :=
  Pipeline.withArrays spec0 c (B1 m ρ c) fun w => (Region0.dat0 (E1 m ρ) c).arrAt w cfg0.N
theorem B2_arr (c : Dev nD) (w : Fin cfg0.W) :
    B2 m ρ c (Proc.devRef .tc (Pipeline.arrRef spec0 w)) = (Region0.dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem arrays0_exit (c : Dev nD) (w : Fin cfg0.W) : (Region0.dat0 (E1 m ρ) c).arrAt w cfg0.N = E2 m ρ c (Pipeline.arrRef spec0 w) :=
  (B2_arr m ρ c w).symm
theorem rest0_exit (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch: the tile-by-tile kernel's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the tile-by-tile kernel. -/
def B4 (c : Dev nD) : Valuation τ sig (Elt F) :=
  Pipeline.withArrays spec1 c (B3 m ρ c) fun w => (Region1.dat1 (E3 m ρ) c).arrAt w cfg1.N
theorem B4_arr (c : Dev nD) (w : Fin cfg1.W) :
    B4 m ρ c (Proc.devRef .tc (Pipeline.arrRef spec1 w)) = (Region1.dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem arrays1_exit (c : Dev nD) (w : Fin cfg1.W) : (Region1.dat1 (E3 m ρ) c).arrAt w cfg1.N = E4 m ρ c (Pipeline.arrRef spec1 w) :=
  (B4_arr m ρ c w).symm
theorem rest1_exit (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- After the last host stretch: the return. -/
abbrev B5 : Dev nD → Valuation τ sig (Elt F) := fun c => StableHlo.after hostOps2 (B4 m ρ c)

/-! ## The proof data family and the thread state -/

abbrev tables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) tables p) c
  | ⟨0, _⟩ => fun c => Region0.dat0 (E1 m ρ) c
  | ⟨1, _⟩ => fun c => Region1.dat1 (E3 m ρ) c
abbrev noVar : Variants := Variants.none
abbrev noPairs : GSem nD τ sig → Finset Unit := fun _ => ∅
abbrev noLevel : GSem nD τ sig → Unit → ℕ := fun _ _ => 0
/-- What rides beside the buffers through every segment: the generator register at some state, nothing owed. -/
abbrev riding (c : Dev nD) : sProp 𝕄 := iprop((∃ r, prngReg c r) ∗ ∃ W, owes (c : Thread nD τ) (0 : CellTallies nD τ sig Unit) W)
/-- A host stretch as a segment over the unscoped references. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev atReturn (c : Dev nD) : sProp 𝕄 := iprop(StableHlo.held (c : Thread nD τ) (Pipeline.ucRefs τ sig) (B5 m ρ c) ∗ ∃ r, prngReg c r)

/-! ## The regions as segments -/

set_option backward.isDefEq.respectTransparency.types false in
/-- The projection kernel: entered from every unscoped buffer at `B1`, left at `B2`. -/
def region0 : Pipeline.RegionSeg (pcfgs (F := F)) tables (pdats m ρ) () defs₀ noVar noPairs noLevel 0 where
  win := launch0.win.to₀
  block_pos := launch0.block_pos
  stage_whole := launch0.stage_whole
  K := PEmpty
  osem k := k.elim
  ho := Pipeline.OwnSemFacts.none _
  hbody c := (Region0.body_obligation0 (E1 m ρ) c).loose
  hwaits := Pipeline.hwaits_of_owed_zero _ _ _ _ noPairs noLevel 0 fun _ _ => rfl
  pre c := iprop(StableHlo.held (c : Thread nD τ) (Pipeline.ucRefs τ sig) (B1 m ρ c) ∗ riding c)
  post c := iprop(StableHlo.held (c : Thread nD τ) (Pipeline.ucRefs τ sig) (B2 m ρ c) ∗ riding c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (arrays0_exit m ρ c) (rest0_exit m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The tile-by-tile kernel: entered from every unscoped buffer at `B3`, left at `B4`; its invariant starts as the
    plain one and, after the last point, gives the plain one back. -/
def region1 : Pipeline.RegionSeg (pcfgs (F := F)) tables (pdats m ρ) () defs₀ noVar noPairs noLevel 1 where
  win := launch1.win.to₀
  block_pos := launch1.block_pos
  stage_whole := launch1.stage_whole
  K := PEmpty
  osem k := k.elim
  ho := Pipeline.OwnSemFacts.none _
  hbody c := (Region1.body_obligation1 (E3 m ρ) c).loose
  hwaits := Pipeline.hwaits_of_owed_zero _ _ _ _ noPairs noLevel 1 fun _ _ => rfl
  pre c := iprop(StableHlo.held (c : Thread nD τ) (Pipeline.ucRefs τ sig) (B3 m ρ c) ∗ riding c)
  post c := iprop(StableHlo.held (c : Thread nD τ) (Pipeline.ucRefs τ sig) (B4 m ρ c) ∗ riding c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) tables (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Region1.phi_in (E3 m ρ) c
    rw [show (pdats m ρ 1 c).Φ 0 = (Region1.dat1 (E3 m ρ) c).Φ 0 from rfl]
    unfold Pipeline.ΦA at h
    iintro ⟨Hp, -, Hr⟩
    iapply h
    isplitl [Hr]; · iexact Hr
    iexact Hp
  hout c := by
    have h := Region1.phi_out (E3 m ρ) c
    rw [Pipeline.ownSems0_none, show (pdats m ρ 1 c).Φ (Fin.last _) = (Region1.dat1 (E3 m ρ) c).Φ (Fin.last cfg1.N) from rfl]
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (arrays1_exit m ρ c) (rest1_exit m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segments : List (Pipeline.Seg (pcfgs (F := F)) tables (pdats m ρ) () defs₀ noVar noPairs noLevel) :=
  [ .host (stretch hostOps0 hostOps0_sub hostOps0_fresh (B0 m ρ)),
    .region (region0 m ρ),
    .host (stretch hostOps1 hostOps1_sub hostOps1_fresh (B2 m ρ)),
    .region (region1 m ρ),
    .host (stretch hostOps2 hostOps2_sub hostOps2_fresh (B4 m ρ)) ]

theorem main_is_segments (c : Dev nD) : main (F := F) c = Pipeline.Seg.run (segments m ρ) := (main_chain c).trans (by chain_rfl)

set_option backward.isDefEq.respectTransparency.types false in
/-- Every weakly fair execution of the program from memory `m` with zero counters terminates, nothing faulting, and in
    every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) tables (pdats m ρ) () cellOf_inj emb₁ defs₀ noVar noPairs noLevel m ρ main (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ riding c)) (Tₙ := atReturn m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ riding c) ⊢ _
      iintro ⟨Hh, Hp, Ho⟩
      isplitl [Hh Hp]
      · isplitl [Hh]; · iexact Hh
        iexact Hp
      iexact Ho⟩)
    (hinit := by
      refine Pipeline.initEach noPairs noLevel fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

end Cert.Kernel.Whole

end
-- ==== Proof.WholeFrameK.lean ====
/-
  What the run says of the program's arguments and of its result: each argument array ends as launched (the frame
  claim), and the result's buffer ends at the last boundary's contents.
-/
import proofs.«131352_j66331474920046_2_alg».proof.Proof.WholeK

set_option maxRecDepth 16384

noncomputable section

namespace Cert.Kernel.Whole

open Idealize.ShloMosaic Idealize.ShloMosaic.TcCoe Idealize.ShloMosaic.Tactic
open Idealize.SL Idealize.SL.Sem
open Idealize.ShloMosaic.Pipeline (Dat)
open Cert.Kernel Cert.Kernel.Gen

variable {F : FTy → Type} [FloatOps F]
variable (m : (ℓ : Loc nD τ sig) → Buf (Elt F) ℓ) (ρ : Dev nD → PrngReg)

/-- Argument 0 reaches the return as launched: no host operation writes it, the second kernel does not stage it, and the
    first kernel does not stage it. -/
theorem B5_arg0 (c : Dev nD) : B5 m ρ c (Proc.devRef .tc main_arg0) = m ((c : Thread nD τ).loc main_arg0) :=
  (StableHlo.after_of_writes_sub hostOps2 _ hostOps2_writes (by decide : main_arg0 ∉ hostOps2_W)).trans <|
  (B4_of_ne m ρ c main_arg0 (by decide)).trans <|
  (StableHlo.after_of_writes_sub hostOps1 _ hostOps1_writes (by decide : main_arg0 ∉ hostOps1_W)).trans <|
  (B2_of_ne m ρ c main_arg0 (by decide)).trans <|
  (StableHlo.after_of_writes_sub hostOps0 _ hostOps0_writes (by decide : main_arg0 ∉ hostOps0_W)).trans rfl

/-- Argument 1 reaches the return as launched: no host operation writes it, the second kernel does not stage it, and the
    first kernel stages it as an input and leaves it as found. -/
theorem B5_arg1 (c : Dev nD) : B5 m ρ c (Proc.devRef .tc main_arg1) = m ((c : Thread nD τ).loc main_arg1) :=
  (StableHlo.after_of_writes_sub hostOps2 _ hostOps2_writes (by decide : main_arg1 ∉ hostOps2_W)).trans <|
  (B4_of_ne m ρ c main_arg1 (by decide)).trans <|
  (StableHlo.after_of_writes_sub hostOps1 _ hostOps1_writes (by decide : main_arg1 ∉ hostOps1_W)).trans <|
  ((B2_arr m ρ c 0).trans (((Region0.dat0 (E1 m ρ) c).arrAt_in 0 rfl _).trans (Region0.A_eq0 (E1 m ρ) c 0))).trans <|
  (StableHlo.after_of_writes_sub hostOps0 _ hostOps0_writes (by decide : main_arg1 ∉ hostOps0_W)).trans rfl

/-- Argument 2 reaches the return as launched: no host operation writes it, the second kernel does not stage it, and the
    first kernel stages it as an input and leaves it as found. -/
theorem B5_arg2 (c : Dev nD) : B5 m ρ c (Proc.devRef .tc main_arg2) = m ((c : Thread nD τ).loc main_arg2) :=
  (StableHlo.after_of_writes_sub hostOps2 _ hostOps2_writes (by decide : main_arg2 ∉ hostOps2_W)).trans <|
  (B4_of_ne m ρ c main_arg2 (by decide)).trans <|
  (StableHlo.after_of_writes_sub hostOps1 _ hostOps1_writes (by decide : main_arg2 ∉ hostOps1_W)).trans <|
  ((B2_arr m ρ c 1).trans (((Region0.dat0 (E1 m ρ) c).arrAt_in 1 rfl _).trans (Region0.A_eq0 (E1 m ρ) c 1))).trans <|
  (StableHlo.after_of_writes_sub hostOps0 _ hostOps0_writes (by decide : main_arg2 ∉ hostOps0_W)).trans rfl

/-- Argument 3 reaches the return as launched: no host operation writes it, the second kernel does not stage it, and the
    first kernel does not stage it. -/
theorem B5_arg3 (c : Dev nD) : B5 m ρ c (Proc.devRef .tc main_arg3) = m ((c : Thread nD τ).loc main_arg3) :=
  (StableHlo.after_of_writes_sub hostOps2 _ hostOps2_writes (by decide : main_arg3 ∉ hostOps2_W)).trans <|
  (B4_of_ne m ρ c main_arg3 (by decide)).trans <|
  (StableHlo.after_of_writes_sub hostOps1 _ hostOps1_writes (by decide : main_arg3 ∉ hostOps1_W)).trans <|
  (B2_of_ne m ρ c main_arg3 (by decide)).trans <|
  (StableHlo.after_of_writes_sub hostOps0 _ hostOps0_writes (by decide : main_arg3 ∉ hostOps0_W)).trans rfl

/-- The run, read at the result and the arguments. -/
theorem run_result : θ_run defs (onTc (τ := τ) (main (F := F))) ⟨m, fun _ => 0, ρ⟩ (fun r => ∀ c : Dev nD,
      r.2.mem ((c.tc : Thread nD τ).loc main_v7) = B5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v7 (by decide)),
     (h c _ (mem_uc main_arg0 (by decide))).trans (B5_arg0 m ρ c),
     (h c _ (mem_uc main_arg1 (by decide))).trans (B5_arg1 m ρ c),
     (h c _ (mem_uc main_arg2 (by decide))).trans (B5_arg2 m ρ c),
     (h c _ (mem_uc main_arg3 (by decide))).trans (B5_arg3 m ρ c)⟩) (run_all m ρ)

/-- The frame claim at any instance: the program runs to the end, nothing faulting, and every argument array ends
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.Kernel.Whole

end
-- ==== Proof.Spec.lean ====
/-
  The mathematics both programs compute, over the literal shapes: a query batch x : [32, 1024], a support set
  sx : [8192, 1024], a projection W : [1024, 256] and support labels sy : [8192] (32-bit words), all floats read as
  extended reals. Project both sets by W; score a query against a support row by the negated squared Euclidean
  distance of the projections, expanded as -((|xq|² + |sxp|²) - 2 xq·sxp); take the softmax of the scores over the
  support axis, shifted by the row's maximum; sum the probabilities of the support rows carrying class c; add a small
  constant and take the logarithm. One named function per stage, each a plain function of coordinates.
-/
import Idealize.ShloMosaic.PureOps.Ideal
import Idealize.ShloMosaic.Lib.ValueIdx

noncomputable section

open scoped BigOperators

namespace Cert.Spec

open Idealize.ShloMosaic Idealize.ShloMosaic.ValueIdx

/-- The query batch: 32 rows of 1024 features. -/
abbrev XArr : Type := (⟨2, ![32, 1024]⟩ : Shape).Idx → EReal
/-- The support set: 8192 rows of 1024 features. -/
abbrev SxArr : Type := (⟨2, ![8192, 1024]⟩ : Shape).Idx → EReal
/-- The projection: 1024 features to 256. -/
abbrev WArr : Type := (⟨2, ![1024, 256]⟩ : Shape).Idx → EReal
/-- The support labels, 32-bit words. -/
abbrev SyArr : Type := (⟨1, ![8192]⟩ : Shape).Idx → BitVec 32

/-- The projected query: row i of x times column d of W. -/
def xq (x : XArr) (W : WArr) (i : Fin 32) (d : Fin 256) : EReal :=
  ∑ k : Fin 1024, x (ix2 i k) * W (ix2 k d)

/-- The projected support row: row j of sx times column d of W. -/
def sxp (sx : SxArr) (W : WArr) (j : Fin 8192) (d : Fin 256) : EReal :=
  ∑ k : Fin 1024, sx (ix2 j k) * W (ix2 k d)

/-- The squared norm of projected query i. -/
def xsq (x : XArr) (W : WArr) (i : Fin 32) : EReal :=
  ∑ d : Fin 256, xq x W i d * xq x W i d

/-- The squared norm of projected support row j. -/
def ssq (sx : SxArr) (W : WArr) (j : Fin 8192) : EReal :=
  ∑ d : Fin 256, sxp sx W j d * sxp sx W j d

/-- The inner product of projected query i with projected support row j. -/
def cross (x : XArr) (sx : SxArr) (W : WArr) (i : Fin 32) (j : Fin 8192) : EReal :=
  ∑ d : Fin 256, xq x W i d * sxp sx W j d

/-- The score of query i against support row j: the negated expanded squared distance; the factor is the f32 word of 2. -/
def score (x : XArr) (sx : SxArr) (W : WArr) (i : Fin 32) (j : Fin 8192) : EReal :=
  -((xsq x W i + ssq sx W j) - Ideal.ofBits .f32 0x40000000#32 * cross x sx W i j)

/-- The maximum of row i's scores, folded from -∞. -/
def M (x : XArr) (sx : SxArr) (W : WArr) (i : Fin 32) : EReal :=
  (Finset.univ : Finset (Fin 8192)).fold max ⊥ (fun j => score x sx W i j)

/-- The shifted exponential of a score. -/
def ex (x : XArr) (sx : SxArr) (W : WArr) (i : Fin 32) (j : Fin 8192) : EReal :=
  Ideal.exp (score x sx W i j - M x sx W i)

/-- The softmax denominator of row i. -/
def L (x : XArr) (sx : SxArr) (W : WArr) (i : Fin 32) : EReal :=
  ∑ j : Fin 8192, ex x sx W i j

/-- The softmax probability of support row j for query i. -/
def probs (x : XArr) (sx : SxArr) (W : WArr) (i : Fin 32) (j : Fin 8192) : EReal :=
  Ideal.div (ex x sx W i j) (L x sx W i)

/-- The one-hot label matrix: 1 where support row j's label word is the 32-bit word of class c, else 0. -/
def hot (sy : SyArr) (j : Fin 8192) (c : Fin 1000) : EReal :=
  if sy (ix1 j) = BitVec.ofNat 32 c.val then 1 else 0

/-- The class mass: the probabilities of the support rows labelled c, summed. -/
def mass (x : XArr) (sx : SxArr) (W : WArr) (sy : SyArr) (i : Fin 32) (c : Fin 1000) : EReal :=
  ∑ j : Fin 8192, probs x sx W i j * hot sy j c

/-- The result: the logarithm of the class mass plus the f32 word 0x2B8CBCCC. -/
def refOut (x : XArr) (sx : SxArr) (W : WArr) (sy : SyArr) (i : Fin 32) (c : Fin 1000) : EReal :=
  Ideal.log (mass x sx W sy i c + Ideal.ofBits .f32 0x2B8CBCCC#32)

end Cert.Spec

end
-- ==== Proof.LibIx2.lean ====
/-
  Rank-2 operations read at an index given by coordinates: a matrix product with one contracted axis into the zero
  tile, a lane reduction (sum or maximum) of a matrix, and the keepdims column layouts [a] → [a,1] and
  [a,1] → [a,b]. Each is the library's read-at-an-index lemma with both indices written by coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibIx2

open Idealize.ShloMosaic Idealize.ShloMosaic.ValueIdx

/-! ## The keepdims column layouts -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane reduction of a matrix -/

/-- The source index over row `p` with lane `c` inserted is `(p, c)`. -/
theorem lift_ix1 {a b : ℕ} (h : (⟨2, ![a, b]⟩ : Shape).Reduces [1] ⟨1, ![a]⟩) (p : Fin a) (c : Fin b) :
    h.lift (ix1 p) c = ix2 p c := by
  funext ax
  match ax with
  | ⟨0, _⟩ => rfl
  | ⟨1, _⟩ => rfl

/-- A float sum over the lanes of an `[a, b]` matrix is, at row `p`, the sum over the lane coordinate. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ c : Fin b, src (ix2 p c) :=
  (Ideal.multiReduction_add_single src acc h hφ hacc (ix1 p)).trans
    (Finset.sum_congr rfl fun c _ => congrArg src (lift_ix1 h p c))

/-- A float maximum over the lanes of an `[a, b]` matrix is, at row `p`, the fold of `max` from the accumulator's
    value over the lane coordinate. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  have e : (src ∘ h.lift (ix1 p)) = fun c : Fin b => src (ix2 p c) := funext fun c => congrArg src (lift_ix1 h p c)
  show (Finset.univ : Finset (Fin b)).fold max (Ideal.ofBits φ acc) (src ∘ h.lift (ix1 p)) = _
  rw [e]
  rfl

/-! ## A matrix product with one contracted axis -/

section Matmul
variable {m k n : ℕ} (d : DotDims ⟨2, ![m, k]⟩ ⟨2, ![k, n]⟩ ⟨2, ![m, n]⟩)

private theorem coord_congr {s : Shape} (j : s.Idx) (p q : ℕ) (hp : p < s.rank) (hq : q < s.rank) (e : p = q) :
    (j ⟨p, hp⟩).val = (j ⟨q, hq⟩).val := by subst e; rfl

/-- The left operand's row is the result's row. -/
theorem lhsIdx_row (hlb : d.lhsBatch = []) (hln : d.lhsNonContracting = [0]) (j : (⟨2, ![m, n]⟩ : Shape).Idx) (q : d.contr.Idx) :
    (d.lhsIdx j q 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's column is the result's column. -/
theorem rhsIdx_col (hlb : d.lhsBatch = []) (hrb : d.rhsBatch = []) (hln : d.lhsNonContracting = [0]) (hrn : d.rhsNonContracting = [1])
    (j : (⟨2, ![m, n]⟩ : Shape).Idx) (q : d.contr.Idx) :
    (d.rhsIdx j q 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A `tpu.matmul` of an `[m, k]` by a `[k, n]` matrix, contracting the left operand's columns with the right
    operand's rows, into the zero tile: at `(p, q)` the sum over `c` of `lhs (p, c) * rhs (c, q)`. -/
theorem matmul_zero_ix2_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = k)
    (prec : Option ContractPrecision) (lhs : FVec Ideal ⟨2, ![m, k]⟩ φ₁) (rhs : FVec Ideal ⟨2, ![k, n]⟩ φ₂)
    (p : Fin m) (q : Fin n) :
    FloatOps.matmul d prec lhs rhs (constant ⟨2, ![m, n]⟩ .f32 0x00000000#32) (ix2 p q)
      = ∑ c : Fin k, lhs (ix2 p c) * rhs (ix2 c q) := by
  rw [Ideal.matmul_constant_zero_apply, ← Equiv.sum_comp (contrEquiv1 d k hr hs).symm]
  refine Finset.sum_congr rfl fun c _ => ?_
  have hc := contrEquiv1_symm_val d k hr hs c
  have el : d.lhsIdx (ix2 p q) ((contrEquiv1 d k hr hs).symm c) = ix2 p c := funext fun a => Fin.ext (by
    match a with
    | ⟨0, _⟩ => exact lhsIdx_row d hlb hln _ _
    | ⟨1, _⟩ => exact (d.lhsIdx_val_of_single hlc _ _).trans hc)
  have er : d.rhsIdx (ix2 p q) ((contrEquiv1 d k hr hs).symm c) = ix2 c q := funext fun a => Fin.ext (by
    match a with
    | ⟨0, _⟩ => exact (d.rhsIdx_val_of_single hrc _ _).trans hc
    | ⟨1, _⟩ => exact rhsIdx_col d hlb hrb hln hrn _ _)
  rw [el, er]

end Matmul

end Cert.LibIx2

end
-- ==== Proof.LibIdeal.lean ====
import Idealize.ShloMosaic.PureOps.Ideal.Laws
import Idealize.ShloMosaic.Lib.IdealHost

/-!
# Small facts about the exact extended-real reading of float operations

Bit patterns of a few single-precision constants as extended reals; the 0/1 value of a disjunction of two
"not equal" tests; a maximum folded over two entries; a finite sum of real numbers embedded in the extended reals.
-/

noncomputable section

namespace Cert.LibIdeal

open Idealize.ShloMosaic
open scoped BigOperators

/-- The single-precision pattern `0xBF000000` is `-1/2`. -/
theorem ofBits_neg_half_f32 : Ideal.ofBits .f32 0xBF000000#32 = ((-1 / 2 : ℝ) : EReal) := by
  simp [Ideal.ofBits, Ideal.ieee, -EReal.coe_mul]; norm_num

/-- The single-precision pattern `0xFF800000` is `-∞`. -/
theorem ofBits_neg_inf_f32 : Ideal.ofBits .f32 0xFF800000#32 = (⊥ : EReal) := by
  simp [Ideal.ofBits, Ideal.ieee]

/-- Two "not equal to `z`" tests, or-ed and read as a float, give `1` when either holds and `0` otherwise. -/
theorem uitofp_ori_une (a b z : EReal) :
    (FloatOps.uitofp (F := Ideal) .f32 (IntOp.ori (FloatOps.cmpf (F := Ideal) (φ := .f32) .une a z)
      (FloatOps.cmpf (F := Ideal) (φ := .f32) .une b z)) : EReal) = if a ≠ z ∨ b ≠ z then 1 else 0 := by
  show (((IntOp.ori (Ideal.cmp .une a z) (Ideal.cmp .une b z)).toNat : ℝ) : EReal) = _
  unfold Ideal.cmp IntOp.ori
  by_cases ha : a = z <;> by_cases hb : b = z <;> simp [ha, hb]

/-- A maximum folded over two entries from `b`. -/
theorem fold_max_fin2 (b : EReal) (f : Fin 2 → EReal) :
    (Finset.univ : Finset (Fin 2)).fold max b f = max b (max (f 0) (f 1)) := by
  apply le_antisymm
  · refine (Finset.fold_max_le _).mpr ⟨le_max_left _ _, fun k _ => ?_⟩
    fin_cases k
    · exact le_max_of_le_right (le_max_left _ _)
    · exact le_max_of_le_right (le_max_right _ _)
  · refine max_le ((Finset.le_fold_max _).mpr (Or.inl le_rfl)) (max_le ?_ ?_)
    · exact (Finset.le_fold_max _).mpr (Or.inr ⟨0, Finset.mem_univ _, le_rfl⟩)
    · exact (Finset.le_fold_max _).mpr (Or.inr ⟨1, Finset.mem_univ _, le_rfl⟩)

/-- A finite sum of real numbers, embedded in the extended reals, is the sum of the embedded terms. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

end Cert.LibIdeal

end
-- ==== Proof.RefSpec.lean ====
/-
  The reference program's result, read at an index, is the specification's function of the four argument arrays.
  Each stage of the program — the two projections, the squared norms, the cross products, the scores, the row
  maxima, the shifted exponentials and their row sums, the probabilities, the one-hot label matrix, the class masses,
  the logarithm — is identified, at an index written by coordinates, with the specification's stage of the same name.
-/
import proofs.«131352_j66331474920046_2_alg».proof.Proof.Gen.ReferenceIdeal.Read
import proofs.«131352_j66331474920046_2_alg».proof.Proof.Spec
import proofs.«131352_j66331474920046_2_alg».proof.Proof.LibIx2
import proofs.«131352_j66331474920046_2_alg».proof.Proof.LibIdeal
import Idealize.ShloMosaic.Lib.ValueIdx
import Idealize.ShloMosaic.PureOps.Ideal.Laws

noncomputable section

open scoped BigOperators

namespace Cert.RefSpec

open Cert.ReferenceIdeal Cert.ReferenceIdeal.Gen Cert.ReferenceIdeal.Read Cert.Spec
open Idealize.ShloMosaic Idealize.ShloMosaic.ValueIdx Idealize.ShloMosaic.TcCoe Idealize.SL.Sem

/-- Two rank-2 indices with equal coordinates are equal. -/
local macro "idx2" : term => `(funext fun a => Fin.ext (by match a with | ⟨0, _⟩ => rfl | ⟨1, _⟩ => rfl))
/-- Two rank-1 indices with equal coordinates are equal. -/
local macro "idx1" : term => `(funext fun a => Fin.ext (by match a with | ⟨0, _⟩ => rfl))

variable (x : XArr) (sx : SxArr) (W : WArr) (sy : SyArr)

/-! ## The projections -/

/-- The projected queries. -/
theorem v1_eq (i : Fin 32) (d : Fin 256) : val_main_v1 (F := Ideal) x W (ix2 i d) = xq x W i d := by
  rw [val_main_v1_apply]
  unfold xq
  refine Finset.sum_congr rfl fun k _ => ?_
  have e1 : lidx_main_v1 (ix2 i d) k = ix2 i k := idx2
  have e2 : ridx_main_v1 (ix2 i d) k = ix2 k d := idx2
  rw [e1, e2]

/-- The projected support rows. -/
theorem v2_eq (j : Fin 8192) (d : Fin 256) : val_main_v2 (F := Ideal) sx W (ix2 j d) = sxp sx W j d := by
  rw [val_main_v2_apply]
  unfold sxp
  refine Finset.sum_congr rfl fun k _ => ?_
  have e1 : lidx_main_v2 (ix2 j d) k = ix2 j k := idx2
  have e2 : ridx_main_v2 (ix2 j d) k = ix2 k d := idx2
  rw [e1, e2]

/-! ## The squared norms and the cross products -/

/-- The queries' squared norms: the sum from the zero word is the plain sum. -/
theorem v4_eq (i : Fin 32) : val_main_v4 (F := Ideal) x W (ix1 i) = xsq x W i := by
  rw [val_main_v4_apply, val_main_cst_apply, Ideal.ofBits_def, Ideal.ofBits_zero_f32, zero_add]
  unfold xsq
  refine Finset.sum_congr rfl fun k _ => ?_
  have e : idx_main_v4 (ix1 i) k = ix2 i k := idx2
  rw [e, val_main_v3_apply, Ideal.mulf_def, v1_eq]

/-- The support rows' squared norms. -/
theorem v7_eq (j : Fin 8192) : val_main_v7 (F := Ideal) sx W (ix1 j) = ssq sx W j := by
  rw [val_main_v7_apply, val_main_cst_0_apply, Ideal.ofBits_def, Ideal.ofBits_zero_f32, zero_add]
  unfold ssq
  refine Finset.sum_congr rfl fun k _ => ?_
  have e : idx_main_v7 (ix1 j) k = ix2 j k := idx2
  rw [e, val_main_v6_apply, Ideal.mulf_def, v2_eq]

/-- The column of query norms plus the row of support norms. -/
theorem v11_eq (i : Fin 32) (j : Fin 8192) :
    val_main_v11 (F := Ideal) x sx W (ix2 i j) = xsq x W i + ssq sx W j := by
  rw [val_main_v11_apply, Ideal.addf_def, val_main_v9_apply, val_main_v5_apply, val_main_v10_apply, val_main_v8_apply]
  have e1 : idx_main_v5 (idx_main_v9 (ix2 i j)) = ix1 i := idx1
  have e2 : idx_main_v8 (idx_main_v10 (ix2 i j)) = ix1 j := idx1
  rw [e1, e2, v4_eq, v7_eq]

/-- The projected queries against the transposed projected support rows. -/
theorem v13_eq (i : Fin 32) (j : Fin 8192) : val_main_v13 (F := Ideal) x sx W (ix2 i j) = cross x sx W i j := by
  rw [val_main_v13_apply]
  unfold cross
  refine Finset.sum_congr rfl fun k _ => ?_
  rw [val_main_v12_apply]
  have e1 : lidx_main_v13 (ix2 i j) k = ix2 i k := idx2
  have e2 : idx_main_v12 (ridx_main_v13 (ix2 i j) k) = ix2 j k := idx2
  rw [e1, e2, v1_eq, v2_eq]

/-! ## The scores and their softmax -/

/-- The scores. -/
theorem v17_eq (i : Fin 32) (j : Fin 8192) : val_main_v17 (F := Ideal) x sx W (ix2 i j) = score x sx W i j := by
  rw [val_main_v17_apply, val_main_v16_apply, val_main_v15_apply, val_main_v14_apply, val_main_cst_1_apply,
    Ideal.hostNegf_def, Ideal.negf_def, Ideal.subf_def, Ideal.mulf_def, Ideal.ofBits_def, v11_eq, v13_eq]
  rfl

/-- The row maxima: the host's maximum-reduce over the support axis, from -∞, is the fold of max over the row. -/
theorem v18_eq (i : Fin 32) : val_main_v18 (F := Ideal) x sx W (ix1 i) = M x sx W i := by
  unfold val_main_v18
  have h : S32x8192.Reduces [1] S32 := by decide
  refine (Host.reduce_eq_fold_single FloatOps.maximumf _ _ _ h _ (ix1 i)).trans ?_
  have hf : (val_main_v17 (F := Ideal) x sx W ∘ h.lift (ix1 i)) = fun j : Fin 8192 => score x sx W i j :=
    funext fun j => (congrArg (val_main_v17 (F := Ideal) x sx W) (Cert.LibIx2.lift_ix1 h i j)).trans (v17_eq x sx W i j)
  show (Finset.univ : Finset (Fin 8192)).fold max (Ideal.ofBits .f32 0xFF800000#32)
      (val_main_v17 (F := Ideal) x sx W ∘ h.lift (ix1 i)) = _
  rw [hf, Cert.LibIdeal.ofBits_neg_inf_f32]
  rfl

/-- The maximum with the -∞ row changes nothing. -/
theorem v20_eq (i : Fin 32) : val_main_v20 (F := Ideal) x sx W (ix1 i) = M x sx W i := by
  rw [val_main_v20_apply, val_main_v19_apply, val_main_cst_3_apply, Ideal.maximumf_def, Ideal.ofBits_def,
    Cert.LibIdeal.ofBits_neg_inf_f32, v18_eq, max_bot_left]

/-- The shifted exponentials. -/
theorem v24_eq (i : Fin 32) (j : Fin 8192) : val_main_v24 (F := Ideal) x sx W (ix2 i j) = ex x sx W i j := by
  rw [val_main_v24_apply, val_main_v23_apply, val_main_v22_apply, val_main_v21_apply, Ideal.hostUnary_exp_def,
    Ideal.subf_def, v17_eq]
  have e : idx_main_v21 (idx_main_v22 (ix2 i j)) = ix1 i := idx1
  rw [e, v20_eq]
  rfl

/-- The softmax denominators: the sum from the zero word is the plain sum. -/
theorem v25_eq (i : Fin 32) : val_main_v25 (F := Ideal) x sx W (ix1 i) = L x sx W i := by
  rw [val_main_v25_apply, val_main_cst_4_apply, Ideal.ofBits_def, Ideal.ofBits_zero_f32, zero_add]
  unfold L
  refine Finset.sum_congr rfl fun k _ => ?_
  have e : idx_main_v25 (ix1 i) k = ix2 i k := idx2
  rw [e, v24_eq]

/-- The probabilities. -/
theorem v28_eq (i : Fin 32) (j : Fin 8192) : val_main_v28 (F := Ideal) x sx W (ix2 i j) = probs x sx W i j := by
  rw [val_main_v28_apply, val_main_v27_apply, val_main_v26_apply, Ideal.hostDivf_def, v24_eq]
  have e : idx_main_v26 (idx_main_v27 (ix2 i j)) = ix1 i := idx1
  rw [e, v25_eq]
  rfl

/-! ## The labels and the result -/

/-- The one-hot label matrix: the label column against the class row, compared for equality and read as a float. -/
theorem v0_eq (j : Fin 8192) (c : Fin 1000) : val_main_v0 (F := Ideal) sy (ix2 j c) = hot sy j c := by
  rw [val_main_v0_apply, val_main_call0_v4_apply, val_main_call0_v2_apply, val_main_call0_v0_apply,
    val_main_call0_v3_apply, val_main_call0_v1_apply]
  have e1 : idx_main_call0_v0 (idx_main_call0_v2 (ix2 j c)) = ix1 j := idx1
  rw [e1]
  show (((IntOp.cmpi .eq (sy (ix1 j)) (BitVec.ofNat 32 c.val)).toNat : ℝ) : EReal) = _
  unfold hot IntOp.cmpi
  by_cases h : sy (ix1 j) = BitVec.ofNat 32 c.val
  · simp [h]
  · simp [h]

/-- The class masses. -/
theorem v29_eq (i : Fin 32) (c : Fin 1000) : val_main_v29 (F := Ideal) x sx W sy (ix2 i c) = mass x sx W sy i c := by
  rw [val_main_v29_apply]
  unfold mass
  refine Finset.sum_congr rfl fun k _ => ?_
  have e1 : lidx_main_v29 (ix2 i c) k = ix2 i k := idx2
  have e2 : ridx_main_v29 (ix2 i c) k = ix2 k c := idx2
  rw [e1, e2, v28_eq, v0_eq]

/-- The result at the index (i, c). -/
theorem v32_eq (i : Fin 32) (c : Fin 1000) : val_main_v32 (F := Ideal) x sx W sy (ix2 i c) = refOut x sx W sy i c := by
  rw [val_main_v32_apply, val_main_v31_apply, val_main_v30_apply, val_main_cst_5_apply, Ideal.hostUnary_log_def,
    Ideal.addf_def, Ideal.ofBits_def, v29_eq]
  rfl

/-- The reference's result array is the specification's function of the four argument arrays. -/
theorem ref_eq : val_main_v32 (F := Ideal) x sx W sy = fun idx => refOut x sx W sy (idx 0) (idx 1) := by
  funext idx
  exact (congrArg (val_main_v32 (F := Ideal) x sx W sy) (eq_ix2 idx)).trans (v32_eq x sx W sy (idx 0) (idx 1))

/-! ## The reference's run -/

/-- From any memory with zero counters every weakly fair execution of the reference terminates, its result buffer
    holding the specification's function of the argument arrays it started with, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v32)
          = (fun idx => refOut (m' ((c.tc : Thread nD τ).loc main_arg0)) (m' ((c.tc : Thread nD τ).loc main_arg1))
              (m' ((c.tc : Thread nD τ).loc main_arg2)) (m' ((c.tc : Thread nD τ).loc main_arg3)) (idx 0) (idx 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  (θ_run defs _ _).mono
    (fun _ h c => ⟨(h c).1.trans ((val_main_v32_eq m' c).trans (ref_eq _ _ _ _)), (h c).2⟩)
    (Cert.ReferenceIdeal.Value.run (F := Ideal) m' ρ')

end Cert.RefSpec

end
-- ==== Proof.RefFrame.lean ====
/-
  The reference program runs to the end from any memory, faults nowhere, and leaves its four argument arrays as they
  were: the conjuncts of its run that speak of the arguments.
-/
import proofs.«131352_j66331474920046_2_alg».proof.Defs
import proofs.«131352_j66331474920046_2_alg».proof.Proof.Gen.ReferenceIdeal
import proofs.«131352_j66331474920046_2_alg».proof.Proof.Gen.Pre_finite_inputs
import proofs.«131352_j66331474920046_2_alg».proof.Proof.RefSpec

noncomputable section

namespace Cert.RefFrame

open Idealize.ShloMosaic Idealize.SL.Sem

/-- The reference terminates from every memory with its arguments unchanged. -/
theorem frame_ri :
    Cert.frame_ReferenceIdeal (hReferenceIdeal := Cert.ReferenceIdeal.Gen.facts)
      (hPre_finite_inputs := Cert.Pre_finite_inputs.Gen.facts) := fun m ρ _ =>
  (θ_run Cert.ReferenceIdeal.defs _ _).mono (fun _ h c => (h c).2) (Cert.RefSpec.ref_run m ρ)

end Cert.RefFrame

end
-- ==== Proof.Region0.lean ====
/-
  Region 0 of @main — the projection kernel `cc0__proj_kernel` on its grid of 4 points — as a pipeline body
  whose effect on the staging buffers is a closed function of the input blocks.

  The pipeline has three windows: window 0 is a 2048x1024 block of the left operand (a new block at every point),
  window 1 is the whole 1024x256 right operand (the same block at every point), window 2 is the 2048x256 block of
  the result (written back at every point). At a point the body reads windows 0 and 1 through their whole
  rectangles and overwrites the whole of window 2 with the matrix product of what it read; the value it reads of
  window 2 beforehand is never used. Hence after the body the two input buffers are as found and the output
  buffer is `out0_2` of the two input blocks, whatever it held.

  Everything is stated at a parameter `V`: the contents of the core's buffers when the region is entered.
-/
import proofs.«131352_j66331474920046_2_alg».proof.Proof.Gen.KernelIdeal.Launch
import proofs.«131352_j66331474920046_2_alg».proof.Proof.Gen.KernelIdeal.Skeleton
import proofs.«131352_j66331474920046_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands recurses once per coordinate
set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The blocks of the windows -/

/-- The block of window `w` at point `t`: the part of the window's array, as `V` has it, that the point's block
    index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 (left operand; its block index is the point, so it is transferred at every point): at every point the
    buffer the body is handed holds the point's block. Stated for any proof data over `V`'s array whose body
    leaves the block in place. The window is whole blocks (nothing clipped) and is live at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (right operand; its block index is constant, so it is transferred at the first point only): at every
    point the buffer the body is handed still holds that one block — at a later point nothing was transferred, the
    block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each buffer whole -/

abbrev r0_0 : Rect S2048x1024 := Rect.unit (s := S2048x1024) ![0, 0] S2048x1024.size inb_S2048x1024_S2048x1024_0_0
abbrev r0_1 : Rect S1024x256 := Rect.unit (s := S1024x256) ![0, 0] S1024x256.size inb_S1024x256_S1024x256_0_0
abbrev r0_2 : Rect S2048x256 := Rect.unit (s := S2048x256) ![0, 0] S2048x256.size inb_S2048x256_S2048x256_0_0

/-! ## What the body leaves in the output buffer -/

/-- The output buffer after the body, as a function of the two input blocks: the single store — the product of the
    left block by the right block, added to a zero accumulator — laid over the whole buffer. -/
def out0_2 (x0 : Vec F S2048x1024 .f32) (x1 : Vec F S1024x256 .f32) : Vec F S2048x256 .f32 :=
  View.canon [⟨r0_2, k0_pay1 (View.ld x0 r0_0) (View.ld x1 r0_1)⟩]

/-- The one stored rectangle is the whole buffer, so every index of the buffer lies in it. -/
theorem cover0_2 (p0 : Vec F S2048x256 .f32) (y : S2048x256.Idx) :
    ∃ pc ∈ ([⟨r0_2, p0⟩] : List (View.Piece (Elt F) S2048x256 .f32)), y ∈ pc.1.set :=
  View.cover_of_tiled [⟨r0_2, p0⟩] S2048x256.size (by rfl) y

/-! ## The body's triple -/

set_option maxHeartbeats 1000000 in
/-- On whole buffers — the two inputs reading `x0` and `x1`, the output holding anything — the body runs to its
    continuation with the inputs unchanged and the output reading `out0_2 x0 x1`. The grid coordinate is not read. -/
theorem sound_kernel0 (c : Dev nD) (E : Set ℕ) (i : grid0.Coords)
    (arg1 : Memref sig .tc .vmem S2048x1024 .f32) (harg1 : arg1.IsWhole)
    (arg2 : Memref sig .tc .vmem S1024x256 .f32) (harg2 : arg2.IsWhole)
    (arg3 : Memref sig .tc .vmem S2048x256 .f32) (harg3 : arg3.IsWhole)
    (x0 : Vec F S2048x1024 .f32) (x1 : Vec F S1024x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- The proof data of pipeline 0 on core `c`: its arrays are `V`'s; after the body at point `t` each input buffer
    holds the point's block and the output buffer holds `out0_2` of the two; the invariant is the one of a body that
    touches only its windows' buffers (the other scoped buffers and the generator register pass through); nothing
    is owed; all shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- What the body finds in each input buffer: the point's block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, what is owed, and each window's current buffer at
    what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies at those blocks; the
    invariant and what is owed are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Region0

end
-- ==== Proof.Region1Base.lean ====
/-
  The second kernel of the program: a softmax-weighted class histogram accumulated tile by tile over four grid
  points, its running maximum, running denominator and running numerator carried from point to point in three
  buffers of the kernel's own, its one output written at the last point only. This module states what every
  run of its body is phrased over: which of the body's two conditionals a grid point takes, where the output's
  window is left untouched, the buffers the body is called with, and the blocks the input windows hold.
-/
import proofs.«131352_j66331474920046_2_alg».proof.Proof.Gen.KernelIdeal.Launch
import proofs.«131352_j66331474920046_2_alg».proof.Proof.Gen.KernelIdeal.Skeleton
import proofs.«131352_j66331474920046_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditionals of the body, decided over the four grid points -/

/-- The body's first conditional (reset the carried state) as a statement about the grid coordinates. -/
abbrev condFirst (i : grid1.Coords) : Prop :=
  (Scalar.cmpi .ne (Scalar.extui (Scalar.cmpi .eq (BitVec.ofNat 32 (i 1).val) 0#32)) 0#32) = 1#1
/-- It is taken at the first point and nowhere else. -/
theorem condFirst_iff : ∀ t : Fin cfg1.N, condFirst (grid1.coords t) ↔ t.val = 0 :=
  (by decide +kernel : ∀ t : Fin grid1.N, condFirst (grid1.coords t) ↔ t.val = 0)

/-- The body's second conditional (normalise, take the logarithm, store the output). -/
abbrev condLast (i : grid1.Coords) : Prop := k1_cond2 i = 1#1
/-- It is taken at the last point and nowhere else. -/
theorem condLast_iff : ∀ t : Fin cfg1.N, condLast (grid1.coords t) ↔ t.val = 3 :=
  (by decide +kernel : ∀ t : Fin grid1.N, condLast (grid1.coords t) ↔ t.val = 3)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
/-- Away from the last point the body stores nothing into the output's window and the window is not written back. -/
theorem idle_4 : ∀ t : Fin cfg1.N, ¬condLast (grid1.coords t) → cfg1.idle 4 (grid1.coords t) = true := by decide +kernel
theorem noFlush_4 : ∀ t : Fin cfg1.N, ¬condLast (grid1.coords t) → (cfg1.win 4).flush t = false := by decide +kernel
/-- At the last point it is stored whole. -/
theorem live_4 : ∀ t : Fin cfg1.N, condLast (grid1.coords t) → cfg1.idle 4 (grid1.coords t) = false := by decide +kernel

/-! ## The buffers the body is called with -/

abbrev ms_0 (t : Fin cfg1.N) : Memref sig .tc .vmem S32x256 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S32x1 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S2048x256 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S2048x1 .i32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S32x1024 .f32 := win1_4.stage (cfg1.slots t 4)
abbrev hs_4 (t : Fin cfg1.N) : (ms_4 t).IsWhole := hstage1_4 ((cfg1.slots t 4).cast nbuf1_4)
/-- The three carried buffers: the running maximum, the running denominator, the running numerator. -/
abbrev scMax : Memref sig .tc .vmem S32x1 .f32 := Memref.whole cc1_scratch0
abbrev scDen : Memref sig .tc .vmem S32x1 .f32 := Memref.whole cc1_scratch1
abbrev scNum : Memref sig .tc .vmem S32x1024 .f32 := Memref.whole cc1_scratch2
/-- Views through which their contents, and the output buffer's, are stated. -/
abbrev VMax : View sig .tc .vmem S32x1 .f32 := scMax.view
abbrev VDen : View sig .tc .vmem S32x1 .f32 := scDen.view
abbrev VNum : View sig .tc .vmem S32x1024 .f32 := scNum.view
abbrev VOut : View sig .tc .vmem S32x1024 .f32 := (Memref.whole cc1_stg4_0 : Memref sig .tc .vmem S32x1024 .f32).view

/-- A scoped buffer of the core held whole at some contents. -/
abbrev anyAt (c : Dev nD) (b : Ref sig .tc) : sProp 𝕄 :=
  iprop(∃ f : Buf (Elt F) ((c : Thread nD τ).loc b), ((c : Thread nD τ).loc b) ↦{fullShare} f)

/-- The region's plain invariant spelled out: the first kernel's five staging buffers at some contents, the three
    carried buffers as memrefs owned at some contents, and the generator register at some state. -/
theorem PhiA_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg2_0 ∗ anyAt (F := F) c cc0_stg2_1
          ∗ (∃ d, owns (c : Thread nD τ) scMax fullShare d) ∗ (∃ d, owns (c : Thread nD τ) scDen fullShare d)
          ∗ (∃ d, owns (c : Thread nD τ) scNum fullShare d)) ∗ (∃ r, prngReg c r)) := by
  unfold Pipeline.ΦA; rw [scopedRest1_eq]; simp only [scMax, scDen, scNum, owns_whole]; try rfl

/-! ## The input windows' blocks, read off the arrays as the region finds them -/

section Blocks
variable (V : (c : Dev nD) → (b : Ref sig .tc) → Buf (Elt F) ((c : Thread nD τ).loc b))

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (a window whose
    block index does not move keeps the block it fetched at the first point). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Blocks

end Cert.KernelIdeal.Region1

end
-- ==== Proof.Region1RunFirst.lean ====
/-
  The second kernel's body run whole AT THE FIRST GRID POINT (the reset is taken, the final normalisation is not): on
  whole buffers — the four inputs at their contents, the output's buffer at contents it hands back untouched, the three
  carried buffers at anything — it ends with the inputs as they were and each carried buffer rewritten by the stores the
  run finds (their pieces, last first, are the witness).
-/
import proofs.«131352_j66331474920046_2_alg».proof.Proof.Region1Base

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runFirst (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i)
    (x0 : Vec F S32x256 .f32) (x1 : Vec F S32x1 .f32) (x2 : Vec F S2048x256 .f32) (x3 : Vec F S2048x1 .i32) :
    Σ' (LM : List (View.Piece (Elt F) S32x1 .f32)) (LD : List (View.Piece (Elt F) S32x1 .f32)), { LN : List (View.Piece (Elt F) S32x1024 .f32) //
      ∀ (xi : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LD) ∗ (∃ f, arg9.view.loc (c : Thread nD τ) ↦[arg9.view.set]{fullShare} arg9.view.writes (Elt F) f LN)) -∗ K ⟨⟩))
          ⊢ wp frame (wpE (defs₀ (F := F)) Variants.none c none) E (cc1__nwhead_kernel i arg2 harg2 arg3 harg3 arg4 harg4 arg5 harg5 arg6 harg6 arg7 harg7 arg8 harg8 arg9 harg9) K } := by
  refine ⟨?_, ?_, ?_, fun xi E K => ?run⟩
  case run =>
    simp only [cc1__nwhead_kernel_eq_skeleton]; unfold cc1__nwhead_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]; · iexists _; iexact H7
    isplitl [H8]; · iexists _; iexact H8
    iexists _; iexact H9

end Cert.KernelIdeal.Region1

end
-- ==== Proof.Region1RunMid.lean ====
/-
  The second kernel's body run whole AT A MIDDLE GRID POINT (neither conditional taken): the carried buffers enter at the
  contents the point before left and are rewritten; the output's buffer is handed back untouched.
-/
import proofs.«131352_j66331474920046_2_alg».proof.Proof.Region1RunFirst

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runMid (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i)
    (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) :
    Σ' (LM : List (View.Piece (Elt F) S32x1 .f32)) (LD : List (View.Piece (Elt F) S32x1 .f32)), { LN : List (View.Piece (Elt F) S32x1024 .f32) //
      ∀ (xi : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi
            ∗ owns (c : Thread nD τ) arg7 fullShare xm ∗ owns (c : Thread nD τ) arg8 fullShare xl ∗ owns (c : Thread nD τ) arg9 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LD) ∗ (∃ f, arg9.view.loc (c : Thread nD τ) ↦[arg9.view.set]{fullShare} arg9.view.writes (Elt F) f LN)) -∗ K ⟨⟩))
          ⊢ wp frame (wpE (defs₀ (F := F)) Variants.none c none) E (cc1__nwhead_kernel i arg2 harg2 arg3 harg3 arg4 harg4 arg5 harg5 arg6 harg6 arg7 harg7 arg8 harg8 arg9 harg9) K } := by
  refine ⟨?_, ?_, ?_, fun xi E K => ?run⟩
  case run =>
    simp only [cc1__nwhead_kernel_eq_skeleton]; unfold cc1__nwhead_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf6
    obtain rfl := harg7.eq_unread hf7; obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]; · iexists _; iexact H7
    isplitl [H8]; · iexists _; iexact H8
    iexists _; iexact H9

end Cert.KernelIdeal.Region1

end
-- ==== Proof.Region1RunLast.lean ====
/-
  The second kernel's body run whole AT THE LAST GRID POINT (no reset; the normalisation, the logarithm and the output's
  store are taken): the carried buffers enter at the contents the point before left and are rewritten, and the output's
  buffer, entered at anything, ends rewritten by the one store the run finds.
-/
import proofs.«131352_j66331474920046_2_alg».proof.Proof.Region1RunMid

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i)
    (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) :
    Σ' (LO : List (View.Piece (Elt F) S32x1024 .f32)) (LM : List (View.Piece (Elt F) S32x1 .f32)) (LD : List (View.Piece (Elt F) S32x1 .f32)), { LN : List (View.Piece (Elt F) S32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xm ∗ owns (c : Thread nD τ) arg8 fullShare xl ∗ owns (c : Thread nD τ) arg9 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LD) ∗ (∃ f, arg9.view.loc (c : Thread nD τ) ↦[arg9.view.set]{fullShare} arg9.view.writes (Elt F) f LN)) -∗ K ⟨⟩))
          ⊢ wp frame (wpE (defs₀ (F := F)) Variants.none c none) E (cc1__nwhead_kernel i arg2 harg2 arg3 harg3 arg4 harg4 arg5 harg5 arg6 harg6 arg7 harg7 arg8 harg8 arg9 harg9) K } := by
  refine ⟨?_, ?_, ?_, ?_, fun E K => ?run⟩
  case run =>
    simp only [cc1__nwhead_kernel_eq_skeleton]; unfold cc1__nwhead_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3
    obtain rfl := harg7.eq_unread hf7; obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    isplitl [H8]; · iexists _; iexact H8
    iexists _; iexact H9

end Cert.KernelIdeal.Region1

end
-- ==== Proof.Region1.lean ====
/-
  The second kernel point by point. What each of its three kinds of grid point (first, middle, last) leaves in the
  three carried buffers and in the output's buffer; the state after each of the four points as a recursion on the
  point (each point's run started from what the point before left); the region's invariant that carries that
  state from point to point; the pipeline's proof data over it; and the body's obligation at every point.
-/
import proofs.«131352_j66331474920046_2_alg».proof.Proof.Region1RunLast

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each kind of point leaves -/

/-- What the First point's run leaves in the running maximum: its stores read back. -/
def maxFirst (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i) (x0 : Vec F S32x256 .f32) (x1 : Vec F S32x1 .f32) (x2 : Vec F S2048x256 .f32) (x3 : Vec F S2048x1 .i32) : Vec F S32x1 .f32 :=
  VMax.read (Elt F) (VMax.writes (Elt F) VMax.junk (runFirst c i arg2 harg2 arg3 harg3 arg4 harg4 arg5 harg5 arg6 harg6 arg7 harg7 arg8 harg8 arg9 harg9 hc0 hc1 x0 x1 x2 x3).1)
/-- Those stores tile the buffer, so they cover it. -/
theorem cover_maxFirst (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i) (x0 : Vec F S32x256 .f32) (x1 : Vec F S32x1 .f32) (x2 : Vec F S2048x256 .f32) (x3 : Vec F S2048x1 .i32) (y : S32x1.Idx) :
    ∃ pc ∈ (runFirst c i arg2 harg2 arg3 harg3 arg4 harg4 arg5 harg5 arg6 harg6 arg7 harg7 arg8 harg8 arg9 harg9 hc0 hc1 x0 x1 x2 x3).1, y ∈ pc.1.set :=
  View.cover_of_tiledL (runFirst c i arg2 harg2 arg3 harg3 arg4 harg4 arg5 harg5 arg6 harg6 arg7 harg7 arg8 harg8 arg9 harg9 hc0 hc1 x0 x1 x2 x3).1 S32x1.size (by sl_kernel_rfl) y
/-- What the First point's run leaves in the running denominator: its stores read back. -/
def denFirst (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i) (x0 : Vec F S32x256 .f32) (x1 : Vec F S32x1 .f32) (x2 : Vec F S2048x256 .f32) (x3 : Vec F S2048x1 .i32) : Vec F S32x1 .f32 :=
  VDen.read (Elt F) (VDen.writes (Elt F) VDen.junk (runFirst c i arg2 harg2 arg3 harg3 arg4 harg4 arg5 harg5 arg6 harg6 arg7 harg7 arg8 harg8 arg9 harg9 hc0 hc1 x0 x1 x2 x3).2.1)
/-- Those stores tile the buffer, so they cover it. -/
theorem cover_denFirst (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i) (x0 : Vec F S32x256 .f32) (x1 : Vec F S32x1 .f32) (x2 : Vec F S2048x256 .f32) (x3 : Vec F S2048x1 .i32) (y : S32x1.Idx) :
    ∃ pc ∈ (runFirst c i arg2 harg2 arg3 harg3 arg4 harg4 arg5 harg5 arg6 harg6 arg7 harg7 arg8 harg8 arg9 harg9 hc0 hc1 x0 x1 x2 x3).2.1, y ∈ pc.1.set :=
  View.cover_of_tiledL (runFirst c i arg2 harg2 arg3 harg3 arg4 harg4 arg5 harg5 arg6 harg6 arg7 harg7 arg8 harg8 arg9 harg9 hc0 hc1 x0 x1 x2 x3).2.1 S32x1.size (by sl_kernel_rfl) y
/-- What the First point's run leaves in the running numerator: its stores read back. -/
def numFirst (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i) (x0 : Vec F S32x256 .f32) (x1 : Vec F S32x1 .f32) (x2 : Vec F S2048x256 .f32) (x3 : Vec F S2048x1 .i32) : Vec F S32x1024 .f32 :=
  VNum.read (Elt F) (VNum.writes (Elt F) VNum.junk (runFirst c i arg2 harg2 arg3 harg3 arg4 harg4 arg5 harg5 arg6 harg6 arg7 harg7 arg8 harg8 arg9 harg9 hc0 hc1 x0 x1 x2 x3).2.2.1)
/-- Those stores tile the buffer, so they cover it. -/
theorem cover_numFirst (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i) (x0 : Vec F S32x256 .f32) (x1 : Vec F S32x1 .f32) (x2 : Vec F S2048x256 .f32) (x3 : Vec F S2048x1 .i32) (y : S32x1024.Idx) :
    ∃ pc ∈ (runFirst c i arg2 harg2 arg3 harg3 arg4 harg4 arg5 harg5 arg6 harg6 arg7 harg7 arg8 harg8 arg9 harg9 hc0 hc1 x0 x1 x2 x3).2.2.1, y ∈ pc.1.set :=
  View.cover_of_tiledL (runFirst c i arg2 harg2 arg3 harg3 arg4 harg4 arg5 harg5 arg6 harg6 arg7 harg7 arg8 harg8 arg9 harg9 hc0 hc1 x0 x1 x2 x3).2.2.1 S32x1024.size (by sl_kernel_rfl) y

/-- What the Mid point's run leaves in the running maximum: its stores read back. -/
def maxMid (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) : Vec F S32x1 .f32 :=
  VMax.read (Elt F) (VMax.writes (Elt F) VMax.junk (runMid c i arg2 harg2 arg3 harg3 arg4 harg4 arg5 harg5 arg6 harg6 arg7 harg7 arg8 harg8 arg9 harg9 hc0 hc1 x0 x1 x2 x3 xm xl xa).1)
/-- Those stores tile the buffer, so they cover it. -/
theorem cover_maxMid (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) (y : S32x1.Idx) :
    ∃ pc ∈ (runMid c i arg2 harg2 arg3 harg3 arg4 harg4 arg5 harg5 arg6 harg6 arg7 harg7 arg8 harg8 arg9 harg9 hc0 hc1 x0 x1 x2 x3 xm xl xa).1, y ∈ pc.1.set :=
  View.cover_of_tiledL (runMid c i arg2 harg2 arg3 harg3 arg4 harg4 arg5 harg5 arg6 harg6 arg7 harg7 arg8 harg8 arg9 harg9 hc0 hc1 x0 x1 x2 x3 xm xl xa).1 S32x1.size (by sl_kernel_rfl) y
/-- What the Mid point's run leaves in the running denominator: its stores read back. -/
def denMid (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) : Vec F S32x1 .f32 :=
  VDen.read (Elt F) (VDen.writes (Elt F) VDen.junk (runMid c i arg2 harg2 arg3 harg3 arg4 harg4 arg5 harg5 arg6 harg6 arg7 harg7 arg8 harg8 arg9 harg9 hc0 hc1 x0 x1 x2 x3 xm xl xa).2.1)
/-- Those stores tile the buffer, so they cover it. -/
theorem cover_denMid (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) (y : S32x1.Idx) :
    ∃ pc ∈ (runMid c i arg2 harg2 arg3 harg3 arg4 harg4 arg5 harg5 arg6 harg6 arg7 harg7 arg8 harg8 arg9 harg9 hc0 hc1 x0 x1 x2 x3 xm xl xa).2.1, y ∈ pc.1.set :=
  View.cover_of_tiledL (runMid c i arg2 harg2 arg3 harg3 arg4 harg4 arg5 harg5 arg6 harg6 arg7 harg7 arg8 harg8 arg9 harg9 hc0 hc1 x0 x1 x2 x3 xm xl xa).2.1 S32x1.size (by sl_kernel_rfl) y
/-- What the Mid point's run leaves in the running numerator: its stores read back. -/
def numMid (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) : Vec F S32x1024 .f32 :=
  VNum.read (Elt F) (VNum.writes (Elt F) VNum.junk (runMid c i arg2 harg2 arg3 harg3 arg4 harg4 arg5 harg5 arg6 harg6 arg7 harg7 arg8 harg8 arg9 harg9 hc0 hc1 x0 x1 x2 x3 xm xl xa).2.2.1)
/-- Those stores tile the buffer, so they cover it. -/
theorem cover_numMid (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) (y : S32x1024.Idx) :
    ∃ pc ∈ (runMid c i arg2 harg2 arg3 harg3 arg4 harg4 arg5 harg5 arg6 harg6 arg7 harg7 arg8 harg8 arg9 harg9 hc0 hc1 x0 x1 x2 x3 xm xl xa).2.2.1, y ∈ pc.1.set :=
  View.cover_of_tiledL (runMid c i arg2 harg2 arg3 harg3 arg4 harg4 arg5 harg5 arg6 harg6 arg7 harg7 arg8 harg8 arg9 harg9 hc0 hc1 x0 x1 x2 x3 xm xl xa).2.2.1 S32x1024.size (by sl_kernel_rfl) y

/-- What the Last point's run leaves in the output's buffer: its stores read back. -/
def outLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) : Vec F S32x1024 .f32 :=
  VOut.read (Elt F) (VOut.writes (Elt F) VOut.junk (runLast c i arg2 harg2 arg3 harg3 arg4 harg4 arg5 harg5 arg6 harg6 arg7 harg7 arg8 harg8 arg9 harg9 hc0 hc1 x0 x1 x2 x3 xm xl xa).1)
/-- Those stores tile the buffer, so they cover it. -/
theorem cover_outLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) (y : S32x1024.Idx) :
    ∃ pc ∈ (runLast c i arg2 harg2 arg3 harg3 arg4 harg4 arg5 harg5 arg6 harg6 arg7 harg7 arg8 harg8 arg9 harg9 hc0 hc1 x0 x1 x2 x3 xm xl xa).1, y ∈ pc.1.set :=
  View.cover_of_tiledL (runLast c i arg2 harg2 arg3 harg3 arg4 harg4 arg5 harg5 arg6 harg6 arg7 harg7 arg8 harg8 arg9 harg9 hc0 hc1 x0 x1 x2 x3 xm xl xa).1 S32x1024.size (by sl_kernel_rfl) y
/-- What the Last point's run leaves in the running maximum: its stores read back. -/
def maxLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) : Vec F S32x1 .f32 :=
  VMax.read (Elt F) (VMax.writes (Elt F) VMax.junk (runLast c i arg2 harg2 arg3 harg3 arg4 harg4 arg5 harg5 arg6 harg6 arg7 harg7 arg8 harg8 arg9 harg9 hc0 hc1 x0 x1 x2 x3 xm xl xa).2.1)
/-- Those stores tile the buffer, so they cover it. -/
theorem cover_maxLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) (y : S32x1.Idx) :
    ∃ pc ∈ (runLast c i arg2 harg2 arg3 harg3 arg4 harg4 arg5 harg5 arg6 harg6 arg7 harg7 arg8 harg8 arg9 harg9 hc0 hc1 x0 x1 x2 x3 xm xl xa).2.1, y ∈ pc.1.set :=
  View.cover_of_tiledL (runLast c i arg2 harg2 arg3 harg3 arg4 harg4 arg5 harg5 arg6 harg6 arg7 harg7 arg8 harg8 arg9 harg9 hc0 hc1 x0 x1 x2 x3 xm xl xa).2.1 S32x1.size (by sl_kernel_rfl) y
/-- What the Last point's run leaves in the running denominator: its stores read back. -/
def denLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) : Vec F S32x1 .f32 :=
  VDen.read (Elt F) (VDen.writes (Elt F) VDen.junk (runLast c i arg2 harg2 arg3 harg3 arg4 harg4 arg5 harg5 arg6 harg6 arg7 harg7 arg8 harg8 arg9 harg9 hc0 hc1 x0 x1 x2 x3 xm xl xa).2.2.1)
/-- Those stores tile the buffer, so they cover it. -/
theorem cover_denLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) (y : S32x1.Idx) :
    ∃ pc ∈ (runLast c i arg2 harg2 arg3 harg3 arg4 harg4 arg5 harg5 arg6 harg6 arg7 harg7 arg8 harg8 arg9 harg9 hc0 hc1 x0 x1 x2 x3 xm xl xa).2.2.1, y ∈ pc.1.set :=
  View.cover_of_tiledL (runLast c i arg2 harg2 arg3 harg3 arg4 harg4 arg5 harg5 arg6 harg6 arg7 harg7 arg8 harg8 arg9 harg9 hc0 hc1 x0 x1 x2 x3 xm xl xa).2.2.1 S32x1.size (by sl_kernel_rfl) y
/-- What the Last point's run leaves in the running numerator: its stores read back. -/
def numLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) : Vec F S32x1024 .f32 :=
  VNum.read (Elt F) (VNum.writes (Elt F) VNum.junk (runLast c i arg2 harg2 arg3 harg3 arg4 harg4 arg5 harg5 arg6 harg6 arg7 harg7 arg8 harg8 arg9 harg9 hc0 hc1 x0 x1 x2 x3 xm xl xa).2.2.2.1)
/-- Those stores tile the buffer, so they cover it. -/
theorem cover_numLast (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) (y : S32x1024.Idx) :
    ∃ pc ∈ (runLast c i arg2 harg2 arg3 harg3 arg4 harg4 arg5 harg5 arg6 harg6 arg7 harg7 arg8 harg8 arg9 harg9 hc0 hc1 x0 x1 x2 x3 xm xl xa).2.2.2.1, y ∈ pc.1.set :=
  View.cover_of_tiledL (runLast c i arg2 harg2 arg3 harg3 arg4 harg4 arg5 harg5 arg6 harg6 arg7 harg7 arg8 harg8 arg9 harg9 hc0 hc1 x0 x1 x2 x3 xm xl xa).2.2.2.1 S32x1024.size (by sl_kernel_rfl) y

section Points
variable (V : (c : Dev nD) → (b : Ref sig .tc) → Buf (Elt F) ((c : Thread nD τ).loc b))

/-! ## The state after each point -/

/-- What the output's buffer and the three carried buffers hold after the body at position `n`: the first point run
    from anything, every later point from what the point before left; the output's component is read only at the last
    point (elsewhere the window is idle and the component is a placeholder nothing consults). -/
def stateAt (c : Dev nD) : (n : ℕ) → n < cfg1.N → Vec F S32x1024 .f32 × Vec F S32x1 .f32 × Vec F S32x1 .f32 × Vec F S32x1024 .f32
  | 0, hn =>
    (VOut.read (Elt F) VOut.junk,
     maxFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scMax (Memref.isWhole_whole _) scDen (Memref.isWhole_whole _) scNum (Memref.isWhole_whole _) ((condFirst_iff ⟨0, hn⟩).mpr rfl) (fun h => absurd ((condLast_iff ⟨0, hn⟩).mp h) (show ¬ (0 : ℕ) = 3 by decide)) (iblk V c 0 ⟨0, hn⟩) (iblk V c 1 ⟨0, hn⟩) (iblk V c 2 ⟨0, hn⟩) (iblk V c 3 ⟨0, hn⟩),
     denFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scMax (Memref.isWhole_whole _) scDen (Memref.isWhole_whole _) scNum (Memref.isWhole_whole _) ((condFirst_iff ⟨0, hn⟩).mpr rfl) (fun h => absurd ((condLast_iff ⟨0, hn⟩).mp h) (show ¬ (0 : ℕ) = 3 by decide)) (iblk V c 0 ⟨0, hn⟩) (iblk V c 1 ⟨0, hn⟩) (iblk V c 2 ⟨0, hn⟩) (iblk V c 3 ⟨0, hn⟩),
     numFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scMax (Memref.isWhole_whole _) scDen (Memref.isWhole_whole _) scNum (Memref.isWhole_whole _) ((condFirst_iff ⟨0, hn⟩).mpr rfl) (fun h => absurd ((condLast_iff ⟨0, hn⟩).mp h) (show ¬ (0 : ℕ) = 3 by decide)) (iblk V c 0 ⟨0, hn⟩) (iblk V c 1 ⟨0, hn⟩) (iblk V c 2 ⟨0, hn⟩) (iblk V c 3 ⟨0, hn⟩))
  | n + 1, hn =>
    if h3 : n + 1 = 3 then
      (outLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n)) ((condLast_iff ⟨n + 1, hn⟩).mpr h3) (iblk V c 0 ⟨n + 1, hn⟩) (iblk V c 1 ⟨n + 1, hn⟩) (iblk V c 2 ⟨n + 1, hn⟩) (iblk V c 3 ⟨n + 1, hn⟩) (stateAt c n (Nat.lt_of_succ_lt hn)).2.1 (stateAt c n (Nat.lt_of_succ_lt hn)).2.2.1 (stateAt c n (Nat.lt_of_succ_lt hn)).2.2.2,
       maxLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n)) ((condLast_iff ⟨n + 1, hn⟩).mpr h3) (iblk V c 0 ⟨n + 1, hn⟩) (iblk V c 1 ⟨n + 1, hn⟩) (iblk V c 2 ⟨n + 1, hn⟩) (iblk V c 3 ⟨n + 1, hn⟩) (stateAt c n (Nat.lt_of_succ_lt hn)).2.1 (stateAt c n (Nat.lt_of_succ_lt hn)).2.2.1 (stateAt c n (Nat.lt_of_succ_lt hn)).2.2.2,
       denLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n)) ((condLast_iff ⟨n + 1, hn⟩).mpr h3) (iblk V c 0 ⟨n + 1, hn⟩) (iblk V c 1 ⟨n + 1, hn⟩) (iblk V c 2 ⟨n + 1, hn⟩) (iblk V c 3 ⟨n + 1, hn⟩) (stateAt c n (Nat.lt_of_succ_lt hn)).2.1 (stateAt c n (Nat.lt_of_succ_lt hn)).2.2.1 (stateAt c n (Nat.lt_of_succ_lt hn)).2.2.2,
       numLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n)) ((condLast_iff ⟨n + 1, hn⟩).mpr h3) (iblk V c 0 ⟨n + 1, hn⟩) (iblk V c 1 ⟨n + 1, hn⟩) (iblk V c 2 ⟨n + 1, hn⟩) (iblk V c 3 ⟨n + 1, hn⟩) (stateAt c n (Nat.lt_of_succ_lt hn)).2.1 (stateAt c n (Nat.lt_of_succ_lt hn)).2.2.1 (stateAt c n (Nat.lt_of_succ_lt hn)).2.2.2)
    else
      (VOut.read (Elt F) VOut.junk,
       maxMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n)) (fun h => h3 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (stateAt c n (Nat.lt_of_succ_lt hn)).2.1 (stateAt c n (Nat.lt_of_succ_lt hn)).2.2.1 (stateAt c n (Nat.lt_of_succ_lt hn)).2.2.2,
       denMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n)) (fun h => h3 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (stateAt c n (Nat.lt_of_succ_lt hn)).2.1 (stateAt c n (Nat.lt_of_succ_lt hn)).2.2.1 (stateAt c n (Nat.lt_of_succ_lt hn)).2.2.2,
       numMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n)) (fun h => h3 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (stateAt c n (Nat.lt_of_succ_lt hn)).2.1 (stateAt c n (Nat.lt_of_succ_lt hn)).2.2.1 (stateAt c n (Nat.lt_of_succ_lt hn)).2.2.2)

/-- The point before `t`, when `t` is not the first. -/
abbrev prevState (c : Dev nD) (t : Fin cfg1.N) := stateAt V c (t.val - 1) (Nat.lt_of_le_of_lt (Nat.sub_le _ _) t.isLt)

/-- The state after the first point. -/
theorem stateAt_first (c : Dev nD) (t : Fin cfg1.N) (h0 : t.val = 0) (h3 : ¬t.val = 3) :
    stateAt V c t.val t.isLt =
      (VOut.read (Elt F) VOut.junk,
       maxFirst c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) ((condFirst_iff t).mpr h0) (fun h => h3 ((condLast_iff t).mp h)) (iblk V c 0 t) (iblk V c 1 t) (iblk V c 2 t) (iblk V c 3 t),
       denFirst c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) ((condFirst_iff t).mpr h0) (fun h => h3 ((condLast_iff t).mp h)) (iblk V c 0 t) (iblk V c 1 t) (iblk V c 2 t) (iblk V c 3 t),
       numFirst c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) ((condFirst_iff t).mpr h0) (fun h => h3 ((condLast_iff t).mp h)) (iblk V c 0 t) (iblk V c 1 t) (iblk V c 2 t) (iblk V c 3 t)) := by
  obtain ⟨n, hn⟩ := t
  cases n with
  | zero => exact rfl
  | succ n => exact absurd h0 (Nat.succ_ne_zero n)

/-- The state after a middle point, over what the point before left. -/
theorem stateAt_mid (c : Dev nD) (t : Fin cfg1.N) (h0 : ¬t.val = 0) (h3 : ¬t.val = 3) :
    stateAt V c t.val t.isLt =
      (VOut.read (Elt F) VOut.junk,
       maxMid c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) (fun h => h3 ((condLast_iff t).mp h)) (iblk V c 0 t) (iblk V c 1 t) (iblk V c 2 t) (iblk V c 3 t) (prevState V c t).2.1 (prevState V c t).2.2.1 (prevState V c t).2.2.2,
       denMid c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) (fun h => h3 ((condLast_iff t).mp h)) (iblk V c 0 t) (iblk V c 1 t) (iblk V c 2 t) (iblk V c 3 t) (prevState V c t).2.1 (prevState V c t).2.2.1 (prevState V c t).2.2.2,
       numMid c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) (fun h => h3 ((condLast_iff t).mp h)) (iblk V c 0 t) (iblk V c 1 t) (iblk V c 2 t) (iblk V c 3 t) (prevState V c t).2.1 (prevState V c t).2.2.1 (prevState V c t).2.2.2) := by
  obtain ⟨n, hn⟩ := t
  cases n with
  | zero => exact absurd rfl h0
  | succ n => exact (dif_neg h3).trans rfl

/-- The state after the last point, over what the point before left. -/
theorem stateAt_last (c : Dev nD) (t : Fin cfg1.N) (h0 : ¬t.val = 0) (h3 : t.val = 3) :
    stateAt V c t.val t.isLt =
      (outLast c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) ((condLast_iff t).mpr h3) (iblk V c 0 t) (iblk V c 1 t) (iblk V c 2 t) (iblk V c 3 t) (prevState V c t).2.1 (prevState V c t).2.2.1 (prevState V c t).2.2.2,
       maxLast c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) ((condLast_iff t).mpr h3) (iblk V c 0 t) (iblk V c 1 t) (iblk V c 2 t) (iblk V c 3 t) (prevState V c t).2.1 (prevState V c t).2.2.1 (prevState V c t).2.2.2,
       denLast c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) ((condLast_iff t).mpr h3) (iblk V c 0 t) (iblk V c 1 t) (iblk V c 2 t) (iblk V c 3 t) (prevState V c t).2.1 (prevState V c t).2.2.1 (prevState V c t).2.2.2,
       numLast c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) ((condLast_iff t).mpr h3) (iblk V c 0 t) (iblk V c 1 t) (iblk V c 2 t) (iblk V c 3 t) (prevState V c t).2.1 (prevState V c t).2.2.1 (prevState V c t).2.2.2) := by
  obtain ⟨n, hn⟩ := t
  cases n with
  | zero => exact absurd rfl h0
  | succ n => exact (dif_pos h3).trans rfl

/-! ## The invariant that carries the state -/

/-- Before the first point the region's plain invariant (every scoped buffer at anything); after point `n` the first
    kernel's staging buffers at anything and the three carried buffers at that point's state. -/
def PhiS (c : Dev nD) : (n : ℕ) → n ≤ cfg1.N → sProp 𝕄
  | 0, _ => Pipeline.ΦA spec1 c
  | n + 1, hn => iprop(iprop(anyAt (F := F) c cc0_stg0_0 ∗ anyAt (F := F) c cc0_stg0_1 ∗ anyAt (F := F) c cc0_stg1_0 ∗ anyAt (F := F) c cc0_stg2_0 ∗ anyAt (F := F) c cc0_stg2_1
      ∗ owns (c : Thread nD τ) scMax fullShare (stateAt V c n hn).2.1 ∗ owns (c : Thread nD τ) scDen fullShare (stateAt V c n hn).2.2.1
      ∗ owns (c : Thread nD τ) scNum fullShare (stateAt V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt (F := F) c cc0_stg0_0 ∗ anyAt (F := F) c cc0_stg0_1 ∗ anyAt (F := F) c cc0_stg1_0 ∗ anyAt (F := F) c cc0_stg2_0 ∗ anyAt (F := F) c cc0_stg2_1
      ∗ owns (c : Thread nD τ) scMax fullShare (stateAt V c n hn).2.1 ∗ owns (c : Thread nD τ) scDen fullShare (stateAt V c n hn).2.2.1
      ∗ owns (c : Thread nD τ) scNum fullShare (stateAt V c n hn).2.2.2) ∗ (∃ r, prngReg c r)) := rfl

theorem PhiS_pos (c : Dev nD) (n : ℕ) (h : n ≤ cfg1.N) (hz : n ≠ 0) :
    PhiS V c n h = iprop(iprop(anyAt (F := F) c cc0_stg0_0 ∗ anyAt (F := F) c cc0_stg0_1 ∗ anyAt (F := F) c cc0_stg1_0 ∗ anyAt (F := F) c cc0_stg2_0 ∗ anyAt (F := F) c cc0_stg2_1
      ∗ owns (c : Thread nD τ) scMax fullShare (stateAt V c (n - 1) (by omega)).2.1 ∗ owns (c : Thread nD τ) scDen fullShare (stateAt V c (n - 1) (by omega)).2.2.1
      ∗ owns (c : Thread nD τ) scNum fullShare (stateAt V c (n - 1) (by omega)).2.2.2) ∗ (∃ r, prngReg c r)) := by
  cases n with
  | zero => exact absurd rfl hz
  | succ n => rfl

/-! ## The pipeline's proof data -/

/-- The arrays as the region finds them; after the body at point `t` each input's buffer at its block and the output's at
    the state's output component; the invariant the one above; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (stateAt V c t.val t.isLt).1
  Φ t := PhiS V c t.val (Nat.le_of_lt_succ t.isLt)
  q _ := fullShare
  owed _ := 0

theorem A_eq (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after_0 (c : Dev nD) (t : Fin cfg1.N) : (dat1 V c).after 0 t = iblk V c 0 t := by dsimp only [dat1]
theorem after_1 (c : Dev nD) (t : Fin cfg1.N) : (dat1 V c).after 1 t = iblk V c 1 t := by dsimp only [dat1]
theorem after_2 (c : Dev nD) (t : Fin cfg1.N) : (dat1 V c).after 2 t = iblk V c 2 t := by dsimp only [dat1]
theorem after_3 (c : Dev nD) (t : Fin cfg1.N) : (dat1 V c).after 3 t = iblk V c 3 t := by dsimp only [dat1]
theorem after_4 (c : Dev nD) (t : Fin cfg1.N) : (dat1 V c).after 4 t = (stateAt V c t.val t.isLt).1 := by dsimp only [dat1]

theorem before_0 (c : Dev nD) (t : Fin cfg1.N) (d) : (dat1 V c).before 0 t d = iblk V c 0 t :=
  before_0_of V (dat1 V c) (A_eq V c 0) (after_0 V c) t d
theorem before_1 (c : Dev nD) (t : Fin cfg1.N) (d) : (dat1 V c).before 1 t d = iblk V c 1 t :=
  before_1_of V (dat1 V c) (A_eq V c 1) (after_1 V c) t d
theorem before_2 (c : Dev nD) (t : Fin cfg1.N) (d) : (dat1 V c).before 2 t d = iblk V c 2 t :=
  before_2_of V (dat1 V c) (A_eq V c 2) (after_2 V c) t d
theorem before_3 (c : Dev nD) (t : Fin cfg1.N) (d) : (dat1 V c).before 3 t d = iblk V c 3 t :=
  before_3_of V (dat1 V c) (A_eq V c 3) (after_3 V c) t d

end Points

end Cert.KernelIdeal.Region1

end
-- ==== Proof.Region1Body.lean ====
/-
  The second kernel's body against the pipeline's obligation: at a first, a middle and the last grid point the body, called
  with each input window's block, the carried buffers at what the invariant says and the output's buffer, runs to
  the invariant at the next point — the carried buffers at that point's state — with every window's buffer as the
  proof data states; then the obligation at every point, and the invariant's two ends.
-/
import proofs.«131352_j66331474920046_2_alg».proof.Proof.Region1

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-- What the body is called with at point `t`, -/
def bodyPre (c : Dev nD) (t : Fin cfg1.N) : sProp 𝕄 :=
  iprop((dat1 V c).Φ t.castSucc ∗ (dat1 V c).owesAt () t.castSucc
    ∗ (∃ d, owns (c : Thread nD τ) (ms_0 t) fullShare ((dat1 V c).before 0 t d))
    ∗ (∃ d, owns (c : Thread nD τ) (ms_1 t) fullShare ((dat1 V c).before 1 t d))
    ∗ (∃ d, owns (c : Thread nD τ) (ms_2 t) fullShare ((dat1 V c).before 2 t d))
    ∗ (∃ d, owns (c : Thread nD τ) (ms_3 t) fullShare ((dat1 V c).before 3 t d))
    ∗ (∃ d, owns (c : Thread nD τ) (ms_4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

/-- The rewriting every case starts with: the inputs' buffers hold their blocks, nothing is owed, the invariant after
    the point is the carried buffers at the point's state. -/
theorem body_goal_eq (c : Dev nD) (t : Fin cfg1.N) :
    (bodyPre V c t ⊢ wp frame (wpE (defs₀ (F := F)) Variants.none c none) Set.univ (bodyAt1 t) (fun _ => bodyPost V c t)) ↔
    (iprop((dat1 V c).Φ t.castSucc ∗ (dat1 V c).owesAt () t.castSucc
        ∗ (∃ d : (cfg1.win 0).block.Idx → Elt F (cfg1.win 0).elt, owns (c : Thread nD τ) (ms_0 t) fullShare (iblk V c 0 t))
        ∗ (∃ d : (cfg1.win 1).block.Idx → Elt F (cfg1.win 1).elt, owns (c : Thread nD τ) (ms_1 t) fullShare (iblk V c 1 t))
        ∗ (∃ d : (cfg1.win 2).block.Idx → Elt F (cfg1.win 2).elt, owns (c : Thread nD τ) (ms_2 t) fullShare (iblk V c 2 t))
        ∗ (∃ d : (cfg1.win 3).block.Idx → Elt F (cfg1.win 3).elt, owns (c : Thread nD τ) (ms_3 t) fullShare (iblk V c 3 t))
        ∗ (∃ d, owns (c : Thread nD τ) (ms_4 t) fullShare ((dat1 V c).before 4 t d)))
      ⊢ wp frame (wpE (defs₀ (F := F)) Variants.none c none) Set.univ (bodyAt1 t) (fun _ =>
        iprop(PhiS V c (t.val + 1) t.isLt ∗ (dat1 V c).owesAt () t.castSucc
          ∗ (dat1 V c).leavesExact 0 t ∗ (dat1 V c).leavesExact 1 t ∗ (dat1 V c).leavesExact 2 t
          ∗ (dat1 V c).leavesExact 3 t ∗ (dat1 V c).leavesExact 4 t))) := by
  unfold bodyPre bodyPost
  simp only [before_0, before_1, before_2, before_3]
  rfl

set_option maxHeartbeats 4000000 in
/-- The body at the first point. -/
theorem sound_body_first (c : Dev nD) (t : Fin cfg1.N) (h0 : t.val = 0) (h3 : ¬t.val = 3) :
    bodyPre V c t ⊢ wp frame (wpE (defs₀ (F := F)) Variants.none c none) Set.univ (bodyAt1 t) (fun _ => bodyPost V c t) := by
  rw [body_goal_eq]; unfold bodyAt1; rw [PhiS_succ]
  rw [show (dat1 V c).leavesExact 0 t = owns (c : Thread nD τ) (ms_0 t) fullShare ((dat1 V c).after 0 t) from by
    unfold Dat.leavesExact; rw [live_0 t], after_0]
  rw [show (dat1 V c).leavesExact 1 t = owns (c : Thread nD τ) (ms_1 t) fullShare ((dat1 V c).after 1 t) from by
    unfold Dat.leavesExact; rw [live_1 t], after_1]
  rw [show (dat1 V c).leavesExact 2 t = owns (c : Thread nD τ) (ms_2 t) fullShare ((dat1 V c).after 2 t) from by
    unfold Dat.leavesExact; rw [live_2 t], after_2]
  rw [show (dat1 V c).leavesExact 3 t = owns (c : Thread nD τ) (ms_3 t) fullShare ((dat1 V c).after 3 t) from by
    unfold Dat.leavesExact; rw [live_3 t], after_3]
  rw [Dat.leavesExact_idle (dat1 V c) 4 t (idle_4 t (fun h => h3 ((condLast_iff t).mp h))) (noFlush_4 t (fun h => h3 ((condLast_iff t).mp h)))]
  rw [stateAt_first V c t h0 h3]
  unfold maxFirst denFirst numFirst; (try dsimp only)
  rw [PhiS_castSucc V c t, PhiS_zero V c _ _ h0, PhiA_eq]
  iintro ⟨⟨⟨Ha, Hb, Hc, Hd, He, HM, HD, HN⟩, Hg⟩, Ho, ⟨%d0, H0⟩, ⟨%d1, H1⟩, ⟨%d2, H2⟩, ⟨%d3, H3⟩, ⟨%d4, H4⟩⟩
  iapply ((runFirst c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) ((condFirst_iff t).mpr h0) (fun h => h3 ((condLast_iff t).mp h)) (iblk V c 0 t) (iblk V c 1 t) (iblk V c 2 t) (iblk V c 3 t)).2.2.2 _ Set.univ _)
  isplitl [H0]; · iexact H0
  isplitl [H1]; · iexact H1
  isplitl [H2]; · iexact H2
  isplitl [H3]; · iexact H3
  isplitl [H4]; · iexact H4
  isplitl [HM]; · iexact HM
  isplitl [HD]; · iexact HD
  isplitl [HN]; · iexact HN
  iintro ⟨H0, H1, H2, H3, H4, ⟨%eM, HM⟩, ⟨%eD, HD⟩, ⟨%eN, HN⟩⟩
  isplitl [Ha Hb Hc Hd He HM HD HN Hg]
  · isplitr [Hg]
    · isplitl [Ha]; · iexact Ha
      isplitl [Hb]; · iexact Hb
      isplitl [Hc]; · iexact Hc
      isplitl [Hd]; · iexact Hd
      isplitl [He]; · iexact He
      isplitl [HM]
      · unfold owns; iexists _; isplitr
        swap; · iexact HM
        ipureintro; exact View.read_writes_of_cover _ _ _ _ _ (cover_maxFirst c _ _ _ _ _ _ _ _ _ _ _ _ _ _ _ _ _ _ _ _ _ _ _)
      isplitl [HD]
      · unfold owns; iexists _; isplitr
        swap; · iexact HD
        ipureintro; exact View.read_writes_of_cover _ _ _ _ _ (cover_denFirst c _ _ _ _ _ _ _ _ _ _ _ _ _ _ _ _ _ _ _ _ _ _ _)
      unfold owns; iexists _; isplitr
      swap; · iexact HN
      ipureintro; exact View.read_writes_of_cover _ _ _ _ _ (cover_numFirst c _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a middle point. -/
theorem sound_body_mid (c : Dev nD) (t : Fin cfg1.N) (h0 : ¬t.val = 0) (h3 : ¬t.val = 3) :
    bodyPre V c t ⊢ wp frame (wpE (defs₀ (F := F)) Variants.none c none) Set.univ (bodyAt1 t) (fun _ => bodyPost V c t) := by
  rw [body_goal_eq]; unfold bodyAt1; rw [PhiS_succ]
  rw [show (dat1 V c).leavesExact 0 t = owns (c : Thread nD τ) (ms_0 t) fullShare ((dat1 V c).after 0 t) from by
    unfold Dat.leavesExact; rw [live_0 t], after_0]
  rw [show (dat1 V c).leavesExact 1 t = owns (c : Thread nD τ) (ms_1 t) fullShare ((dat1 V c).after 1 t) from by
    unfold Dat.leavesExact; rw [live_1 t], after_1]
  rw [show (dat1 V c).leavesExact 2 t = owns (c : Thread nD τ) (ms_2 t) fullShare ((dat1 V c).after 2 t) from by
    unfold Dat.leavesExact; rw [live_2 t], after_2]
  rw [show (dat1 V c).leavesExact 3 t = owns (c : Thread nD τ) (ms_3 t) fullShare ((dat1 V c).after 3 t) from by
    unfold Dat.leavesExact; rw [live_3 t], after_3]
  rw [Dat.leavesExact_idle (dat1 V c) 4 t (idle_4 t (fun h => h3 ((condLast_iff t).mp h))) (noFlush_4 t (fun h => h3 ((condLast_iff t).mp h)))]
  rw [stateAt_mid V c t h0 h3]
  unfold maxMid denMid numMid; (try dsimp only)
  rw [PhiS_castSucc V c t, PhiS_pos V c _ _ h0]
  iintro ⟨⟨⟨Ha, Hb, Hc, Hd, He, HM, HD, HN⟩, Hg⟩, Ho, ⟨%d0, H0⟩, ⟨%d1, H1⟩, ⟨%d2, H2⟩, ⟨%d3, H3⟩, ⟨%d4, H4⟩⟩
  iapply ((runMid c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) (fun h => h3 ((condLast_iff t).mp h)) (iblk V c 0 t) (iblk V c 1 t) (iblk V c 2 t) (iblk V c 3 t) _ _ _).2.2.2 _ Set.univ _)
  isplitl [H0]; · iexact H0
  isplitl [H1]; · iexact H1
  isplitl [H2]; · iexact H2
  isplitl [H3]; · iexact H3
  isplitl [H4]; · iexact H4
  isplitl [HM]; · iexact HM
  isplitl [HD]; · iexact HD
  isplitl [HN]; · iexact HN
  iintro ⟨H0, H1, H2, H3, H4, ⟨%eM, HM⟩, ⟨%eD, HD⟩, ⟨%eN, HN⟩⟩
  isplitl [Ha Hb Hc Hd He HM HD HN Hg]
  · isplitr [Hg]
    · isplitl [Ha]; · iexact Ha
      isplitl [Hb]; · iexact Hb
      isplitl [Hc]; · iexact Hc
      isplitl [Hd]; · iexact Hd
      isplitl [He]; · iexact He
      isplitl [HM]
      · unfold owns; iexists _; isplitr
        swap; · iexact HM
        ipureintro; exact View.read_writes_of_cover _ _ _ _ _ (cover_maxMid c _ _ _ _ _ _ _ _ _ _ _ _ _ _ _ _ _ _ _ _ _ _ _ _ _ _)
      isplitl [HD]
      · unfold owns; iexists _; isplitr
        swap; · iexact HD
        ipureintro; exact View.read_writes_of_cover _ _ _ _ _ (cover_denMid c _ _ _ _ _ _ _ _ _ _ _ _ _ _ _ _ _ _ _ _ _ _ _ _ _ _)
      unfold owns; iexists _; isplitr
      swap; · iexact HN
      ipureintro; exact View.read_writes_of_cover _ _ _ _ _ (cover_numMid c _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at the last point. -/
theorem sound_body_last (c : Dev nD) (t : Fin cfg1.N) (h0 : ¬t.val = 0) (h3 : t.val = 3) :
    bodyPre V c t ⊢ wp frame (wpE (defs₀ (F := F)) Variants.none c none) Set.univ (bodyAt1 t) (fun _ => bodyPost V c t) := by
  rw [body_goal_eq]; unfold bodyAt1; rw [PhiS_succ]
  rw [show (dat1 V c).leavesExact 0 t = owns (c : Thread nD τ) (ms_0 t) fullShare ((dat1 V c).after 0 t) from by
    unfold Dat.leavesExact; rw [live_0 t], after_0]
  rw [show (dat1 V c).leavesExact 1 t = owns (c : Thread nD τ) (ms_1 t) fullShare ((dat1 V c).after 1 t) from by
    unfold Dat.leavesExact; rw [live_1 t], after_1]
  rw [show (dat1 V c).leavesExact 2 t = owns (c : Thread nD τ) (ms_2 t) fullShare ((dat1 V c).after 2 t) from by
    unfold Dat.leavesExact; rw [live_2 t], after_2]
  rw [show (dat1 V c).leavesExact 3 t = owns (c : Thread nD τ) (ms_3 t) fullShare ((dat1 V c).after 3 t) from by
    unfold Dat.leavesExact; rw [live_3 t], after_3]
  rw [show (dat1 V c).leavesExact 4 t = owns (c : Thread nD τ) (ms_4 t) fullShare ((dat1 V c).after 4 t) from by
    unfold Dat.leavesExact; rw [live_4 t ((condLast_iff t).mpr h3)], after_4]
  rw [stateAt_last V c t h0 h3]
  unfold outLast maxLast denLast numLast; (try dsimp only)
  rw [PhiS_castSucc V c t, PhiS_pos V c _ _ h0]
  iintro ⟨⟨⟨Ha, Hb, Hc, Hd, He, HM, HD, HN⟩, Hg⟩, Ho, ⟨%d0, H0⟩, ⟨%d1, H1⟩, ⟨%d2, H2⟩, ⟨%d3, H3⟩, ⟨%d4, H4⟩⟩
  iapply ((runLast c (grid1.coords t) (ms_0 t) (hs_0 t) (ms_1 t) (hs_1 t) (ms_2 t) (hs_2 t) (ms_3 t) (hs_3 t) (ms_4 t) (hs_4 t) scMax (Memref.isWhole_whole _) scDen (Memref.isWhole_whole _) scNum (Memref.isWhole_whole _) (fun h => h0 ((condFirst_iff t).mp h)) ((condLast_iff t).mpr h3) (iblk V c 0 t) (iblk V c 1 t) (iblk V c 2 t) (iblk V c 3 t) _ _ _).2.2.2.2 Set.univ _)
  isplitl [H0]; · iexact H0
  isplitl [H1]; · iexact H1
  isplitl [H2]; · iexact H2
  isplitl [H3]; · iexact H3
  isplitl [H4]; · iexists _; iexact H4
  isplitl [HM]; · iexact HM
  isplitl [HD]; · iexact HD
  isplitl [HN]; · iexact HN
  iintro ⟨H0, H1, H2, H3, ⟨%e4, H4⟩, ⟨%eM, HM⟩, ⟨%eD, HD⟩, ⟨%eN, HN⟩⟩
  isplitl [Ha Hb Hc Hd He HM HD HN Hg]
  · isplitr [Hg]
    · isplitl [Ha]; · iexact Ha
      isplitl [Hb]; · iexact Hb
      isplitl [Hc]; · iexact Hc
      isplitl [Hd]; · iexact Hd
      isplitl [He]; · iexact He
      isplitl [HM]
      · unfold owns; iexists _; isplitr
        swap; · iexact HM
        ipureintro; exact View.read_writes_of_cover _ _ _ _ _ (cover_maxLast c _ _ _ _ _ _ _ _ _ _ _ _ _ _ _ _ _ _ _ _ _ _ _ _ _ _)
      isplitl [HD]
      · unfold owns; iexists _; isplitr
        swap; · iexact HD
        ipureintro; exact View.read_writes_of_cover _ _ _ _ _ (cover_denLast c _ _ _ _ _ _ _ _ _ _ _ _ _ _ _ _ _ _ _ _ _ _ _ _ _ _)
      unfold owns; iexists _; isplitr
      swap; · iexact HN
      ipureintro; exact View.read_writes_of_cover _ _ _ _ _ (cover_numLast c _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover_outLast c _ _ _ _ _ _ _ _ _ _ _ _ _ _ _ _ _ _ _ _ _ _ _ _ _ _)

/-- The body at any point. -/
theorem sound_body (c : Dev nD) (t : Fin cfg1.N) :
    bodyPre V c t ⊢ wp frame (wpE (defs₀ (F := F)) Variants.none c none) Set.univ (bodyAt1 t) (fun _ => bodyPost V c t) := by
  have hN : t.val < 4 := lt_of_lt_of_eq t.isLt (show cfg1.N = 4 from N_1)
  by_cases h0 : t.val = 0
  · exact sound_body_first V c t h0 (by omega)
  · by_cases h3 : t.val = 3
    · exact sound_body_last V c t h0 h3
    · exact sound_body_mid V c t h0 h3

/-- The pipeline's body obligation, at every point. -/
theorem body_obligation1 (c : Dev nD) : BodyObligation (dat1 (F := F) V c) (defs₀ (F := F)) Variants.none () Set.univ := fun t => by
  rw [bigSep_W1, bigSep_W1]
  exact sound_body V c t

/-- The region's plain invariant is the tracked one before the first point. -/
theorem phi_in (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the tracked invariant gives the plain one back: the carried buffers' contents are forgotten. -/
theorem phi_out (c : Dev nD) : (dat1 V c).Φ (Fin.last cfg1.N) ⊢ Pipeline.ΦA spec1 c := by
  have hz : (Fin.last cfg1.N).val ≠ 0 := by rw [Fin.val_last]; have : cfg1.N = 4 := N_1; omega
  rw [show (dat1 V c).Φ (Fin.last cfg1.N) = PhiS V c (Fin.last cfg1.N).val (Nat.le_of_lt_succ (Fin.last cfg1.N).isLt) from rfl,
    PhiS_pos V c _ _ hz, PhiA_eq]
  iintro ⟨⟨Ha, Hb, Hc, Hd, He, HM, HD, HN⟩, Hg⟩
  isplitr [Hg]
  · isplitl [Ha]; · iexact Ha
    isplitl [Hb]; · iexact Hb
    isplitl [Hc]; · iexact Hc
    isplitl [Hd]; · iexact Hd
    isplitl [He]; · iexact He
    isplitl [HM]; · iexists _; iexact HM
    isplitl [HD]; · iexists _; iexact HD
    iexists _; iexact HN
  iexact Hg

end Body

end Cert.KernelIdeal.Region1

end
-- ==== Proof.Whole.lean ====
/-
  The whole program as five segments — a host stretch, the projection kernel, a host stretch, the tile-by-tile kernel,
  a host stretch — over one thread state per boundary: every unscoped buffer of the core at the boundary's contents, the
  generator register at some state, nothing owed. The contents fold through the program: a host stretch applies its
  operations, a kernel region replaces its arrays by what its write-backs leave. Each region enters by splitting its
  arrays out of the unscoped buffers and leaves by putting them back; the second region's invariant also carries its
  three buffers from grid point to grid point. The run names every unscoped buffer's final contents.
-/
import proofs.«131352_j66331474920046_2_alg».proof.Proof.Region0
import proofs.«131352_j66331474920046_2_alg».proof.Proof.Region1Body
import proofs.«131352_j66331474920046_2_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the first host stretch: the projection kernel's entry. -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- After the projection kernel: its arrays at what its write-backs leave, every other buffer as entered. -/
def B2 (c : Dev nD) : Valuation τ sig (Elt F) :=
  Pipeline.withArrays spec0 c (B1 m ρ c) fun w => (Region0.dat0 (E1 m ρ) c).arrAt w cfg0.N
theorem B2_arr (c : Dev nD) (w : Fin cfg0.W) :
    B2 m ρ c (Proc.devRef .tc (Pipeline.arrRef spec0 w)) = (Region0.dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem arrays0_exit (c : Dev nD) (w : Fin cfg0.W) : (Region0.dat0 (E1 m ρ) c).arrAt w cfg0.N = E2 m ρ c (Pipeline.arrRef spec0 w) :=
  (B2_arr m ρ c w).symm
theorem rest0_exit (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch: the tile-by-tile kernel's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the tile-by-tile kernel. -/
def B4 (c : Dev nD) : Valuation τ sig (Elt F) :=
  Pipeline.withArrays spec1 c (B3 m ρ c) fun w => (Region1.dat1 (E3 m ρ) c).arrAt w cfg1.N
theorem B4_arr (c : Dev nD) (w : Fin cfg1.W) :
    B4 m ρ c (Proc.devRef .tc (Pipeline.arrRef spec1 w)) = (Region1.dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem arrays1_exit (c : Dev nD) (w : Fin cfg1.W) : (Region1.dat1 (E3 m ρ) c).arrAt w cfg1.N = E4 m ρ c (Pipeline.arrRef spec1 w) :=
  (B4_arr m ρ c w).symm
theorem rest1_exit (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- After the last host stretch: the return. -/
abbrev B5 : Dev nD → Valuation τ sig (Elt F) := fun c => StableHlo.after hostOps2 (B4 m ρ c)

/-! ## The proof data family and the thread state -/

abbrev tables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) tables p) c
  | ⟨0, _⟩ => fun c => Region0.dat0 (E1 m ρ) c
  | ⟨1, _⟩ => fun c => Region1.dat1 (E3 m ρ) c
abbrev noVar : Variants := Variants.none
abbrev noPairs : GSem nD τ sig → Finset Unit := fun _ => ∅
abbrev noLevel : GSem nD τ sig → Unit → ℕ := fun _ _ => 0
/-- What rides beside the buffers through every segment: the generator register at some state, nothing owed. -/
abbrev riding (c : Dev nD) : sProp 𝕄 := iprop((∃ r, prngReg c r) ∗ ∃ W, owes (c : Thread nD τ) (0 : CellTallies nD τ sig Unit) W)
/-- A host stretch as a segment over the unscoped references. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev atReturn (c : Dev nD) : sProp 𝕄 := iprop(StableHlo.held (c : Thread nD τ) (Pipeline.ucRefs τ sig) (B5 m ρ c) ∗ ∃ r, prngReg c r)

/-! ## The regions as segments -/

set_option backward.isDefEq.respectTransparency.types false in
/-- The projection kernel: entered from every unscoped buffer at `B1`, left at `B2`. -/
def region0 : Pipeline.RegionSeg (pcfgs (F := F)) tables (pdats m ρ) () defs₀ noVar noPairs noLevel 0 where
  win := launch0.win.to₀
  block_pos := launch0.block_pos
  stage_whole := launch0.stage_whole
  K := PEmpty
  osem k := k.elim
  ho := Pipeline.OwnSemFacts.none _
  hbody c := (Region0.body_obligation0 (E1 m ρ) c).loose
  hwaits := Pipeline.hwaits_of_owed_zero _ _ _ _ noPairs noLevel 0 fun _ _ => rfl
  pre c := iprop(StableHlo.held (c : Thread nD τ) (Pipeline.ucRefs τ sig) (B1 m ρ c) ∗ riding c)
  post c := iprop(StableHlo.held (c : Thread nD τ) (Pipeline.ucRefs τ sig) (B2 m ρ c) ∗ riding c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (arrays0_exit m ρ c) (rest0_exit m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The tile-by-tile kernel: entered from every unscoped buffer at `B3`, left at `B4`; its invariant starts as the
    plain one and, after the last point, gives the plain one back. -/
def region1 : Pipeline.RegionSeg (pcfgs (F := F)) tables (pdats m ρ) () defs₀ noVar noPairs noLevel 1 where
  win := launch1.win.to₀
  block_pos := launch1.block_pos
  stage_whole := launch1.stage_whole
  K := PEmpty
  osem k := k.elim
  ho := Pipeline.OwnSemFacts.none _
  hbody c := (Region1.body_obligation1 (E3 m ρ) c).loose
  hwaits := Pipeline.hwaits_of_owed_zero _ _ _ _ noPairs noLevel 1 fun _ _ => rfl
  pre c := iprop(StableHlo.held (c : Thread nD τ) (Pipeline.ucRefs τ sig) (B3 m ρ c) ∗ riding c)
  post c := iprop(StableHlo.held (c : Thread nD τ) (Pipeline.ucRefs τ sig) (B4 m ρ c) ∗ riding c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) tables (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Region1.phi_in (E3 m ρ) c
    rw [show (pdats m ρ 1 c).Φ 0 = (Region1.dat1 (E3 m ρ) c).Φ 0 from rfl]
    unfold Pipeline.ΦA at h
    iintro ⟨Hp, -, Hr⟩
    iapply h
    isplitl [Hr]; · iexact Hr
    iexact Hp
  hout c := by
    have h := Region1.phi_out (E3 m ρ) c
    rw [Pipeline.ownSems0_none, show (pdats m ρ 1 c).Φ (Fin.last _) = (Region1.dat1 (E3 m ρ) c).Φ (Fin.last cfg1.N) from rfl]
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (arrays1_exit m ρ c) (rest1_exit m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segments : List (Pipeline.Seg (pcfgs (F := F)) tables (pdats m ρ) () defs₀ noVar noPairs noLevel) :=
  [ .host (stretch hostOps0 hostOps0_sub hostOps0_fresh (B0 m ρ)),
    .region (region0 m ρ),
    .host (stretch hostOps1 hostOps1_sub hostOps1_fresh (B2 m ρ)),
    .region (region1 m ρ),
    .host (stretch hostOps2 hostOps2_sub hostOps2_fresh (B4 m ρ)) ]

theorem main_is_segments (c : Dev nD) : main (F := F) c = Pipeline.Seg.run (segments m ρ) := (main_chain c).trans (by chain_rfl)

set_option backward.isDefEq.respectTransparency.types false in
/-- Every weakly fair execution of the program from memory `m` with zero counters terminates, nothing faulting, and in
    every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) tables (pdats m ρ) () cellOf_inj emb₁ defs₀ noVar noPairs noLevel m ρ main (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ riding c)) (Tₙ := atReturn m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ riding c) ⊢ _
      iintro ⟨Hh, Hp, Ho⟩
      isplitl [Hh Hp]
      · isplitl [Hh]; · iexact Hh
        iexact Hp
      iexact Ho⟩)
    (hinit := by
      refine Pipeline.initEach noPairs noLevel fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

end Cert.KernelIdeal.Whole

end
-- ==== Proof.WholeFrame.lean ====
/-
  What the run says of the program's arguments and of its result: each argument array ends as launched (the frame
  claim), and the result's buffer ends at the last boundary's contents.
-/
import proofs.«131352_j66331474920046_2_alg».proof.Proof.Whole

set_option maxRecDepth 16384

noncomputable section

namespace Cert.KernelIdeal.Whole

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- Argument 0 reaches the return as launched: no host operation writes it, the second kernel does not stage it, and the
    first kernel does not stage it. -/
theorem B5_arg0 (c : Dev nD) : B5 m ρ c (Proc.devRef .tc main_arg0) = m ((c : Thread nD τ).loc main_arg0) :=
  (StableHlo.after_of_writes_sub hostOps2 _ hostOps2_writes (by decide : main_arg0 ∉ hostOps2_W)).trans <|
  (B4_of_ne m ρ c main_arg0 (by decide)).trans <|
  (StableHlo.after_of_writes_sub hostOps1 _ hostOps1_writes (by decide : main_arg0 ∉ hostOps1_W)).trans <|
  (B2_of_ne m ρ c main_arg0 (by decide)).trans <|
  (StableHlo.after_of_writes_sub hostOps0 _ hostOps0_writes (by decide : main_arg0 ∉ hostOps0_W)).trans rfl

/-- Argument 1 reaches the return as launched: no host operation writes it, the second kernel does not stage it, and the
    first kernel stages it as an input and leaves it as found. -/
theorem B5_arg1 (c : Dev nD) : B5 m ρ c (Proc.devRef .tc main_arg1) = m ((c : Thread nD τ).loc main_arg1) :=
  (StableHlo.after_of_writes_sub hostOps2 _ hostOps2_writes (by decide : main_arg1 ∉ hostOps2_W)).trans <|
  (B4_of_ne m ρ c main_arg1 (by decide)).trans <|
  (StableHlo.after_of_writes_sub hostOps1 _ hostOps1_writes (by decide : main_arg1 ∉ hostOps1_W)).trans <|
  ((B2_arr m ρ c 0).trans (((Region0.dat0 (E1 m ρ) c).arrAt_in 0 rfl _).trans (Region0.A_eq0 (E1 m ρ) c 0))).trans <|
  (StableHlo.after_of_writes_sub hostOps0 _ hostOps0_writes (by decide : main_arg1 ∉ hostOps0_W)).trans rfl

/-- Argument 2 reaches the return as launched: no host operation writes it, the second kernel does not stage it, and the
    first kernel stages it as an input and leaves it as found. -/
theorem B5_arg2 (c : Dev nD) : B5 m ρ c (Proc.devRef .tc main_arg2) = m ((c : Thread nD τ).loc main_arg2) :=
  (StableHlo.after_of_writes_sub hostOps2 _ hostOps2_writes (by decide : main_arg2 ∉ hostOps2_W)).trans <|
  (B4_of_ne m ρ c main_arg2 (by decide)).trans <|
  (StableHlo.after_of_writes_sub hostOps1 _ hostOps1_writes (by decide : main_arg2 ∉ hostOps1_W)).trans <|
  ((B2_arr m ρ c 1).trans (((Region0.dat0 (E1 m ρ) c).arrAt_in 1 rfl _).trans (Region0.A_eq0 (E1 m ρ) c 1))).trans <|
  (StableHlo.after_of_writes_sub hostOps0 _ hostOps0_writes (by decide : main_arg2 ∉ hostOps0_W)).trans rfl

/-- Argument 3 reaches the return as launched: no host operation writes it, the second kernel does not stage it, and the
    first kernel does not stage it. -/
theorem B5_arg3 (c : Dev nD) : B5 m ρ c (Proc.devRef .tc main_arg3) = m ((c : Thread nD τ).loc main_arg3) :=
  (StableHlo.after_of_writes_sub hostOps2 _ hostOps2_writes (by decide : main_arg3 ∉ hostOps2_W)).trans <|
  (B4_of_ne m ρ c main_arg3 (by decide)).trans <|
  (StableHlo.after_of_writes_sub hostOps1 _ hostOps1_writes (by decide : main_arg3 ∉ hostOps1_W)).trans <|
  (B2_of_ne m ρ c main_arg3 (by decide)).trans <|
  (StableHlo.after_of_writes_sub hostOps0 _ hostOps0_writes (by decide : main_arg3 ∉ hostOps0_W)).trans rfl

/-- The run, read at the result and the arguments. -/
theorem run_result : θ_run defs (onTc (τ := τ) (main (F := F))) ⟨m, fun _ => 0, ρ⟩ (fun r => ∀ c : Dev nD,
      r.2.mem ((c.tc : Thread nD τ).loc main_v7) = B5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v7 (by decide)),
     (h c _ (mem_uc main_arg0 (by decide))).trans (B5_arg0 m ρ c),
     (h c _ (mem_uc main_arg1 (by decide))).trans (B5_arg1 m ρ c),
     (h c _ (mem_uc main_arg2 (by decide))).trans (B5_arg2 m ρ c),
     (h c _ (mem_uc main_arg3 (by decide))).trans (B5_arg3 m ρ c)⟩) (run_all m ρ)

/-- The frame claim at any instance: the program runs to the end, nothing faulting, and every argument array ends
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.KernelIdeal.Whole

end
-- ==== Proof.Region1Pieces.lean ====
/-
  What each kind of grid point of the second kernel leaves, as the kernel's arithmetic.

  A run of the body finds, for each buffer it writes, the list of its stores; every one of them is a store of the whole
  buffer, so the buffer ends at the payload of the last. Its loads read whole buffers too: an input block as it
  stands, a carried value as the point before left it, or — at the first point, after the reset — the reset's own
  payload. Read this way, each content is one of the kernel's payload terms over the blocks and the carried values.
-/
import proofs.«131352_j66331474920046_2_alg».proof.Proof.Region1
import Idealize.ShloMosaic.Lib.Pipeline.Value

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The literal offsets of a store or load of a whole buffer are the zero function. -/
theorem offsets_zero : (![0, 0] : Fin 2 → Nat) = fun _ => 0 := funext fun a => by fin_cases a <;> rfl

/-- After the first point the running maximum is the tile's row maxima taken against the reset value `-∞`. -/
theorem maxFirst_eq (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i) (x0 : Vec F S32x256 .f32) (x1 : Vec F S32x1 .f32) (x2 : Vec F S2048x256 .f32) (x3 : Vec F S2048x1 .i32) :
    maxFirst c i arg2 harg2 arg3 harg3 arg4 harg4 arg5 harg5 arg6 harg6 arg7 harg7 arg8 harg8 arg9 harg9 hc0 hc1 x0 x1 x2 x3 = k1_pay3 (k1_pay9 i x2 x0 x1 k1_pay5) := by
  unfold maxFirst
  rw [View.read_writes_eq_canon _ _ _ (cover_maxFirst c i arg2 harg2 arg3 harg3 arg4 harg4 arg5 harg5 arg6 harg6 arg7 harg7 arg8 harg8 arg9 harg9 hc0 hc1 x0 x1 x2 x3)]
  unfold runFirst
  dsimp only
  sl_unfold_words
  rw [View.canon_cons_unit_zero (S := S32x1) offsets_zero]
  simp only [View.readCov_unit_zero (S := S32x1) _ offsets_zero, View.readCov_unit_zero (S := S32x1024) _ offsets_zero,
    View.readAt_eq_ld, harg2.read_unread, harg3.read_unread, harg4.read_unread, harg5.read_unread,
    harg7.read_unread, harg8.read_unread, harg9.read_unread,
    View.ld_unit_zero (S := S32x1) offsets_zero, View.ld_unit_zero (S := S32x256) offsets_zero,
    View.ld_unit_zero (S := S2048x256) offsets_zero, View.ld_unit_zero (S := S2048x1) offsets_zero,
    View.ld_unit_zero (S := S32x1024) offsets_zero]

/-- After the first point the running denominator is the update of the reset value zero. -/
theorem denFirst_eq (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i) (x0 : Vec F S32x256 .f32) (x1 : Vec F S32x1 .f32) (x2 : Vec F S2048x256 .f32) (x3 : Vec F S2048x1 .i32) :
    denFirst c i arg2 harg2 arg3 harg3 arg4 harg4 arg5 harg5 arg6 harg6 arg7 harg7 arg8 harg8 arg9 harg9 hc0 hc1 x0 x1 x2 x3 = k1_pay1 (k1_pay10 i x2 x0 x1 k1_pay5) (k1_pay11 i x2 x0 x1 k1_pay5) k1_pay6 := by
  unfold denFirst
  rw [View.read_writes_eq_canon _ _ _ (cover_denFirst c i arg2 harg2 arg3 harg3 arg4 harg4 arg5 harg5 arg6 harg6 arg7 harg7 arg8 harg8 arg9 harg9 hc0 hc1 x0 x1 x2 x3)]
  unfold runFirst
  dsimp only
  sl_unfold_words
  rw [View.canon_cons_unit_zero (S := S32x1) offsets_zero]
  simp only [View.readCov_unit_zero (S := S32x1) _ offsets_zero, View.readCov_unit_zero (S := S32x1024) _ offsets_zero,
    View.readAt_eq_ld, harg2.read_unread, harg3.read_unread, harg4.read_unread, harg5.read_unread,
    harg7.read_unread, harg8.read_unread, harg9.read_unread,
    View.ld_unit_zero (S := S32x1) offsets_zero, View.ld_unit_zero (S := S32x256) offsets_zero,
    View.ld_unit_zero (S := S2048x256) offsets_zero, View.ld_unit_zero (S := S2048x1) offsets_zero,
    View.ld_unit_zero (S := S32x1024) offsets_zero]

/-- After the first point the running numerator is the update of the reset value zero. -/
theorem numFirst_eq (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : condFirst i) (hc1 : ¬condLast i) (x0 : Vec F S32x256 .f32) (x1 : Vec F S32x1 .f32) (x2 : Vec F S2048x256 .f32) (x3 : Vec F S2048x1 .i32) :
    numFirst c i arg2 harg2 arg3 harg3 arg4 harg4 arg5 harg5 arg6 harg6 arg7 harg7 arg8 harg8 arg9 harg9 hc0 hc1 x0 x1 x2 x3 = k1_pay2 (k1_pay10 i x2 x0 x1 k1_pay5) (k1_pay11 i x2 x0 x1 k1_pay5) x3 k1_pay7 := by
  unfold numFirst
  rw [View.read_writes_eq_canon _ _ _ (cover_numFirst c i arg2 harg2 arg3 harg3 arg4 harg4 arg5 harg5 arg6 harg6 arg7 harg7 arg8 harg8 arg9 harg9 hc0 hc1 x0 x1 x2 x3)]
  unfold runFirst
  dsimp only
  sl_unfold_words
  rw [View.canon_cons_unit_zero (S := S32x1024) offsets_zero]
  simp only [View.readCov_unit_zero (S := S32x1) _ offsets_zero, View.readCov_unit_zero (S := S32x1024) _ offsets_zero,
    View.readAt_eq_ld, harg2.read_unread, harg3.read_unread, harg4.read_unread, harg5.read_unread,
    harg7.read_unread, harg8.read_unread, harg9.read_unread,
    View.ld_unit_zero (S := S32x1) offsets_zero, View.ld_unit_zero (S := S32x256) offsets_zero,
    View.ld_unit_zero (S := S2048x256) offsets_zero, View.ld_unit_zero (S := S2048x1) offsets_zero,
    View.ld_unit_zero (S := S32x1024) offsets_zero]

/-- A middle point replaces the running maximum by its update with the tile, over the carried maximum. -/
theorem maxMid_eq (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) :
    maxMid c i arg2 harg2 arg3 harg3 arg4 harg4 arg5 harg5 arg6 harg6 arg7 harg7 arg8 harg8 arg9 harg9 hc0 hc1 x0 x1 x2 x3 xm xl xa = k1_pay3 (k1_pay9 i x2 x0 x1 xm) := by
  unfold maxMid
  rw [View.read_writes_eq_canon _ _ _ (cover_maxMid c i arg2 harg2 arg3 harg3 arg4 harg4 arg5 harg5 arg6 harg6 arg7 harg7 arg8 harg8 arg9 harg9 hc0 hc1 x0 x1 x2 x3 xm xl xa)]
  unfold runMid
  dsimp only
  rw [View.canon_unit_zero (S := S32x1) offsets_zero]
  simp only [View.readCov_unit_zero (S := S32x1) _ offsets_zero, View.readCov_unit_zero (S := S32x1024) _ offsets_zero,
    View.readAt_eq_ld, harg2.read_unread, harg3.read_unread, harg4.read_unread, harg5.read_unread,
    harg7.read_unread, harg8.read_unread, harg9.read_unread,
    View.ld_unit_zero (S := S32x1) offsets_zero, View.ld_unit_zero (S := S32x256) offsets_zero,
    View.ld_unit_zero (S := S2048x256) offsets_zero, View.ld_unit_zero (S := S2048x1) offsets_zero,
    View.ld_unit_zero (S := S32x1024) offsets_zero]

/-- A middle point replaces the running denominator by its update, over the carried maximum and denominator. -/
theorem denMid_eq (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) :
    denMid c i arg2 harg2 arg3 harg3 arg4 harg4 arg5 harg5 arg6 harg6 arg7 harg7 arg8 harg8 arg9 harg9 hc0 hc1 x0 x1 x2 x3 xm xl xa = k1_pay1 (k1_pay10 i x2 x0 x1 xm) (k1_pay11 i x2 x0 x1 xm) xl := by
  unfold denMid
  rw [View.read_writes_eq_canon _ _ _ (cover_denMid c i arg2 harg2 arg3 harg3 arg4 harg4 arg5 harg5 arg6 harg6 arg7 harg7 arg8 harg8 arg9 harg9 hc0 hc1 x0 x1 x2 x3 xm xl xa)]
  unfold runMid
  dsimp only
  rw [View.canon_unit_zero (S := S32x1) offsets_zero]
  simp only [View.readCov_unit_zero (S := S32x1) _ offsets_zero, View.readCov_unit_zero (S := S32x1024) _ offsets_zero,
    View.readAt_eq_ld, harg2.read_unread, harg3.read_unread, harg4.read_unread, harg5.read_unread,
    harg7.read_unread, harg8.read_unread, harg9.read_unread,
    View.ld_unit_zero (S := S32x1) offsets_zero, View.ld_unit_zero (S := S32x256) offsets_zero,
    View.ld_unit_zero (S := S2048x256) offsets_zero, View.ld_unit_zero (S := S2048x1) offsets_zero,
    View.ld_unit_zero (S := S32x1024) offsets_zero]

/-- A middle point replaces the running numerator by its update, over the carried maximum and numerator. -/
theorem numMid_eq (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : ¬condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) :
    numMid c i arg2 harg2 arg3 harg3 arg4 harg4 arg5 harg5 arg6 harg6 arg7 harg7 arg8 harg8 arg9 harg9 hc0 hc1 x0 x1 x2 x3 xm xl xa = k1_pay2 (k1_pay10 i x2 x0 x1 xm) (k1_pay11 i x2 x0 x1 xm) x3 xa := by
  unfold numMid
  rw [View.read_writes_eq_canon _ _ _ (cover_numMid c i arg2 harg2 arg3 harg3 arg4 harg4 arg5 harg5 arg6 harg6 arg7 harg7 arg8 harg8 arg9 harg9 hc0 hc1 x0 x1 x2 x3 xm xl xa)]
  unfold runMid
  dsimp only
  rw [View.canon_unit_zero (S := S32x1024) offsets_zero]
  simp only [View.readCov_unit_zero (S := S32x1) _ offsets_zero, View.readCov_unit_zero (S := S32x1024) _ offsets_zero,
    View.readAt_eq_ld, harg2.read_unread, harg3.read_unread, harg4.read_unread, harg5.read_unread,
    harg7.read_unread, harg8.read_unread, harg9.read_unread,
    View.ld_unit_zero (S := S32x1) offsets_zero, View.ld_unit_zero (S := S32x256) offsets_zero,
    View.ld_unit_zero (S := S2048x256) offsets_zero, View.ld_unit_zero (S := S2048x1) offsets_zero,
    View.ld_unit_zero (S := S32x1024) offsets_zero]

/-- The last point updates the running maximum as a middle point does. -/
theorem maxLast_eq (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) :
    maxLast c i arg2 harg2 arg3 harg3 arg4 harg4 arg5 harg5 arg6 harg6 arg7 harg7 arg8 harg8 arg9 harg9 hc0 hc1 x0 x1 x2 x3 xm xl xa = k1_pay3 (k1_pay9 i x2 x0 x1 xm) := by
  unfold maxLast
  rw [View.read_writes_eq_canon _ _ _ (cover_maxLast c i arg2 harg2 arg3 harg3 arg4 harg4 arg5 harg5 arg6 harg6 arg7 harg7 arg8 harg8 arg9 harg9 hc0 hc1 x0 x1 x2 x3 xm xl xa)]
  unfold runLast
  dsimp only
  rw [View.canon_unit_zero (S := S32x1) offsets_zero]
  simp only [View.readCov_unit_zero (S := S32x1) _ offsets_zero, View.readCov_unit_zero (S := S32x1024) _ offsets_zero,
    View.readAt_eq_ld, harg2.read_unread, harg3.read_unread, harg4.read_unread, harg5.read_unread,
    harg7.read_unread, harg8.read_unread, harg9.read_unread,
    View.ld_unit_zero (S := S32x1) offsets_zero, View.ld_unit_zero (S := S32x256) offsets_zero,
    View.ld_unit_zero (S := S2048x256) offsets_zero, View.ld_unit_zero (S := S2048x1) offsets_zero,
    View.ld_unit_zero (S := S32x1024) offsets_zero]

/-- The last point updates the running denominator as a middle point does. -/
theorem denLast_eq (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) :
    denLast c i arg2 harg2 arg3 harg3 arg4 harg4 arg5 harg5 arg6 harg6 arg7 harg7 arg8 harg8 arg9 harg9 hc0 hc1 x0 x1 x2 x3 xm xl xa = k1_pay1 (k1_pay10 i x2 x0 x1 xm) (k1_pay11 i x2 x0 x1 xm) xl := by
  unfold denLast
  rw [View.read_writes_eq_canon _ _ _ (cover_denLast c i arg2 harg2 arg3 harg3 arg4 harg4 arg5 harg5 arg6 harg6 arg7 harg7 arg8 harg8 arg9 harg9 hc0 hc1 x0 x1 x2 x3 xm xl xa)]
  unfold runLast
  dsimp only
  sl_unfold_words
  rw [View.canon_unit_zero (S := S32x1) offsets_zero]
  simp only [View.readCov_unit_zero (S := S32x1) _ offsets_zero, View.readCov_unit_zero (S := S32x1024) _ offsets_zero,
    View.readAt_eq_ld, harg2.read_unread, harg3.read_unread, harg4.read_unread, harg5.read_unread,
    harg7.read_unread, harg8.read_unread, harg9.read_unread,
    View.ld_unit_zero (S := S32x1) offsets_zero, View.ld_unit_zero (S := S32x256) offsets_zero,
    View.ld_unit_zero (S := S2048x256) offsets_zero, View.ld_unit_zero (S := S2048x1) offsets_zero,
    View.ld_unit_zero (S := S32x1024) offsets_zero]

/-- The last point updates the running numerator as a middle point does. -/
theorem numLast_eq (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) :
    numLast c i arg2 harg2 arg3 harg3 arg4 harg4 arg5 harg5 arg6 harg6 arg7 harg7 arg8 harg8 arg9 harg9 hc0 hc1 x0 x1 x2 x3 xm xl xa = k1_pay2 (k1_pay10 i x2 x0 x1 xm) (k1_pay11 i x2 x0 x1 xm) x3 xa := by
  unfold numLast
  rw [View.read_writes_eq_canon _ _ _ (cover_numLast c i arg2 harg2 arg3 harg3 arg4 harg4 arg5 harg5 arg6 harg6 arg7 harg7 arg8 harg8 arg9 harg9 hc0 hc1 x0 x1 x2 x3 xm xl xa)]
  unfold runLast
  dsimp only
  sl_unfold_words
  rw [View.canon_unit_zero (S := S32x1024) offsets_zero]
  simp only [View.readCov_unit_zero (S := S32x1) _ offsets_zero, View.readCov_unit_zero (S := S32x1024) _ offsets_zero,
    View.readAt_eq_ld, harg2.read_unread, harg3.read_unread, harg4.read_unread, harg5.read_unread,
    harg7.read_unread, harg8.read_unread, harg9.read_unread,
    View.ld_unit_zero (S := S32x1) offsets_zero, View.ld_unit_zero (S := S32x256) offsets_zero,
    View.ld_unit_zero (S := S2048x256) offsets_zero, View.ld_unit_zero (S := S2048x1) offsets_zero,
    View.ld_unit_zero (S := S32x1024) offsets_zero]

/-- The last point's output: the logarithm of the updated numerator over the updated denominator, shifted by the
    small constant, both read back from the buffers they were just stored to. -/
theorem outLast_eq (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole) (hc0 : ¬condFirst i) (hc1 : condLast i) (x0 : Vec F S32x256 .f32) (x1 : Vec F S32x1 .f32) (x2 : Vec F S2048x256 .f32) (x3 : Vec F S2048x1 .i32) (xm : Vec F S32x1 .f32) (xl : Vec F S32x1 .f32) (xa : Vec F S32x1024 .f32) :
    outLast c i arg2 harg2 arg3 harg3 arg4 harg4 arg5 harg5 arg6 harg6 arg7 harg7 arg8 harg8 arg9 harg9 hc0 hc1 x0 x1 x2 x3 xm xl xa = k1_pay4 (k1_pay2 (k1_pay10 i x2 x0 x1 xm) (k1_pay11 i x2 x0 x1 xm) x3 xa) (k1_pay1 (k1_pay10 i x2 x0 x1 xm) (k1_pay11 i x2 x0 x1 xm) xl) := by
  unfold outLast
  rw [View.read_writes_eq_canon _ _ _ (cover_outLast c i arg2 harg2 arg3 harg3 arg4 harg4 arg5 harg5 arg6 harg6 arg7 harg7 arg8 harg8 arg9 harg9 hc0 hc1 x0 x1 x2 x3 xm xl xa)]
  unfold runLast
  dsimp only
  sl_unfold_words
  rw [View.canon_unit_zero (S := S32x1024) offsets_zero]
  simp only [View.readCov_unit_zero (S := S32x1) _ offsets_zero, View.readCov_unit_zero (S := S32x1024) _ offsets_zero,
    View.readAt_eq_ld, harg2.read_unread, harg3.read_unread, harg4.read_unread, harg5.read_unread,
    harg7.read_unread, harg8.read_unread, harg9.read_unread,
    View.ld_unit_zero (S := S32x1) offsets_zero, View.ld_unit_zero (S := S32x256) offsets_zero,
    View.ld_unit_zero (S := S2048x256) offsets_zero, View.ld_unit_zero (S := S2048x1) offsets_zero,
    View.ld_unit_zero (S := S32x1024) offsets_zero]

end Cert.KernelIdeal.Region1

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«131352_j66331474920046_2_alg».proof.Proof.LibPlainDot
import proofs.«131352_j66331474920046_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.Payloads.lean ====
/-
  The second kernel's arithmetic read at an index, at the extended reals.

  Each tile step of the streamed softmax is a short chain of vector operations: the masked scores, the new running
  maximum, the two exponentials, the updates of the denominator and of the numerator, and the final logarithm.
  Here each such chain is read at one row `r`, one lane `j` of the tile, or one class column `c`, as the
  scalar expression it computes there. The lane mask never fires: with four tiles of 2048 lanes the global lane
  number is below 8192, so the select always takes the score.
-/
import proofs.«131352_j66331474920046_2_alg».proof.Proof.Gen.KernelIdeal.Skeleton
import proofs.«131352_j66331474920046_2_alg».proof.Proof.LibIx2
import proofs.«131352_j66331474920046_2_alg».proof.Proof.LibIdeal
import proofs.«131352_j66331474920046_2_alg».proof.Proof.LibZeroAccDots
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

noncomputable section

open scoped BigOperators

namespace Cert.KernelIdeal.Payloads

open Cert.KernelIdeal Cert.KernelIdeal.Gen
open Idealize.ShloMosaic Idealize.ShloMosaic.ValueIdx

/-- The running denominator's update at row `r`. -/
theorem pay1_apply (v35 : FVec Ideal S32x1 .f32) (v38 : FVec Ideal S32x2048 .f32) (v39 : Vec Ideal S32x1 .f32) (r : Fin 32) :
    k1_pay1 v35 v38 v39 (ix2 r (0 : Fin 1)) = v35 (ix2 r 0) * v39 (ix2 r 0) + ∑ j : Fin 2048, v38 (ix2 r j) := by
  unfold k1_pay1
  rw [shapeCast_self]
  refine (addf_apply _ _ _).trans ?_
  refine congrArg₂ (· + ·) (mulf_apply _ _ _) ?_
  refine (Cert.LibIx2.shapeCast_a_a1_apply _ _ r 0).trans ?_
  exact Cert.LibIx2.multiReduction_add_lanes_apply v38 _ _ _ _ r

/-- The stored maximum is the computed one: a cast to the same shape changes nothing. -/
theorem pay3_eq (v33 : FVec Ideal S32x1 .f32) : k1_pay3 v33 = v33 := by
  unfold k1_pay3
  exact shapeCast_self _ _

/-- The running maximum starts at `-∞`. -/
theorem pay5_apply (r : Fin 32) : k1_pay5 (F := Ideal) (ix2 r (0 : Fin 1)) = ⊥ := by
  unfold k1_pay5
  rw [shapeCast_self]
  exact Cert.LibIdeal.ofBits_neg_inf_f32

/-- The running denominator starts at zero. -/
theorem pay6_apply (r : Fin 32) : k1_pay6 (F := Ideal) (ix2 r (0 : Fin 1)) = 0 := by
  unfold k1_pay6
  rw [shapeCast_self]
  exact Ideal.ofBits_zero_f32

/-- The running numerator starts at zero. -/
theorem pay7_apply (r : Fin 32) (c : Fin 1024) : k1_pay7 (F := Ideal) (ix2 r c) = 0 := by
  unfold k1_pay7
  rw [shapeCast_self]
  exact Ideal.ofBits_zero_f32

/-- The output at `(r, c)`: the logarithm of the numerator over the row's denominator, plus a small constant. -/
theorem pay4_apply (v70 : Vec Ideal S32x1024 .f32) (v71 : Vec Ideal S32x1 .f32) (r : Fin 32) (c : Fin 1024) :
    k1_pay4 v70 v71 (ix2 r c) = Ideal.log (Ideal.div (v70 (ix2 r c)) (v71 (ix2 r 0)) + Ideal.ofBits .f32 0x2B8CBCCC#32) := by
  unfold k1_pay4
  show Ideal.log (Ideal.div (v70 (ix2 r c)) (broadcastTo S32x1024 v71 broadcasts_S32x1_S32x1024 (ix2 r c)) + Ideal.ofBits .f32 0x2B8CBCCC#32) = _
  rw [Cert.LibIx2.broadcastTo_a1_ab_apply]

/-- With at most four tiles of 2048 lanes, the global lane number `n * 2048 + l` is below 8192, also as signed 32-bit words. -/
theorem lane_lt (n l : Nat) (hn : n < 4) (hl : l < 2048) :
    IntOp.cmpi .slt (IntOp.addi (Scalar.muli (BitVec.ofNat 32 n) 2048#32) (BitVec.ofNat 32 l)) 8192#32 = 1#1 := by
  have h1 : Affine.IsInt (BitVec.ofNat 32 n) (n : Int) := Affine.ofNat n ⟨rfl, by omega⟩
  have h2 : Affine.IsInt (2048#32) 2048 := Affine.ofNat 2048 ⟨by omega, by omega⟩
  have h3 : Affine.IsInt (Scalar.muli (BitVec.ofNat 32 n) 2048#32) ((n : Int) * 2048) :=
    Affine.muli h1 h2 ⟨rfl, by omega, by omega⟩
  have h4 : Affine.IsInt (BitVec.ofNat 32 l) (l : Int) := Affine.ofNat l ⟨rfl, by omega⟩
  have h5 : Affine.IsInt (Scalar.addi (Scalar.muli (BitVec.ofNat 32 n) 2048#32) (BitVec.ofNat 32 l)) ((n : Int) * 2048 + l) :=
    Affine.addi h3 h4 ⟨rfl, by omega, by omega⟩
  have h6 : Affine.IsInt (8192#32) 8192 := Affine.ofNat 8192 ⟨by omega, by omega⟩
  exact Affine.slt_holds h5 h6 (by omega)

/-- The lane test of the mask holds at every lane of every one of the four tiles. -/
theorem mask_true (n : Nat) (hn : n < 4) (r : Fin 32) (j : Fin 2048) :
    cmpi .slt (addi (broadcast S32x2048 (Scalar.muli (BitVec.ofNat 32 n) 2048#32)) (iota .tc S32x2048 32 [1] iota_S32x2048_d1_w32))
      (broadcast S32x2048 8192#32) (ix2 r j) = 1#1 := by
  show IntOp.cmpi .slt (IntOp.addi (Scalar.muli (BitVec.ofNat 32 n) 2048#32) (iota .tc S32x2048 32 [1] iota_S32x2048_d1_w32 (ix2 r j))) 8192#32 = 1#1
  rw [iota_single_apply]
  exact lane_lt n j.val hn j.isLt

/-- The score at `(r, j)`: minus the squared distance `|q_r|² + |s_j|² - 2 q_r·s_j` between query row `r` and the
    tile's support row `j`, the squared norm of the query read from its column, that of the support row summed here,
    and the inner product taken along the 256 features. -/
theorem pay8_apply (i : grid1.Coords) (hn : (i 1).val < 4) (v3 : Vec Ideal S2048x256 .f32) (v8 : Vec Ideal S32x256 .f32)
    (v12 : Vec Ideal S32x1 .f32) (r : Fin 32) (j : Fin 2048) :
    k1_pay8 i v3 v8 v12 (ix2 r j)
      = 0 - ((v12 (ix2 r 0) + ∑ d : Fin 256, v3 (ix2 j d) * v3 (ix2 j d))
          - Ideal.ofBits .f32 0x40000000#32 * ∑ d : Fin 256, v8 (ix2 r d) * v3 (ix2 j d)) := by
  unfold k1_pay8
  refine (select_apply _ _ _ _).trans ?_
  rw [mask_true (i 1).val hn r j, select_one]
  simp only [shapeCast_self]
  refine (subf_apply _ _ _).trans (congrArg₂ (· - ·) Ideal.ofBits_zero_f32 ?_)
  refine (subf_apply _ _ _).trans (congrArg₂ (· - ·) ?_ ?_)
  · refine (addf_apply _ _ _).trans (congrArg₂ (· + ·) (Cert.LibIx2.broadcastTo_a1_ab_apply v12 _ r j) ?_)
    refine (broadcastTo_1b_ab_apply _ _ r j).trans ?_
    refine (shapeCast_a_1a_apply _ _ 0 j).trans ?_
    exact Cert.LibIx2.multiReduction_add_lanes_apply (mulf v3 v3) _ _ _ _ j
  · refine (mulf_apply _ _ _).trans (congrArg₂ (· * ·) rfl ?_)
    refine (Cert.ZeroAccDots.rows_columns dot_S32x256_S256x2048_S32x2048_1_0_0_1_n_n rfl rfl rfl rfl rfl rfl rfl rfl
      none v8 _ r j).trans ?_
    exact Finset.sum_congr rfl fun d _ => congrArg (v8 (ix2 r d) * ·) (transpose_ix2_apply v3 _ d j)

/-- The new running maximum at row `r`: the old one against the largest score of the tile's row. -/
theorem pay9_apply (i : grid1.Coords) (v3 : Vec Ideal S2048x256 .f32) (v8 : Vec Ideal S32x256 .f32)
    (v12 : Vec Ideal S32x1 .f32) (v30 : Vec Ideal S32x1 .f32) (r : Fin 32) :
    k1_pay9 i v3 v8 v12 v30 (ix2 r (0 : Fin 1))
      = max (v30 (ix2 r 0)) ((Finset.univ : Finset (Fin 2048)).fold max ⊥ fun j => k1_pay8 i v3 v8 v12 (ix2 r j)) := by
  unfold k1_pay9
  refine (maximumf_apply _ _ _).trans (congrArg (max (v30 (ix2 r 0))) ?_)
  refine (Cert.LibIx2.shapeCast_a_a1_apply _ _ r 0).trans ?_
  refine (Cert.LibIx2.multiReduction_maximumf_lanes_apply (k1_pay8 i v3 v8 v12) _ _ _ _ r).trans ?_
  rw [Cert.LibIdeal.ofBits_neg_inf_f32]

/-- The rescaling factor at row `r`: the exponential of the old maximum less the new one. -/
theorem pay10_apply (i : grid1.Coords) (v3 : Vec Ideal S2048x256 .f32) (v8 : Vec Ideal S32x256 .f32)
    (v12 : Vec Ideal S32x1 .f32) (v30 : Vec Ideal S32x1 .f32) (r : Fin 32) :
    k1_pay10 i v3 v8 v12 v30 (ix2 r (0 : Fin 1))
      = Ideal.exp (v30 (ix2 r 0) - k1_pay9 i v3 v8 v12 v30 (ix2 r 0)) := by
  unfold k1_pay10
  rfl

/-- The tile's weights at `(r, j)`: the exponential of the score less the new maximum of the row. -/
theorem pay11_apply (i : grid1.Coords) (v3 : Vec Ideal S2048x256 .f32) (v8 : Vec Ideal S32x256 .f32)
    (v12 : Vec Ideal S32x1 .f32) (v30 : Vec Ideal S32x1 .f32) (r : Fin 32) (j : Fin 2048) :
    k1_pay11 i v3 v8 v12 v30 (ix2 r j)
      = Ideal.exp (k1_pay8 i v3 v8 v12 (ix2 r j) - k1_pay9 i v3 v8 v12 v30 (ix2 r 0)) := by
  unfold k1_pay11
  show Ideal.exp (k1_pay8 i v3 v8 v12 (ix2 r j)
    - broadcastTo S32x2048 (k1_pay9 i v3 v8 v12 v30) broadcasts_S32x1_S32x2048 (ix2 r j)) = _
  rw [Cert.LibIx2.broadcastTo_a1_ab_apply]

/-- A 32-bit equality test, widened to a word and read as a float, is the indicator of the equality. -/
theorem sitofp_extui_cmpi_eq (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have e : IntOp.cmpi .eq a b = 1#1 := by unfold IntOp.cmpi; simp [h]
    have t : ((1#1 : BitVec 1).setWidth 32).toInt = 1 := by decide
    rw [e, if_pos h, t]; simp
  · have e : IntOp.cmpi .eq a b = 0#1 := by
      show BitVec.ofBool (a == b) = 0#1
      rw [beq_eq_false_iff_ne.mpr h]; rfl
    have t : ((0#1 : BitVec 1).setWidth 32).toInt = 0 := by decide
    rw [e, if_neg h, t]; simp

/-- The running numerator's update at `(r, c)`: the rescaled old entry plus the tile's weights of the lanes whose
    label is the class `c`. -/
theorem pay2_apply (v35 : FVec Ideal S32x1 .f32) (v38 : FVec Ideal S32x2048 .f32) (v47 : Vec Ideal S2048x1 .i32)
    (v57 : Vec Ideal S32x1024 .f32) (r : Fin 32) (c : Fin 1024) :
    k1_pay2 v35 v38 v47 v57 (ix2 r c)
      = v35 (ix2 r 0) * v57 (ix2 r c)
        + ∑ j : Fin 2048, v38 (ix2 r j) * (if (v47 (ix2 j 0) : BitVec 32) = BitVec.ofNat 32 c.val then 1 else 0) := by
  unfold k1_pay2
  simp only [shapeCast_self]
  refine (addf_apply _ _ _).trans (congrArg₂ (· + ·) ?_ ?_)
  · exact (mulf_apply _ _ _).trans (congrArg₂ (· * ·) (Cert.LibIx2.broadcastTo_a1_ab_apply v35 _ r c) rfl)
  · refine (Cert.ZeroAccDots.rows_columns dot_S32x2048_S2048x1024_S32x1024_1_0_0_1_n_n rfl rfl rfl rfl rfl rfl rfl rfl
      none _ _ r c).trans ?_
    refine Finset.sum_congr rfl fun j _ => congrArg₂ (· * ·) rfl ?_
    show FloatOps.sitofp (F := Ideal) .f32 ((IntOp.cmpi .eq
      (broadcastTo S2048x1024 v47 broadcasts_S2048x1_S2048x1024 (ix2 j c))
      (iota .tc S2048x1024 32 [1] iota_S2048x1024_d1_w32 (ix2 j c))).setWidth 32) = _
    rw [Cert.LibIx2.broadcastTo_a1_ab_apply, iota_single_apply]
    exact sitofp_extui_cmpi_eq _ _

end Cert.KernelIdeal.Payloads

end
-- ==== Proof.LibReal.lean ====
import Idealize.ShloMosaic.PureOps.Ideal

/-!
# Extended reals that are real numbers

The extended reals are not a ring: subtraction does not cancel and a factor does not move across a sum at the
infinities. For values that are real numbers everything is as on `ℝ`. This file has the predicate "is a real number", its
closure under the operations a small network uses, and the few identities that hold for such values only: `v - v = 0`,
the inverse square root as the power `-1/2`, and `z - (m + log s) = (z - m) - log s`. It also reads a maximum and a
sum over 128 entries of which only the first two are kept.
-/

noncomputable section

namespace Cert.LibReal

open Idealize.ShloMosaic
open scoped BigOperators

/-- The extended real `v` is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩

theorem coe_max (a b : ℝ) : ((max a b : ℝ) : EReal) = max (a : EReal) (b : EReal) :=
  EReal.coe_strictMono.monotone.map_max

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.max {a b : EReal} (ha : IsReal a) (hb : IsReal b) : IsReal (max a b) := by
  obtain ⟨x, rfl⟩ := ha; obtain ⟨y, rfl⟩ := hb; exact ⟨Max.max x y, (coe_max x y).symm⟩

theorem IsReal.sum {ι : Type*} (s : Finset ι) (f : ι → EReal) (h : ∀ k ∈ s, IsReal (f k)) : IsReal (∑ k ∈ s, f k) := by
  classical
  induction s using Finset.induction_on with
  | empty => rw [Finset.sum_empty]; exact isReal_zero
  | insert a s ha ih =>
    rw [Finset.sum_insert ha]
    exact (h a (Finset.mem_insert_self a s)).add (ih fun k hk => h k (Finset.mem_insert_of_mem hk))

/-- A real number minus itself is zero (false at the infinities). -/
theorem IsReal.sub_self {a : EReal} (ha : IsReal a) : a - a = 0 := by
  obtain ⟨x, rfl⟩ := ha
  rw [← EReal.coe_sub, _root_.sub_self, EReal.coe_zero]

/-- The exponential of a real number is a real number. -/
theorem IsReal.exp {a : EReal} (ha : IsReal a) : IsReal (Ideal.exp a) := by
  obtain ⟨x, rfl⟩ := ha; exact ⟨Real.exp x, rfl⟩

/-- On a positive real the inverse square root is the power `-1/2`. -/
theorem rsqrt_eq_pow {t : ℝ} (ht : 0 < t) :
    Ideal.rsqrt (t : EReal) = Ideal.pow (t : EReal) ((-1 / 2 : ℝ) : EReal) := by
  show (if t < 0 then ⊥ else if t = 0 then ⊤ else (((Real.sqrt t)⁻¹ : ℝ) : EReal)) = ((Real.rpow t (-1 / 2) : ℝ) : EReal)
  rw [if_neg (not_lt.mpr ht.le), if_neg ht.ne']
  congr 1
  show (Real.sqrt t)⁻¹ = t ^ (-1 / 2 : ℝ)
  rw [Real.sqrt_eq_rpow, show (-1 / 2 : ℝ) = -(1 / 2) by norm_num, Real.rpow_neg ht.le]

/-- The inverse square root of a real number clipped below at one, as the power `-1/2`, with the clip's operands in
    either order. -/
theorem rsqrt_max_one {d : EReal} (hd : IsReal d) :
    Ideal.rsqrt (max d 1) = Ideal.pow (max 1 d) ((-1 / 2 : ℝ) : EReal) := by
  obtain ⟨r, rfl⟩ := hd
  have h1 : max (r : EReal) 1 = ((Max.max r 1 : ℝ) : EReal) := by rw [coe_max, EReal.coe_one]
  rw [max_comm (1 : EReal), h1]
  exact rsqrt_eq_pow (lt_of_lt_of_le one_pos (le_max_right _ _))

/-- A real number clipped below at one, to a real power, is a real number. -/
theorem isReal_pow_max_one {d : EReal} (hd : IsReal d) (y : ℝ) : IsReal (Ideal.pow (max 1 d) (y : EReal)) := by
  obtain ⟨r, rfl⟩ := hd
  have h1 : max 1 (r : EReal) = ((Max.max 1 r : ℝ) : EReal) := by rw [coe_max, EReal.coe_one]
  rw [h1]
  exact ⟨Real.rpow (Max.max 1 r) y, rfl⟩

/-- For real numbers `z`, `m` and a positive real `s`: `z - (m + log s) = (z - m) - log s`. -/
theorem sub_add_log {z m s : EReal} (hz : IsReal z) (hm : IsReal m) (hs : IsReal s) (hpos : 0 < s) :
    z - (m + Ideal.log s) = (z - m) - Ideal.log s := by
  obtain ⟨a, rfl⟩ := hz; obtain ⟨b, rfl⟩ := hm; obtain ⟨c, rfl⟩ := hs
  have hc : 0 < c := EReal.coe_pos.mp hpos
  have hl : Ideal.log (c : EReal) = ((Real.log c : ℝ) : EReal) := by
    show (if c ≤ 0 then ⊥ else ((Real.log c : ℝ) : EReal)) = _
    rw [if_neg (not_le.mpr hc)]
  rw [hl, ← EReal.coe_add, ← EReal.coe_sub, ← EReal.coe_sub, ← EReal.coe_sub]
  congr 1; ring

/-- A sum of exponentials of real numbers over a nonempty index set is positive. -/
theorem sum_exp_pos {ι : Type*} (s : Finset ι) (hs : s.Nonempty) (f : ι → EReal) (h : ∀ k ∈ s, IsReal (f k)) :
    0 < ∑ k ∈ s, Ideal.exp (f k) := by
  classical
  have hr : ∀ k ∈ s, ∃ r : ℝ, f k = (r : EReal) := h
  choose! g hg using hr
  have e : ∑ k ∈ s, Ideal.exp (f k) = ((∑ k ∈ s, Real.exp (g k) : ℝ) : EReal) := by
    have : ∀ (t : Finset ι), ((∑ k ∈ t, Real.exp (g k) : ℝ) : EReal) = ∑ k ∈ t, ((Real.exp (g k) : ℝ) : EReal) := by
      intro t
      induction t using Finset.induction_on with
      | empty => simp
      | insert a t ha ih => rw [Finset.sum_insert ha, Finset.sum_insert ha, EReal.coe_add, ih]
    rw [this]
    exact Finset.sum_congr rfl fun k hk => by rw [hg k hk]; rfl
  rw [e]
  exact EReal.coe_pos.mpr (Finset.sum_pos (fun k _ => Real.exp_pos _) hs)

/-! ## 128 entries of which the first two are kept -/

/-- A maximum from `-∞` over 128 entries, all but the first two replaced by `-∞`: the larger of the first two. -/
theorem fold_max_first_two (g : Fin 128 → EReal) :
    (Finset.univ : Finset (Fin 128)).fold max ⊥ (fun c => if c.val < 2 then g c else ⊥)
      = max (g ⟨0, by norm_num⟩) (g ⟨1, by norm_num⟩) := by
  apply le_antisymm
  · refine (Finset.fold_max_le _).mpr ⟨bot_le, fun c _ => ?_⟩
    by_cases h : c.val < 2
    · rw [if_pos h]
      have h01 : c.val = 0 ∨ c.val = 1 := by omega
      rcases h01 with h0 | h1
      · have : c = ⟨0, by norm_num⟩ := Fin.ext h0
        rw [this]; exact le_max_left _ _
      · have : c = ⟨1, by norm_num⟩ := Fin.ext h1
        rw [this]; exact le_max_right _ _
    · rw [if_neg h]; exact bot_le
  · refine max_le ?_ ?_
    · refine (Finset.le_fold_max _).mpr (Or.inr ⟨⟨0, by norm_num⟩, Finset.mem_univ _, ?_⟩)
      rw [if_pos (by norm_num)]
    · refine (Finset.le_fold_max _).mpr (Or.inr ⟨⟨1, by norm_num⟩, Finset.mem_univ _, ?_⟩)
      rw [if_pos (by norm_num)]

/-- A sum over 128 entries, all but the first two replaced by zero: the sum of the first two. -/
theorem sum_first_two (g : Fin 128 → EReal) :
    ∑ c : Fin 128, (if c.val < 2 then g c else 0) = g ⟨0, by norm_num⟩ + g ⟨1, by norm_num⟩ := by
  rw [Finset.sum_eq_add_of_mem (⟨0, by norm_num⟩ : Fin 128) ⟨1, by norm_num⟩ (Finset.mem_univ _) (Finset.mem_univ _)
    (by intro h; exact absurd (congrArg Fin.val h) (by norm_num))
    (fun c _ hc => if_neg fun h => by
      have h01 : c.val = 0 ∨ c.val = 1 := by omega
      rcases h01 with h0 | h1
      · exact hc.1 (Fin.ext h0)
      · exact hc.2 (Fin.ext h1))]
  rw [if_pos (by norm_num), if_pos (by norm_num)]

end Cert.LibReal

end
-- ==== Proof.LibSoftmaxShift.lean ====
/-
  A softmax on the extended reals does not depend on its shift. For real logits l and ANY real number c, the quotient
  exp (l k - c) / ∑ j, exp (l j - c) — computed with the exact extended-real exponential and division — is the real
  number exp (l k) / ∑ j, exp (l j): a program that shifts by the row maximum, one that shifts several rows by a common
  maximum and one that does not shift at all compute the same softmax. With it: a maximum folded from minus infinity
  over a nonempty family of real numbers is a real number (so the usual shift is real), the single-precision words of
  1 and of minus infinity, and the product of two one-bit tests read as 0/1 numbers as their conjunction.
-/
import Idealize.ShloMosaic.PureOps.Ideal.Laws
import proofs.«131352_j66331474920046_2_alg».proof.Proof.LibReal
import proofs.«131352_j66331474920046_2_alg».proof.Proof.LibIdeal

noncomputable section

namespace Cert.LibSoftmax

open Idealize.ShloMosaic Cert.LibReal
open scoped BigOperators

/-- The single-precision pattern `0x3F800000` is `1`. -/
theorem ofBits_one : Ideal.ofBits .f32 0x3F800000#32 = (1 : EReal) := by
  simp [Ideal.ofBits, Ideal.ieee, -EReal.coe_mul]; norm_num

/-- The single-precision pattern `0xFF800000` is minus infinity. -/
theorem ofBits_negInf : Ideal.ofBits .f32 0xFF800000#32 = (⊥ : EReal) := by
  simp [Ideal.ofBits, Ideal.ieee]

/-! ## A quotient of exponentials does not depend on the shift -/

/-- For real logits the quotient exp (l k - c) / ∑ exp (l j - c), computed on the extended reals with any real
    shift c, is the real number exp (l k) / ∑ exp (l j). -/
theorem softmax_shift {ι : Type*} (s : Finset ι) (l : ι → ℝ) (c : ℝ) (k : ι) (hk : k ∈ s) :
    Ideal.div (Ideal.exp ((l k : EReal) - (c : EReal))) (∑ j ∈ s, Ideal.exp ((l j : EReal) - (c : EReal)))
      = ((Real.exp (l k) / ∑ j ∈ s, Real.exp (l j) : ℝ) : EReal) := by
  have hs : ∑ j ∈ s, Ideal.exp ((l j : EReal) - (c : EReal)) = ((∑ j ∈ s, Real.exp (l j - c) : ℝ) : EReal) := by
    rw [Cert.LibIdeal.coe_sum]
    refine Finset.sum_congr rfl fun j _ => ?_
    rw [← EReal.coe_sub]; rfl
  have hpos : 0 < ∑ j ∈ s, Real.exp (l j - c) := Finset.sum_pos (fun j _ => Real.exp_pos _) ⟨k, hk⟩
  have hpos' : 0 < ∑ j ∈ s, Real.exp (l j) := Finset.sum_pos (fun j _ => Real.exp_pos _) ⟨k, hk⟩
  rw [hs, ← EReal.coe_sub, Ideal.exp_coe, Ideal.div_coe hpos.ne', ← EReal.coe_mul]
  congr 1
  have e : ∑ j ∈ s, Real.exp (l j - c) = (∑ j ∈ s, Real.exp (l j)) * Real.exp (-c) := by
    rw [Finset.sum_mul]
    refine Finset.sum_congr rfl fun j _ => ?_
    rw [← Real.exp_add, sub_eq_add_neg]
  rw [e, sub_eq_add_neg, Real.exp_add]
  have h1 : Real.exp (-c) ≠ 0 := (Real.exp_pos _).ne'
  field_simp

/-- A maximum folded from minus infinity over a nonempty family of real numbers is a real number. -/
theorem isReal_fold_max {ι : Type*} (s : Finset ι) (hs : s.Nonempty) (l : ι → EReal) (h : ∀ j ∈ s, IsReal (l j)) :
    IsReal (s.fold max ⊥ l) := by
  classical
  induction hs using Finset.Nonempty.cons_induction with
  | singleton a =>
    rw [Finset.fold_singleton, max_bot_right]
    exact h a (Finset.mem_singleton_self a)
  | cons a s ha hs ih =>
    rw [Finset.fold_cons]
    exact (h a (Finset.mem_cons_self a s)).max (ih fun j hj => h j (Finset.mem_cons_of_mem hj))

/-- The product of two one-bit tests read as 0/1 numbers is their conjunction read as a number. -/
theorem bits_mul (b₁ b₂ : BitVec 1) :
    ((((b₁.setWidth 32).toInt : ℝ) : EReal)) * ((((b₂.setWidth 32).toInt : ℝ) : EReal))
      = (((IntOp.andi b₁ b₂).toNat : ℝ) : EReal) := by
  rcases BitVec.eq_zero_or_eq_one b₁ with rfl | rfl <;> rcases BitVec.eq_zero_or_eq_one b₂ with rfl | rfl <;>
    simp [IntOp.andi]

end Cert.LibSoftmax

end
-- ==== Proof.LibBlockSplit.lean ====
/-
  Splitting a finite sum over `Fin N` into `k` consecutive blocks of `m` terms each, `N = k * m`.

  `sum_blocks` proves: for `f : Fin N → M` in an additive commutative monoid and any family
  `row : Fin k → Fin m → Fin N` with `(row b r).val = m * b + r`,
  `∑ i, f i = ∑ b : Fin k, ∑ r : Fin m, f (row b r)`.
  `sum_blocks_two` and `sum_blocks_four` write the outer sum out for `k = 2` and `k = 4`.
  The sums over the blocks stay symbolic throughout: nothing is expanded into its terms.
-/
import Mathlib.Algebra.BigOperators.Fin
import Mathlib.Logic.Equiv.Fin.Basic

open scoped BigOperators

namespace Cert.Lib

/-- A sum over `Fin N`, `N = k * m`, is the sum over the `k` blocks of the sums over each block's `m` rows. -/
theorem sum_blocks {M : Type*} [AddCommMonoid M] (k m N : Nat) (hN : k * m = N) (f : Fin N → M)
    (row : Fin k → Fin m → Fin N) (hrow : ∀ b r, (row b r).val = m * b.val + r.val) :
    ∑ i, f i = ∑ b : Fin k, ∑ r : Fin m, f (row b r) := by
  subst hN
  rw [← Equiv.sum_comp (finProdFinEquiv (m := k) (n := m)) f, Fintype.sum_prod_type]
  refine Finset.sum_congr rfl fun b _ => Finset.sum_congr rfl fun r _ => congrArg f ?_
  apply Fin.ext
  rw [hrow]
  simp [finProdFinEquiv, Nat.add_comm]

/-- Two blocks. -/
theorem sum_blocks_two {M : Type*} [AddCommMonoid M] (m N : Nat) (hN : 2 * m = N) (f : Fin N → M)
    (row : Fin 2 → Fin m → Fin N) (hrow : ∀ b r, (row b r).val = m * b.val + r.val) :
    ∑ i, f i = (∑ r : Fin m, f (row 0 r)) + ∑ r : Fin m, f (row 1 r) := by
  rw [sum_blocks 2 m N hN f row hrow, Fin.sum_univ_two]

/-- Four blocks. -/
theorem sum_blocks_four {M : Type*} [AddCommMonoid M] (m N : Nat) (hN : 4 * m = N) (f : Fin N → M)
    (row : Fin 4 → Fin m → Fin N) (hrow : ∀ b r, (row b r).val = m * b.val + r.val) :
    ∑ i, f i = (∑ r : Fin m, f (row 0 r)) + (∑ r : Fin m, f (row 1 r))
      + (∑ r : Fin m, f (row 2 r)) + ∑ r : Fin m, f (row 3 r) := by
  rw [sum_blocks 4 m N hN f row hrow, Fin.sum_univ_four]

end Cert.Lib
-- ==== Proof.OnlineSoftmax.lean ====
import Idealize.ShloMosaic.PureOps.Ideal
import proofs.«131352_j66331474920046_2_alg».proof.Proof.LibReal
import proofs.«131352_j66331474920046_2_alg».proof.Proof.LibIdeal
import proofs.«131352_j66331474920046_2_alg».proof.Proof.LibSoftmaxShift
import proofs.«131352_j66331474920046_2_alg».proof.Proof.LibBlockSplit

/-!
# A softmax-weighted sum computed tile by tile equals the one computed at once

A row of `K * T` scores is read in `K` tiles of `T` scores. A running state keeps the largest score seen so far, the sum
of the exponentials of the scores seen so far relative to that maximum, and the same sum with each exponential
multiplied by a weight. When a new tile raises the maximum, both sums are rescaled by the exponential of the old maximum
minus the new one. After the last tile the weighted sum is divided by the plain sum.

The one-shot computation takes the maximum `M` of all scores, the exponentials `e i = exp (s i - M)`, their sum `L`, and
returns `∑ i, e i / L * o i`.

All operations are the exact ones on the extended reals. The two computations agree when every score and every weight
is a real number: the rescaling identity `exp (m - m') * exp (s - m) = exp (s - m')` and the distribution of a factor over a
finite sum hold for real numbers and fail at the infinities. The first tile starts from the maximum `-∞` and from sums
that are zero, and a product with zero is zero on the extended reals whatever the other factor is.
-/

noncomputable section

namespace Cert.Online

open Idealize.ShloMosaic Cert.LibReal
open scoped BigOperators

/-! ## The recurrence -/

/-- The running state of one row: the largest score so far `m`, the sum `l` of the exponentials of the scores so far
    relative to `m`, and the sum `a` of those exponentials times their weights. -/
@[ext] structure State where
  m : EReal
  l : EReal
  a : EReal

/-- The state before any tile: maximum `-∞`, both sums zero. -/
def init : State := ⟨⊥, 0, 0⟩

/-- One tile with scores `s` and weights `o`. The new maximum is the larger of the old one and the tile's maximum folded
    from `-∞`; both sums are multiplied by the exponential of the old maximum minus the new one and receive the tile's
    terms taken relative to the new maximum. -/
def step {T : Nat} (st : State) (s o : Fin T → EReal) : State :=
  ⟨max st.m ((Finset.univ : Finset (Fin T)).fold max ⊥ s),
   Ideal.exp (st.m - max st.m ((Finset.univ : Finset (Fin T)).fold max ⊥ s)) * st.l
     + ∑ j, Ideal.exp (s j - max st.m ((Finset.univ : Finset (Fin T)).fold max ⊥ s)),
   Ideal.exp (st.m - max st.m ((Finset.univ : Finset (Fin T)).fold max ⊥ s)) * st.a
     + ∑ j, Ideal.exp (s j - max st.m ((Finset.univ : Finset (Fin T)).fold max ⊥ s)) * o j⟩

/-- The maximum after a step. -/
theorem step_m {T : Nat} (st : State) (s o : Fin T → EReal) :
    (step st s o).m = max st.m ((Finset.univ : Finset (Fin T)).fold max ⊥ s) := rfl

/-- The sum of exponentials after a step. -/
theorem step_l {T : Nat} (st : State) (s o : Fin T → EReal) :
    (step st s o).l = Ideal.exp (st.m - (step st s o).m) * st.l + ∑ j, Ideal.exp (s j - (step st s o).m) := rfl

/-- The weighted sum after a step. -/
theorem step_a {T : Nat} (st : State) (s o : Fin T → EReal) :
    (step st s o).a = Ideal.exp (st.m - (step st s o).m) * st.a + ∑ j, Ideal.exp (s j - (step st s o).m) * o j := rfl

/-- The state after the `K` tiles `s 0, …, s (K - 1)`, in that order. The state after the first `n ≤ K` tiles is
    `run n` of the restriction of `s` and `o` to the first `n` tiles, so every statement below about `run K` is one
    about each intermediate state. -/
def run {T : Nat} : (K : Nat) → (Fin K → Fin T → EReal) → (Fin K → Fin T → EReal) → State
  | 0, _, _ => init
  | K + 1, s, o =>
    step (run K (fun k => s k.castSucc) (fun k => o k.castSucc)) (s (Fin.last K)) (o (Fin.last K))

/-- No tile. -/
theorem run_zero {T : Nat} (s o : Fin 0 → Fin T → EReal) : run 0 s o = init := rfl

/-- One more tile. -/
theorem run_succ {T : Nat} (K : Nat) (s o : Fin (K + 1) → Fin T → EReal) :
    run (K + 1) s o
      = step (run K (fun k => s k.castSucc) (fun k => o k.castSucc)) (s (Fin.last K)) (o (Fin.last K)) := rfl

/-- Four tiles, written out. -/
theorem run4 {T : Nat} (s o : Fin 4 → Fin T → EReal) :
    run 4 s o = step (step (step (step init (s 0) (o 0)) (s 1) (o 1)) (s 2) (o 2)) (s 3) (o 3) := rfl

/-! ## Exponentials and sums of real numbers inside the extended reals -/

/-- The exponential of a difference of two real numbers. -/
theorem exp_sub_coe (x y : ℝ) : Ideal.exp ((x : EReal) - (y : EReal)) = ((Real.exp (x - y) : ℝ) : EReal) := by
  rw [← EReal.coe_sub]; rfl

/-- A sum of exponentials of real numbers relative to a real number. -/
theorem sum_exp_sub_coe {ι : Type*} (t : Finset ι) (f : ι → ℝ) (y : ℝ) :
    ∑ i ∈ t, Ideal.exp ((f i : EReal) - (y : EReal)) = ((∑ i ∈ t, Real.exp (f i - y) : ℝ) : EReal) := by
  rw [Cert.LibIdeal.coe_sum]
  exact Finset.sum_congr rfl fun i _ => exp_sub_coe _ _

/-- The same with a real weight on every term. -/
theorem sum_exp_sub_mul_coe {ι : Type*} (t : Finset ι) (f g : ι → ℝ) (y : ℝ) :
    ∑ i ∈ t, Ideal.exp ((f i : EReal) - (y : EReal)) * (g i : EReal)
      = ((∑ i ∈ t, Real.exp (f i - y) * g i : ℝ) : EReal) := by
  rw [Cert.LibIdeal.coe_sum]
  exact Finset.sum_congr rfl fun i _ => by rw [exp_sub_coe, EReal.coe_mul]

/-- Moving a double sum of exponentials from the shift `μ` to the shift `ν`. -/
theorem rescale_sum {K T : Nat} (r : Fin K → Fin T → ℝ) (μ ν : ℝ) :
    Real.exp (μ - ν) * ∑ k, ∑ j, Real.exp (r k j - μ) = ∑ k, ∑ j, Real.exp (r k j - ν) := by
  rw [Finset.mul_sum]
  refine Finset.sum_congr rfl fun k _ => ?_
  rw [Finset.mul_sum]
  refine Finset.sum_congr rfl fun j _ => ?_
  rw [← Real.exp_add]
  congr 1; ring

/-- The same with a weight on every term. -/
theorem rescale_sum_mul {K T : Nat} (r w : Fin K → Fin T → ℝ) (μ ν : ℝ) :
    Real.exp (μ - ν) * ∑ k, ∑ j, Real.exp (r k j - μ) * w k j = ∑ k, ∑ j, Real.exp (r k j - ν) * w k j := by
  rw [Finset.mul_sum]
  refine Finset.sum_congr rfl fun k _ => ?_
  rw [Finset.mul_sum]
  refine Finset.sum_congr rfl fun j _ => ?_
  rw [← mul_assoc, ← Real.exp_add]
  congr 2; ring

/-! ## A maximum folded over one more index -/

/-- A maximum folded from `-∞` over `n + 1` indices is the larger of the maximum over the first `n` and the last entry. -/
theorem fold_max_castSucc {n : Nat} (f : Fin (n + 1) → EReal) :
    (Finset.univ : Finset (Fin (n + 1))).fold max ⊥ f
      = max ((Finset.univ : Finset (Fin n)).fold max ⊥ fun k => f k.castSucc) (f (Fin.last n)) := by
  apply le_antisymm
  · refine (Finset.fold_max_le _).mpr ⟨bot_le, fun k _ => ?_⟩
    refine Fin.lastCases ?_ (fun i => ?_) k
    · exact le_max_right _ _
    · exact le_max_of_le_left ((Finset.le_fold_max _).mpr (Or.inr ⟨i, Finset.mem_univ _, le_rfl⟩))
  · refine max_le ((Finset.fold_max_le _).mpr ⟨bot_le, fun i _ => ?_⟩) ?_
    · exact (Finset.le_fold_max _).mpr (Or.inr ⟨i.castSucc, Finset.mem_univ _, le_rfl⟩)
    · exact (Finset.le_fold_max _).mpr (Or.inr ⟨Fin.last n, Finset.mem_univ _, le_rfl⟩)

/-- A maximum folded from `-∞` over no index is `-∞`. -/
theorem fold_max_fin_zero (f : Fin 0 → EReal) : (Finset.univ : Finset (Fin 0)).fold max ⊥ f = ⊥ := by
  rw [Finset.univ_eq_empty, Finset.fold_empty]

/-! ## One step on real numbers -/

/-- The first step, from the initial state, on a tile of real scores and weights whose maximum is `c`. -/
theorem step_init_coe {T : Nat} (c : ℝ) (r w : Fin T → ℝ)
    (hc : (Finset.univ : Finset (Fin T)).fold max ⊥ (fun j => (r j : EReal)) = (c : EReal)) :
    step init (fun j => (r j : EReal)) (fun j => (w j : EReal))
      = ⟨(c : EReal), ((∑ j, Real.exp (r j - c) : ℝ) : EReal), ((∑ j, Real.exp (r j - c) * w j : ℝ) : EReal)⟩ := by
  have hm : max (⊥ : EReal) (c : EReal) = (c : EReal) := max_bot_left _
  ext
  · show max (⊥ : EReal) ((Finset.univ : Finset (Fin T)).fold max ⊥ (fun j => (r j : EReal))) = _
    rw [hc, hm]
  · show Ideal.exp (⊥ - max (⊥ : EReal) ((Finset.univ : Finset (Fin T)).fold max ⊥ (fun j => (r j : EReal)))) * 0
        + ∑ j, Ideal.exp ((r j : EReal) - max (⊥ : EReal) ((Finset.univ : Finset (Fin T)).fold max ⊥ (fun j => (r j : EReal)))) = _
    rw [hc, hm, mul_zero, zero_add, sum_exp_sub_coe]
  · show Ideal.exp (⊥ - max (⊥ : EReal) ((Finset.univ : Finset (Fin T)).fold max ⊥ (fun j => (r j : EReal)))) * 0
        + ∑ j, Ideal.exp ((r j : EReal) - max (⊥ : EReal) ((Finset.univ : Finset (Fin T)).fold max ⊥ (fun j => (r j : EReal)))) * (w j : EReal) = _
    rw [hc, hm, mul_zero, zero_add, sum_exp_sub_mul_coe]

/-- A step from a state of real numbers on a tile of real scores and weights whose maximum is `c`. -/
theorem step_coe {T : Nat} (μ L A c : ℝ) (r w : Fin T → ℝ)
    (hc : (Finset.univ : Finset (Fin T)).fold max ⊥ (fun j => (r j : EReal)) = (c : EReal)) :
    step ⟨(μ : EReal), (L : EReal), (A : EReal)⟩ (fun j => (r j : EReal)) (fun j => (w j : EReal))
      = ⟨((max μ c : ℝ) : EReal),
         ((Real.exp (μ - max μ c) * L + ∑ j, Real.exp (r j - max μ c) : ℝ) : EReal),
         ((Real.exp (μ - max μ c) * A + ∑ j, Real.exp (r j - max μ c) * w j : ℝ) : EReal)⟩ := by
  have hm : max (μ : EReal) (c : EReal) = ((max μ c : ℝ) : EReal) := (coe_max μ c).symm
  ext
  · show max (μ : EReal) ((Finset.univ : Finset (Fin T)).fold max ⊥ (fun j => (r j : EReal))) = _
    rw [hc, hm]
  · show Ideal.exp ((μ : EReal) - max (μ : EReal) ((Finset.univ : Finset (Fin T)).fold max ⊥ (fun j => (r j : EReal)))) * (L : EReal)
        + ∑ j, Ideal.exp ((r j : EReal) - max (μ : EReal) ((Finset.univ : Finset (Fin T)).fold max ⊥ (fun j => (r j : EReal)))) = _
    rw [hc, hm, exp_sub_coe, sum_exp_sub_coe, ← EReal.coe_mul, ← EReal.coe_add]
  · show Ideal.exp ((μ : EReal) - max (μ : EReal) ((Finset.univ : Finset (Fin T)).fold max ⊥ (fun j => (r j : EReal)))) * (A : EReal)
        + ∑ j, Ideal.exp ((r j : EReal) - max (μ : EReal) ((Finset.univ : Finset (Fin T)).fold max ⊥ (fun j => (r j : EReal)))) * (w j : EReal) = _
    rw [hc, hm, exp_sub_coe, sum_exp_sub_mul_coe, ← EReal.coe_mul, ← EReal.coe_add]

/-! ## The state after all tiles, on real numbers -/

/-- After `K ≥ 1` nonempty tiles of real scores and weights the state consists of real numbers: its maximum `μ` is the
    maximum of all scores (folded tile by tile), and its sums are the sums over all tiles of `exp (r - μ)` and of
    `exp (r - μ) * w`. By induction over the tiles. -/
theorem run_coe {T : Nat} (hT : 0 < T) (K : Nat) (hK : 1 ≤ K) :
    ∀ r w : Fin K → Fin T → ℝ, ∃ μ : ℝ,
      (Finset.univ : Finset (Fin K)).fold max ⊥
          (fun k => (Finset.univ : Finset (Fin T)).fold max ⊥ fun j => (r k j : EReal)) = (μ : EReal)
      ∧ run K (fun k j => (r k j : EReal)) (fun k j => (w k j : EReal))
          = ⟨(μ : EReal), ((∑ k, ∑ j, Real.exp (r k j - μ) : ℝ) : EReal),
             ((∑ k, ∑ j, Real.exp (r k j - μ) * w k j : ℝ) : EReal)⟩ := by
  have hne : (Finset.univ : Finset (Fin T)).Nonempty := ⟨⟨0, hT⟩, Finset.mem_univ _⟩
  induction K, hK using Nat.le_induction with
  | base =>
    intro r w
    obtain ⟨c, hc⟩ : IsReal ((Finset.univ : Finset (Fin T)).fold max ⊥ fun j => (r (Fin.last 0) j : EReal)) :=
      Cert.LibSoftmax.isReal_fold_max _ hne _ fun j _ => isReal_coe _
    refine ⟨c, ?_, ?_⟩
    · rw [fold_max_castSucc, fold_max_fin_zero, max_bot_left]; exact hc
    · show step init (fun j => (r (Fin.last 0) j : EReal)) (fun j => (w (Fin.last 0) j : EReal)) = _
      rw [step_init_coe c _ _ hc, Fin.sum_univ_one, Fin.sum_univ_one]
      rfl
  | succ K hK ih =>
    intro r w
    obtain ⟨μ, hμ, hrun⟩ := ih (fun k j => r k.castSucc j) (fun k j => w k.castSucc j)
    obtain ⟨c, hc⟩ : IsReal ((Finset.univ : Finset (Fin T)).fold max ⊥ fun j => (r (Fin.last K) j : EReal)) :=
      Cert.LibSoftmax.isReal_fold_max _ hne _ fun j _ => isReal_coe _
    refine ⟨max μ c, ?_, ?_⟩
    · rw [fold_max_castSucc, hc, coe_max]
      exact congrArg (fun z => max z (c : EReal)) hμ
    · show step (run K (fun k j => (r k.castSucc j : EReal)) (fun k j => (w k.castSucc j : EReal)))
          (fun j => (r (Fin.last K) j : EReal)) (fun j => (w (Fin.last K) j : EReal)) = _
      rw [hrun, step_coe μ _ _ c _ _ hc, rescale_sum (fun k j => r k.castSucc j) μ (max μ c),
        rescale_sum_mul (fun k j => r k.castSucc j) (fun k j => w k.castSucc j) μ (max μ c),
        Fin.sum_univ_castSucc (fun k => ∑ j, Real.exp (r k j - max μ c)),
        Fin.sum_univ_castSucc (fun k => ∑ j, Real.exp (r k j - max μ c) * w k j)]

/-- Scores and weights that are real numbers are the embeddings of real-valued families. -/
theorem exists_coe {K T : Nat} (s : Fin K → Fin T → EReal) (hs : ∀ k j, IsReal (s k j)) :
    ∃ r : Fin K → Fin T → ℝ, s = fun k j => (r k j : EReal) := by
  choose r hr using hs
  exact ⟨r, funext fun k => funext fun j => hr k j⟩

/-- **The state after the tiles.** For `K ≥ 1` tiles of `T ≥ 1` real scores and real weights: the three components of
    the state are real numbers, the sum of exponentials is positive, the maximum is the maximum of all scores folded tile
    by tile from `-∞`, and the two sums are the sums over all tiles of `exp (s - m)` and of `exp (s - m) * o` relative to
    that maximum. -/
theorem run_spec {K T : Nat} (hK : 0 < K) (hT : 0 < T) (s o : Fin K → Fin T → EReal)
    (hs : ∀ k j, IsReal (s k j)) (ho : ∀ k j, IsReal (o k j)) :
    IsReal (run K s o).m ∧ IsReal (run K s o).l ∧ IsReal (run K s o).a ∧ 0 < (run K s o).l
      ∧ (run K s o).m
          = (Finset.univ : Finset (Fin K)).fold max ⊥ (fun k => (Finset.univ : Finset (Fin T)).fold max ⊥ (s k))
      ∧ (run K s o).l = ∑ k, ∑ j, Ideal.exp (s k j - (run K s o).m)
      ∧ (run K s o).a = ∑ k, ∑ j, Ideal.exp (s k j - (run K s o).m) * o k j := by
  obtain ⟨r, rfl⟩ := exists_coe s hs
  obtain ⟨w, rfl⟩ := exists_coe o ho
  obtain ⟨μ, hμ, hrun⟩ := run_coe hT K hK r w
  rw [hrun]
  refine ⟨isReal_coe _, isReal_coe _, isReal_coe _, ?_, hμ.symm, ?_, ?_⟩
  · refine EReal.coe_pos.mpr (Finset.sum_pos (fun k _ => Finset.sum_pos (fun j _ => Real.exp_pos _) ?_) ?_)
    · exact ⟨⟨0, hT⟩, Finset.mem_univ _⟩
    · exact ⟨⟨0, hK⟩, Finset.mem_univ _⟩
  · show ((∑ k, ∑ j, Real.exp (r k j - μ) : ℝ) : EReal) = ∑ k, ∑ j, Ideal.exp ((r k j : EReal) - (μ : EReal))
    rw [Cert.LibIdeal.coe_sum]
    exact Finset.sum_congr rfl fun k _ => (sum_exp_sub_coe _ _ _).symm
  · show ((∑ k, ∑ j, Real.exp (r k j - μ) * w k j : ℝ) : EReal)
        = ∑ k, ∑ j, Ideal.exp ((r k j : EReal) - (μ : EReal)) * (w k j : EReal)
    rw [Cert.LibIdeal.coe_sum]
    exact Finset.sum_congr rfl fun k _ => (sum_exp_sub_mul_coe _ _ _ _).symm

/-! ## The tile-by-tile result equals the one-shot result -/

/-- **Tile by tile equals at once.** For `K ≥ 1` tiles of `T ≥ 1` real scores `s k j` and real weights `o k j`: the weighted
    sum of the final state divided by its sum of exponentials is `∑ k, ∑ j, exp (s k j - M) / L * o k j`, where `M` is
    the maximum of all scores folded from `-∞` and `L = ∑ k, ∑ j, exp (s k j - M)`. `M` and `L` enter through equations, so
    any expression equal to the fold (such as `max ⊥` of it) and any expression equal to the sum (such as `0 +` it)
    can be supplied. -/
theorem online_eq_oneshot {K T : Nat} (hK : 0 < K) (hT : 0 < T) (s o : Fin K → Fin T → EReal)
    (hs : ∀ k j, IsReal (s k j)) (ho : ∀ k j, IsReal (o k j)) (M L : EReal)
    (hM : M = (Finset.univ : Finset (Fin K)).fold max ⊥ (fun k => (Finset.univ : Finset (Fin T)).fold max ⊥ (s k)))
    (hL : L = ∑ k, ∑ j, Ideal.exp (s k j - M)) :
    Ideal.div (run K s o).a (run K s o).l = ∑ k, ∑ j, Ideal.div (Ideal.exp (s k j - M)) L * o k j := by
  obtain ⟨r, rfl⟩ := exists_coe s hs
  obtain ⟨w, rfl⟩ := exists_coe o ho
  obtain ⟨μ, hμ, hrun⟩ := run_coe hT K hK r w
  have hM' : M = (μ : EReal) := hM.trans hμ
  subst hM'
  have hL' : L = ((∑ k, ∑ j, Real.exp (r k j - μ) : ℝ) : EReal) := by
    rw [hL, Cert.LibIdeal.coe_sum]
    exact Finset.sum_congr rfl fun k _ => sum_exp_sub_coe _ _ _
  have hpos : 0 < ∑ k, ∑ j, Real.exp (r k j - μ) :=
    Finset.sum_pos (fun k _ => Finset.sum_pos (fun j _ => Real.exp_pos _) ⟨⟨0, hT⟩, Finset.mem_univ _⟩)
      ⟨⟨0, hK⟩, Finset.mem_univ _⟩
  have e : ∑ k, ∑ j, Ideal.div (Ideal.exp ((r k j : EReal) - (μ : EReal))) L * (w k j : EReal)
      = ((∑ k, ∑ j, Real.exp (r k j - μ) * (1 / ∑ k, ∑ j, Real.exp (r k j - μ)) * w k j : ℝ) : EReal) := by
    rw [Cert.LibIdeal.coe_sum]
    refine Finset.sum_congr rfl fun k _ => ?_
    rw [Cert.LibIdeal.coe_sum]
    refine Finset.sum_congr rfl fun j _ => ?_
    rw [hL', Ideal.div_coe hpos.ne', exp_sub_coe, ← EReal.coe_mul, ← EReal.coe_mul]
  rw [hrun]
  show Ideal.div ((∑ k, ∑ j, Real.exp (r k j - μ) * w k j : ℝ) : EReal) ((∑ k, ∑ j, Real.exp (r k j - μ) : ℝ) : EReal)
    = ∑ k, ∑ j, Ideal.div (Ideal.exp ((r k j : EReal) - (μ : EReal))) L * (w k j : EReal)
  rw [e, Ideal.div_coe hpos.ne', ← EReal.coe_mul]
  congr 1
  rw [Finset.sum_mul]
  refine Finset.sum_congr rfl fun k _ => ?_
  rw [Finset.sum_mul]
  refine Finset.sum_congr rfl fun j _ => ?_
  ring

/-- The same with the maximum written as `max ⊥` of the fold and the sum of exponentials started from zero. -/
theorem online_eq_oneshot_bot_zero {K T : Nat} (hK : 0 < K) (hT : 0 < T) (s o : Fin K → Fin T → EReal)
    (hs : ∀ k j, IsReal (s k j)) (ho : ∀ k j, IsReal (o k j)) :
    Ideal.div (run K s o).a (run K s o).l
      = ∑ k, ∑ j,
          Ideal.div
            (Ideal.exp (s k j
              - max ⊥ ((Finset.univ : Finset (Fin K)).fold max ⊥ fun k => (Finset.univ : Finset (Fin T)).fold max ⊥ (s k))))
            (0 + ∑ k', ∑ j', Ideal.exp (s k' j'
              - max ⊥ ((Finset.univ : Finset (Fin K)).fold max ⊥ fun k => (Finset.univ : Finset (Fin T)).fold max ⊥ (s k))))
          * o k j :=
  online_eq_oneshot hK hT s o hs ho _ _ (max_bot_left _) (zero_add _)

/-! ## One flat index instead of tile and position -/

/-- A maximum folded from `-∞` over `Fin N`, `N = K * T`, is the maximum over the `K` blocks of the maxima over each block's
    `T` entries, for any family `row` with `(row k j).val = T * k + j`. -/
theorem fold_max_blocks {K T N : Nat} (hN : K * T = N) (f : Fin N → EReal) (row : Fin K → Fin T → Fin N)
    (hrow : ∀ k j, (row k j).val = T * k.val + j.val) :
    (Finset.univ : Finset (Fin N)).fold max ⊥ f
      = (Finset.univ : Finset (Fin K)).fold max ⊥ fun k => (Finset.univ : Finset (Fin T)).fold max ⊥ fun j => f (row k j) := by
  subst hN
  apply le_antisymm
  · refine (Finset.fold_max_le _).mpr ⟨bot_le, fun i _ => ?_⟩
    have hTpos : 0 < T := Nat.pos_of_ne_zero (by rintro rfl; exact absurd i.isLt (by simp))
    have hi : i = row ⟨i.val / T, Nat.div_lt_of_lt_mul (lt_of_lt_of_eq i.isLt (Nat.mul_comm K T))⟩
        ⟨i.val % T, Nat.mod_lt _ hTpos⟩ :=
      Fin.ext (by rw [hrow]; exact (Nat.div_add_mod _ _).symm)
    refine (congrArg f hi).le.trans ?_
    exact (Finset.le_fold_max _).mpr (Or.inr ⟨_, Finset.mem_univ _,
      (Finset.le_fold_max _).mpr (Or.inr ⟨_, Finset.mem_univ _, le_rfl⟩)⟩)
  · refine (Finset.fold_max_le _).mpr ⟨bot_le, fun k _ => (Finset.fold_max_le _).mpr ⟨bot_le, fun j _ => ?_⟩⟩
    exact (Finset.le_fold_max _).mpr (Or.inr ⟨row k j, Finset.mem_univ _, le_rfl⟩)

/-- **Tile by tile equals at once, flat index.** Scores `sF` and weights `oF` on `Fin N`, `N = K * T`, all real, read in `K`
    tiles of `T` through any `row` with `(row k j).val = T * k + j`: the final state's weighted sum divided by its sum of
    exponentials is `∑ i, exp (sF i - M) / L * oF i` with `M` the maximum of `sF` folded from `-∞` over `Fin N` and
    `L = ∑ i, exp (sF i - M)`. -/
theorem online_eq_oneshot_flat {K T N : Nat} (hK : 0 < K) (hT : 0 < T) (hN : K * T = N)
    (sF oF : Fin N → EReal) (hs : ∀ i, IsReal (sF i)) (ho : ∀ i, IsReal (oF i))
    (row : Fin K → Fin T → Fin N) (hrow : ∀ k j, (row k j).val = T * k.val + j.val) (M L : EReal)
    (hM : M = (Finset.univ : Finset (Fin N)).fold max ⊥ sF) (hL : L = ∑ i, Ideal.exp (sF i - M)) :
    Ideal.div (run K (fun k j => sF (row k j)) (fun k j => oF (row k j))).a
        (run K (fun k j => sF (row k j)) (fun k j => oF (row k j))).l
      = ∑ i, Ideal.div (Ideal.exp (sF i - M)) L * oF i := by
  rw [Cert.Lib.sum_blocks K T N hN (fun i => Ideal.div (Ideal.exp (sF i - M)) L * oF i) row hrow]
  exact online_eq_oneshot hK hT _ _ (fun _ _ => hs _) (fun _ _ => ho _) M L
    (hM.trans (fold_max_blocks hN sF row hrow))
    (hL.trans (Cert.Lib.sum_blocks K T N hN (fun i => Ideal.exp (sF i - M)) row hrow))

/-- **Tile by tile equals at once, index `i ↦ (i / T, i % T)`.** The right side runs over one index `i : Fin (K * T)` whose
    score and weight are those of tile `i / T` at position `i % T` (`Fin.divNat` and `Fin.modNat`, with values
    `i.val / T` and `i.val % T`). -/
theorem online_eq_oneshot_divMod {K T : Nat} (hK : 0 < K) (hT : 0 < T) (s o : Fin K → Fin T → EReal)
    (hs : ∀ k j, IsReal (s k j)) (ho : ∀ k j, IsReal (o k j)) (M L : EReal)
    (hM : M = (Finset.univ : Finset (Fin (K * T))).fold max ⊥ fun i => s i.divNat i.modNat)
    (hL : L = ∑ i : Fin (K * T), Ideal.exp (s i.divNat i.modNat - M)) :
    Ideal.div (run K s o).a (run K s o).l
      = ∑ i : Fin (K * T), Ideal.div (Ideal.exp (s i.divNat i.modNat - M)) L * o i.divNat i.modNat := by
  have hdiv : ∀ (k : Fin K) (j : Fin T), (finProdFinEquiv (k, j)).divNat = k := fun k j =>
    congrArg Prod.fst (finProdFinEquiv.symm_apply_apply (k, j))
  have hmod : ∀ (k : Fin K) (j : Fin T), (finProdFinEquiv (k, j)).modNat = j := fun k j =>
    congrArg Prod.snd (finProdFinEquiv.symm_apply_apply (k, j))
  have hflat := online_eq_oneshot_flat hK hT rfl (fun i : Fin (K * T) => s i.divNat i.modNat)
    (fun i : Fin (K * T) => o i.divNat i.modNat) (fun _ => hs _ _) (fun _ => ho _ _)
    (fun k j => finProdFinEquiv (k, j)) (fun k j => by simp [finProdFinEquiv, Nat.add_comm]) M L hM hL
  have es : (fun (k : Fin K) (j : Fin T) => s (finProdFinEquiv (k, j)).divNat (finProdFinEquiv (k, j)).modNat) = s :=
    funext fun k => funext fun j => by rw [hdiv, hmod]
  have eo : (fun (k : Fin K) (j : Fin T) => o (finProdFinEquiv (k, j)).divNat (finProdFinEquiv (k, j)).modNat) = o :=
    funext fun k => funext fun j => by rw [hdiv, hmod]
  rw [es, eo] at hflat
  exact hflat

end Cert.Online

end
-- ==== Proof.KernelOnline.lean ====
import proofs.«131352_j66331474920046_2_alg».proof.Proof.Region1Pieces
import proofs.«131352_j66331474920046_2_alg».proof.Proof.Payloads
import proofs.«131352_j66331474920046_2_alg».proof.Proof.OnlineSoftmax

/-!
# The carried state of the second kernel is the tile-by-tile softmax recurrence

At every grid point the second kernel replaces a running maximum, a running denominator and a running numerator by
their updates with the point's tile of 2048 scores. Read at one row and one class column these three updates are one
step of the tile-by-tile softmax recurrence, on the row's scores of the tile and the one-hot entries of the class among
the tile's labels. The first point starts from the reset values, which are the recurrence's initial state. So the
carried state after each point, read at the row and the column, is the recurrence's state after as many steps, and the
output of the last point is the logarithm of the final weighted sum over the final sum of exponentials, plus the small
constant.
-/

set_option maxRecDepth 16384

noncomputable section

open scoped BigOperators

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Payloads

/-! ## One update, over any blocks and any carried values -/

section Update
variable (i : grid1.Coords) (x0 : Vec Ideal S32x256 .f32) (x1 : Vec Ideal S32x1 .f32) (x2 : Vec Ideal S2048x256 .f32)
  (x3 : Vec Ideal S2048x1 .i32) (xm xl : Vec Ideal S32x1 .f32) (xa : Vec Ideal S32x1024 .f32) (r : Fin 32) (cc : Fin 1024)

/-- Row `r`'s scores of a tile. -/
def rowScore : Fin 2048 → EReal := fun j => k1_pay8 (F := Ideal) i x2 x0 x1 (ix2 r j)

/-- The one-hot entries of class `cc` among a tile's labels. -/
def rowHot : Fin 2048 → EReal := fun j => if (x3 (ix2 j 0) : BitVec 32) = BitVec.ofNat 32 cc.val then 1 else 0

/-- The three updates read at row `r` and column `cc` are one step of the recurrence from any state that the carried
    values read as. -/
theorem update_reads (st : Cert.Online.State) (hm : xm (ix2 r (0 : Fin 1)) = st.m) (hl : xl (ix2 r (0 : Fin 1)) = st.l)
    (ha : xa (ix2 r cc) = st.a) :
    k1_pay3 (F := Ideal) (k1_pay9 i x2 x0 x1 xm) (ix2 r (0 : Fin 1))
        = (Cert.Online.step st (rowScore i x0 x1 x2 r) (rowHot x3 cc)).m
      ∧ k1_pay1 (F := Ideal) (k1_pay10 i x2 x0 x1 xm) (k1_pay11 i x2 x0 x1 xm) xl (ix2 r (0 : Fin 1))
        = (Cert.Online.step st (rowScore i x0 x1 x2 r) (rowHot x3 cc)).l
      ∧ k1_pay2 (F := Ideal) (k1_pay10 i x2 x0 x1 xm) (k1_pay11 i x2 x0 x1 xm) x3 xa (ix2 r cc)
        = (Cert.Online.step st (rowScore i x0 x1 x2 r) (rowHot x3 cc)).a := by
  have e9 : k1_pay9 (F := Ideal) i x2 x0 x1 xm (ix2 r (0 : Fin 1))
      = max st.m ((Finset.univ : Finset (Fin 2048)).fold max ⊥ (rowScore i x0 x1 x2 r)) :=
    (pay9_apply i x2 x0 x1 xm r).trans (by rw [hm]; rfl)
  have e10 : k1_pay10 (F := Ideal) i x2 x0 x1 xm (ix2 r (0 : Fin 1))
      = Ideal.exp (st.m - max st.m ((Finset.univ : Finset (Fin 2048)).fold max ⊥ (rowScore i x0 x1 x2 r))) :=
    (pay10_apply i x2 x0 x1 xm r).trans (by rw [e9, hm])
  have e11 : ∀ j : Fin 2048, k1_pay11 (F := Ideal) i x2 x0 x1 xm (ix2 r j)
      = Ideal.exp (rowScore i x0 x1 x2 r j - max st.m ((Finset.univ : Finset (Fin 2048)).fold max ⊥ (rowScore i x0 x1 x2 r))) :=
    fun j => (pay11_apply i x2 x0 x1 xm r j).trans (by rw [e9]; rfl)
  refine ⟨?_, ?_, ?_⟩
  · exact (congrFun (pay3_eq _) _).trans e9
  · refine (pay1_apply _ _ xl r).trans ?_
    rw [e10, hl]
    exact congrArg₂ (· + ·) rfl (Finset.sum_congr rfl fun j _ => e11 j)
  · refine (pay2_apply _ _ x3 xa r cc).trans ?_
    rw [e10, ha]
    exact congrArg₂ (· + ·) rfl (Finset.sum_congr rfl fun j _ => congrArg₂ (· * ·) (e11 j) rfl)

/-- The reset values read as the recurrence's initial state. -/
theorem reset_reads :
    k1_pay5 (F := Ideal) (ix2 r (0 : Fin 1)) = Cert.Online.init.m
      ∧ k1_pay6 (F := Ideal) (ix2 r (0 : Fin 1)) = Cert.Online.init.l
      ∧ k1_pay7 (F := Ideal) (ix2 r cc) = Cert.Online.init.a :=
  ⟨pay5_apply r, pay6_apply r, pay7_apply r cc⟩

/-- The output read at row `r` and column `cc`: the logarithm of the updated numerator over the updated denominator, plus
    the small constant. -/
theorem output_reads (st : Cert.Online.State) (hm : xm (ix2 r (0 : Fin 1)) = st.m) (hl : xl (ix2 r (0 : Fin 1)) = st.l)
    (ha : xa (ix2 r cc) = st.a) :
    k1_pay4 (F := Ideal) (k1_pay2 (k1_pay10 i x2 x0 x1 xm) (k1_pay11 i x2 x0 x1 xm) x3 xa)
        (k1_pay1 (k1_pay10 i x2 x0 x1 xm) (k1_pay11 i x2 x0 x1 xm) xl) (ix2 r cc)
      = Ideal.log (Ideal.div (Cert.Online.step st (rowScore i x0 x1 x2 r) (rowHot x3 cc)).a
          (Cert.Online.step st (rowScore i x0 x1 x2 r) (rowHot x3 cc)).l + Ideal.ofBits .f32 0x2B8CBCCC#32) := by
  obtain ⟨_, e1, e2⟩ := update_reads i x0 x1 x2 x3 xm xl xa r cc st hm hl ha
  refine (pay4_apply _ _ r cc).trans ?_
  rw [e1, e2]

end Update

/-! ## What each kind of point leaves, read at a row and a column -/

section Kinds
variable (c : Dev nD) (i : grid1.Coords) (arg2 : Memref sig .tc .vmem S32x256 .f32) (harg2 : arg2.IsWhole) (arg3 : Memref sig .tc .vmem S32x1 .f32) (harg3 : arg3.IsWhole) (arg4 : Memref sig .tc .vmem S2048x256 .f32) (harg4 : arg4.IsWhole) (arg5 : Memref sig .tc .vmem S2048x1 .i32) (harg5 : arg5.IsWhole) (arg6 : Memref sig .tc .vmem S32x1024 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1024 .f32) (harg9 : arg9.IsWhole)

/-- The first point leaves one step of the recurrence from its initial state. -/
theorem first_reads (hc0 : condFirst i) (hc1 : ¬condLast i) (x0 : Vec Ideal S32x256 .f32) (x1 : Vec Ideal S32x1 .f32) (x2 : Vec Ideal S2048x256 .f32) (x3 : Vec Ideal S2048x1 .i32) (r : Fin 32) (cc : Fin 1024) :
    maxFirst (F := Ideal) c i arg2 harg2 arg3 harg3 arg4 harg4 arg5 harg5 arg6 harg6 arg7 harg7 arg8 harg8 arg9 harg9 hc0 hc1 x0 x1 x2 x3 (ix2 r (0 : Fin 1)) = (Cert.Online.step Cert.Online.init (rowScore i x0 x1 x2 r) (rowHot x3 cc)).m
      ∧ denFirst (F := Ideal) c i arg2 harg2 arg3 harg3 arg4 harg4 arg5 harg5 arg6 harg6 arg7 harg7 arg8 harg8 arg9 harg9 hc0 hc1 x0 x1 x2 x3 (ix2 r (0 : Fin 1)) = (Cert.Online.step Cert.Online.init (rowScore i x0 x1 x2 r) (rowHot x3 cc)).l
      ∧ numFirst (F := Ideal) c i arg2 harg2 arg3 harg3 arg4 harg4 arg5 harg5 arg6 harg6 arg7 harg7 arg8 harg8 arg9 harg9 hc0 hc1 x0 x1 x2 x3 (ix2 r cc) = (Cert.Online.step Cert.Online.init (rowScore i x0 x1 x2 r) (rowHot x3 cc)).a := by
  rw [maxFirst_eq, denFirst_eq, numFirst_eq]
  exact update_reads i x0 x1 x2 x3 (k1_pay5 (F := Ideal)) (k1_pay6 (F := Ideal)) (k1_pay7 (F := Ideal)) r cc Cert.Online.init
    (pay5_apply r) (pay6_apply r) (pay7_apply r cc)

/-- A middle point leaves one step of the recurrence from the state the carried values read as. -/
theorem mid_reads (hc0 : ¬condFirst i) (hc1 : ¬condLast i) (x0 : Vec Ideal S32x256 .f32) (x1 : Vec Ideal S32x1 .f32) (x2 : Vec Ideal S2048x256 .f32) (x3 : Vec Ideal S2048x1 .i32) (xm : Vec Ideal S32x1 .f32) (xl : Vec Ideal S32x1 .f32) (xa : Vec Ideal S32x1024 .f32) (r : Fin 32) (cc : Fin 1024) (st : Cert.Online.State) (hm : xm (ix2 r (0 : Fin 1)) = st.m) (hl : xl (ix2 r (0 : Fin 1)) = st.l) (ha : xa (ix2 r cc) = st.a) :
    maxMid (F := Ideal) c i arg2 harg2 arg3 harg3 arg4 harg4 arg5 harg5 arg6 harg6 arg7 harg7 arg8 harg8 arg9 harg9 hc0 hc1 x0 x1 x2 x3 xm xl xa (ix2 r (0 : Fin 1)) = (Cert.Online.step st (rowScore i x0 x1 x2 r) (rowHot x3 cc)).m
      ∧ denMid (F := Ideal) c i arg2 harg2 arg3 harg3 arg4 harg4 arg5 harg5 arg6 harg6 arg7 harg7 arg8 harg8 arg9 harg9 hc0 hc1 x0 x1 x2 x3 xm xl xa (ix2 r (0 : Fin 1)) = (Cert.Online.step st (rowScore i x0 x1 x2 r) (rowHot x3 cc)).l
      ∧ numMid (F := Ideal) c i arg2 harg2 arg3 harg3 arg4 harg4 arg5 harg5 arg6 harg6 arg7 harg7 arg8 harg8 arg9 harg9 hc0 hc1 x0 x1 x2 x3 xm xl xa (ix2 r cc) = (Cert.Online.step st (rowScore i x0 x1 x2 r) (rowHot x3 cc)).a := by
  rw [maxMid_eq, denMid_eq, numMid_eq]
  exact update_reads i x0 x1 x2 x3 xm xl xa r cc st hm hl ha

/-- The last point leaves one step of the recurrence too, and the output computed from that step's sums. -/
theorem last_reads (hc0 : ¬condFirst i) (hc1 : condLast i) (x0 : Vec Ideal S32x256 .f32) (x1 : Vec Ideal S32x1 .f32) (x2 : Vec Ideal S2048x256 .f32) (x3 : Vec Ideal S2048x1 .i32) (xm : Vec Ideal S32x1 .f32) (xl : Vec Ideal S32x1 .f32) (xa : Vec Ideal S32x1024 .f32) (r : Fin 32) (cc : Fin 1024) (st : Cert.Online.State) (hm : xm (ix2 r (0 : Fin 1)) = st.m) (hl : xl (ix2 r (0 : Fin 1)) = st.l) (ha : xa (ix2 r cc) = st.a) :
    outLast (F := Ideal) c i arg2 harg2 arg3 harg3 arg4 harg4 arg5 harg5 arg6 harg6 arg7 harg7 arg8 harg8 arg9 harg9 hc0 hc1 x0 x1 x2 x3 xm xl xa (ix2 r cc)
        = Ideal.log (Ideal.div (Cert.Online.step st (rowScore i x0 x1 x2 r) (rowHot x3 cc)).a (Cert.Online.step st (rowScore i x0 x1 x2 r) (rowHot x3 cc)).l + Ideal.ofBits .f32 0x2B8CBCCC#32)
      ∧ maxLast (F := Ideal) c i arg2 harg2 arg3 harg3 arg4 harg4 arg5 harg5 arg6 harg6 arg7 harg7 arg8 harg8 arg9 harg9 hc0 hc1 x0 x1 x2 x3 xm xl xa (ix2 r (0 : Fin 1)) = (Cert.Online.step st (rowScore i x0 x1 x2 r) (rowHot x3 cc)).m
      ∧ denLast (F := Ideal) c i arg2 harg2 arg3 harg3 arg4 harg4 arg5 harg5 arg6 harg6 arg7 harg7 arg8 harg8 arg9 harg9 hc0 hc1 x0 x1 x2 x3 xm xl xa (ix2 r (0 : Fin 1)) = (Cert.Online.step st (rowScore i x0 x1 x2 r) (rowHot x3 cc)).l
      ∧ numLast (F := Ideal) c i arg2 harg2 arg3 harg3 arg4 harg4 arg5 harg5 arg6 harg6 arg7 harg7 arg8 harg8 arg9 harg9 hc0 hc1 x0 x1 x2 x3 xm xl xa (ix2 r cc) = (Cert.Online.step st (rowScore i x0 x1 x2 r) (rowHot x3 cc)).a := by
  rw [outLast_eq, maxLast_eq, denLast_eq, numLast_eq]
  exact ⟨output_reads i x0 x1 x2 x3 xm xl xa r cc st hm hl ha, update_reads i x0 x1 x2 x3 xm xl xa r cc st hm hl ha⟩

end Kinds

/-! ## The state after each point -/

section Points
variable (V : (c : Dev nD) → (b : Ref sig .tc) → Buf (Elt Ideal) ((c : Thread nD τ).loc b)) (c : Dev nD) (r : Fin 32)
  (cc : Fin 1024)

/-- Row `r`'s scores of the tile of point `t`. -/
def tileScore (t : Fin cfg1.N) : Fin 2048 → EReal :=
  rowScore (grid1.coords t) (iblk V c 0 t) (iblk V c 1 t) (iblk V c 2 t) r

/-- The one-hot entries of class `cc` among the labels of the tile of point `t`. -/
def tileHot (t : Fin cfg1.N) : Fin 2048 → EReal := rowHot (iblk V c 3 t) cc

/-- A score of the tile, written out. -/
theorem tileScore_apply (t : Fin cfg1.N) (j : Fin 2048) :
    tileScore V c r t j = k1_pay8 (F := Ideal) (grid1.coords t) (iblk V c 2 t) (iblk V c 0 t) (iblk V c 1 t) (ix2 r j) := rfl

/-- A one-hot entry of the tile, written out. -/
theorem tileHot_apply (t : Fin cfg1.N) (j : Fin 2048) :
    tileHot V c cc t j
      = if ((iblk V c 3 t : Vec Ideal S2048x1 .i32) (ix2 j 0) : BitVec 32) = BitVec.ofNat 32 cc.val then 1 else 0 := rfl

/-- The recurrence run over the tiles of the points up to position `n`. -/
def onlineAt : (n : ℕ) → n < cfg1.N → Cert.Online.State
  | 0, hn => Cert.Online.step Cert.Online.init (tileScore V c r ⟨0, hn⟩) (tileHot V c cc ⟨0, hn⟩)
  | n + 1, hn =>
    Cert.Online.step (onlineAt n (Nat.lt_of_succ_lt hn)) (tileScore V c r ⟨n + 1, hn⟩) (tileHot V c cc ⟨n + 1, hn⟩)

/-- The recurrence at the first position. -/
theorem onlineAt_zero (hn : 0 < cfg1.N) :
    onlineAt V c r cc 0 hn = Cert.Online.step Cert.Online.init (tileScore V c r ⟨0, hn⟩) (tileHot V c cc ⟨0, hn⟩) := rfl

/-- The recurrence at a later position. -/
theorem onlineAt_succ (n : ℕ) (hn : n + 1 < cfg1.N) :
    onlineAt V c r cc (n + 1) hn
      = Cert.Online.step (onlineAt V c r cc n (Nat.lt_of_succ_lt hn)) (tileScore V c r ⟨n + 1, hn⟩)
          (tileHot V c cc ⟨n + 1, hn⟩) := rfl

/-- **The carried state is the recurrence's state.** After the point at position `n` the running maximum and the running
    denominator at row `r` and the running numerator at row `r`, column `cc` are the three components of the recurrence
    run over the tiles of the points up to `n`. -/
theorem state_is_online (n : ℕ) (hn : n < cfg1.N) :
    (stateAt V c n hn).2.1 (ix2 r (0 : Fin 1)) = (onlineAt V c r cc n hn).m
      ∧ (stateAt V c n hn).2.2.1 (ix2 r (0 : Fin 1)) = (onlineAt V c r cc n hn).l
      ∧ (stateAt V c n hn).2.2.2 (ix2 r cc) = (onlineAt V c r cc n hn).a := by
  induction n with
  | zero =>
    rw [show stateAt V c 0 hn = _ from stateAt_first V c ⟨0, hn⟩ rfl (show ¬(0 : ℕ) = 3 by decide), onlineAt_zero]
    have h := first_reads c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scMax (Memref.isWhole_whole _) scDen (Memref.isWhole_whole _) scNum (Memref.isWhole_whole _) ((condFirst_iff ⟨0, hn⟩).mpr rfl)
      (fun h => absurd ((condLast_iff ⟨0, hn⟩).mp h) (show ¬(0 : ℕ) = 3 by decide)) (iblk V c 0 ⟨0, hn⟩) (iblk V c 1 ⟨0, hn⟩) (iblk V c 2 ⟨0, hn⟩) (iblk V c 3 ⟨0, hn⟩) r cc
    dsimp only
    exact h
  | succ n ih =>
    have ih' := ih (Nat.lt_of_succ_lt hn)
    have hm : (prevState V c ⟨n + 1, hn⟩).2.1 (ix2 r (0 : Fin 1)) = (onlineAt V c r cc n (Nat.lt_of_succ_lt hn)).m := ih'.1
    have hl : (prevState V c ⟨n + 1, hn⟩).2.2.1 (ix2 r (0 : Fin 1)) = (onlineAt V c r cc n (Nat.lt_of_succ_lt hn)).l := ih'.2.1
    have ha : (prevState V c ⟨n + 1, hn⟩).2.2.2 (ix2 r cc) = (onlineAt V c r cc n (Nat.lt_of_succ_lt hn)).a := ih'.2.2
    rw [onlineAt_succ]
    by_cases h3 : n + 1 = 3
    · rw [show stateAt V c (n + 1) hn = _ from stateAt_last V c ⟨n + 1, hn⟩ (Nat.succ_ne_zero n) h3]
      have h := (last_reads c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n))
        ((condLast_iff ⟨n + 1, hn⟩).mpr h3) (iblk V c 0 ⟨n + 1, hn⟩) (iblk V c 1 ⟨n + 1, hn⟩) (iblk V c 2 ⟨n + 1, hn⟩) (iblk V c 3 ⟨n + 1, hn⟩) (prevState V c ⟨n + 1, hn⟩).2.1 (prevState V c ⟨n + 1, hn⟩).2.2.1 (prevState V c ⟨n + 1, hn⟩).2.2.2 r cc
        (onlineAt V c r cc n (Nat.lt_of_succ_lt hn)) hm hl ha).2
      dsimp only
      exact h
    · rw [show stateAt V c (n + 1) hn = _ from stateAt_mid V c ⟨n + 1, hn⟩ (Nat.succ_ne_zero n) h3]
      have h := mid_reads c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scMax (Memref.isWhole_whole _) scDen (Memref.isWhole_whole _) scNum (Memref.isWhole_whole _) (fun h => absurd ((condFirst_iff ⟨n + 1, hn⟩).mp h) (Nat.succ_ne_zero n))
        (fun h => h3 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (prevState V c ⟨n + 1, hn⟩).2.1 (prevState V c ⟨n + 1, hn⟩).2.2.1 (prevState V c ⟨n + 1, hn⟩).2.2.2 r cc
        (onlineAt V c r cc n (Nat.lt_of_succ_lt hn)) hm hl ha
      dsimp only
      exact h

/-- **The output is the logarithm of the recurrence's quotient.** After the last point the output at row `r`, column `cc` is
    the logarithm of the recurrence's final weighted sum over its final sum of exponentials, plus the small constant. -/
theorem out_is_online (h3 : 3 < cfg1.N) :
    (stateAt V c 3 h3).1 (ix2 r cc)
      = Ideal.log (Ideal.div (onlineAt V c r cc 3 h3).a (onlineAt V c r cc 3 h3).l + Ideal.ofBits .f32 0x2B8CBCCC#32) := by
  have ih := state_is_online V c r cc 2 (Nat.lt_of_succ_lt h3)
  have hm : (prevState V c ⟨3, h3⟩).2.1 (ix2 r (0 : Fin 1)) = (onlineAt V c r cc 2 (Nat.lt_of_succ_lt h3)).m := ih.1
  have hl : (prevState V c ⟨3, h3⟩).2.2.1 (ix2 r (0 : Fin 1)) = (onlineAt V c r cc 2 (Nat.lt_of_succ_lt h3)).l := ih.2.1
  have ha : (prevState V c ⟨3, h3⟩).2.2.2 (ix2 r cc) = (onlineAt V c r cc 2 (Nat.lt_of_succ_lt h3)).a := ih.2.2
  have h := (last_reads c (grid1.coords ⟨3, h3⟩) (ms_0 ⟨3, h3⟩) (hs_0 ⟨3, h3⟩) (ms_1 ⟨3, h3⟩) (hs_1 ⟨3, h3⟩) (ms_2 ⟨3, h3⟩) (hs_2 ⟨3, h3⟩) (ms_3 ⟨3, h3⟩) (hs_3 ⟨3, h3⟩) (ms_4 ⟨3, h3⟩) (hs_4 ⟨3, h3⟩) scMax (Memref.isWhole_whole _) scDen (Memref.isWhole_whole _) scNum (Memref.isWhole_whole _) (fun h => absurd ((condFirst_iff ⟨3, h3⟩).mp h) (show ¬(3 : ℕ) = 0 by decide))
    ((condLast_iff ⟨3, h3⟩).mpr rfl) (iblk V c 0 ⟨3, h3⟩) (iblk V c 1 ⟨3, h3⟩) (iblk V c 2 ⟨3, h3⟩) (iblk V c 3 ⟨3, h3⟩) (prevState V c ⟨3, h3⟩).2.1 (prevState V c ⟨3, h3⟩).2.2.1 (prevState V c ⟨3, h3⟩).2.2.2 r cc
    (onlineAt V c r cc 2 (Nat.lt_of_succ_lt h3)) hm hl ha).1
  rw [show stateAt V c 3 h3 = _ from stateAt_last V c ⟨3, h3⟩ (show ¬(3 : ℕ) = 0 by decide) rfl,
    show onlineAt V c r cc 3 h3 = _ from onlineAt_succ V c r cc 2 h3]
  dsimp only
  exact h

/-- The recurrence after the four points, written out. -/
theorem onlineAt_three (h3 : 3 < cfg1.N) :
    onlineAt V c r cc 3 h3
      = Cert.Online.step (Cert.Online.step (Cert.Online.step (Cert.Online.step Cert.Online.init
          (tileScore V c r ⟨0, by omega⟩) (tileHot V c cc ⟨0, by omega⟩))
          (tileScore V c r ⟨1, by omega⟩) (tileHot V c cc ⟨1, by omega⟩))
          (tileScore V c r ⟨2, by omega⟩) (tileHot V c cc ⟨2, by omega⟩))
          (tileScore V c r ⟨3, h3⟩) (tileHot V c cc ⟨3, h3⟩) := rfl

/-- The same as the recurrence run over four tiles, tile `k` being the tile of the point at position `k`. -/
theorem onlineAt_three_run (h3 : 3 < cfg1.N) :
    onlineAt V c r cc 3 h3
      = Cert.Online.run 4 (fun k => tileScore V c r ⟨k.val, by omega⟩) (fun k => tileHot V c cc ⟨k.val, by omega⟩) := rfl

end Points

end Cert.KernelIdeal.Region1

end
-- ==== Proof.Region1Blocks.lean ====
/-
  The second kernel's input windows read at an index. At every grid point the windows over the projected queries and
  over their squared norms hold the whole arrays; the windows over the projected support rows and over the labels
  hold the point's 2048 rows: row j of the block at point t is row 2048 t + j of the array.
-/
import proofs.«131352_j66331474920046_2_alg».proof.Proof.Region1Base
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]

/-! ## The arrays the five windows are over -/

theorem arrRef_0 : Pipeline.arrRef spec1 0 = main_v2 := rfl
theorem arrRef_1 : Pipeline.arrRef spec1 1 = main_v5 := rfl
theorem arrRef_2 : Pipeline.arrRef spec1 2 = main_v1 := rfl
theorem arrRef_3 : Pipeline.arrRef spec1 3 = main_v0 := rfl
theorem arrRef_4 : Pipeline.arrRef spec1 4 = main_v6 := rfl

/-! ## The block indices over the grid -/

/-- The grid has four points. -/
theorem point_lt (t : Fin cfg1.N) : t.val < 4 := Nat.lt_of_lt_of_eq t.isLt N_1

/-- The queries' window stays on block (0, 0). -/
theorem index_0 : ∀ t : Fin cfg1.N, win1_0.index t (0 : Fin 2) = 0 ∧ win1_0.index t (1 : Fin 2) = 0 :=
  (by decide +kernel : ∀ t : Fin grid1.N, _)
/-- The query norms' window stays on block (0, 0). -/
theorem index_1 : ∀ t : Fin cfg1.N, win1_1.index t (0 : Fin 2) = 0 ∧ win1_1.index t (1 : Fin 2) = 0 :=
  (by decide +kernel : ∀ t : Fin grid1.N, _)
/-- The support rows' window is on block (t, 0) at point t. -/
theorem index_2 : ∀ t : Fin cfg1.N, win1_2.index t (0 : Fin 2) = t.val ∧ win1_2.index t (1 : Fin 2) = 0 :=
  (by decide +kernel : ∀ t : Fin grid1.N, _)
/-- The labels' window is on block (t, 0) at point t. -/
theorem index_3 : ∀ t : Fin cfg1.N, win1_3.index t (0 : Fin 2) = t.val ∧ win1_3.index t (1 : Fin 2) = 0 :=
  (by decide +kernel : ∀ t : Fin grid1.N, _)
/-- The output's window stays on block (0, 0). -/
theorem index_4 : ∀ t : Fin cfg1.N, win1_4.index t (0 : Fin 2) = 0 ∧ win1_4.index t (1 : Fin 2) = 0 :=
  (by decide +kernel : ∀ t : Fin grid1.N, _)

/-- Row j of the block at point t, as a row of an array of 8192 rows cut into four blocks of 2048. -/
def blockRow (t : Fin cfg1.N) (j : Fin 2048) : Fin 8192 :=
  ⟨2048 * t.val + j.val, by have := point_lt t; have := j.isLt; omega⟩

theorem blockRow_val (t : Fin cfg1.N) (j : Fin 2048) : (blockRow t j).val = 2048 * t.val + j.val := rfl

/-! ## The input blocks at an index -/

section Blocks
variable (V : (c : Dev nD) → (b : Ref sig .tc) → Buf (Elt F) ((c : Thread nD τ).loc b))

/-- The projected queries' block is the whole array at every point. -/
theorem iblk_0_apply (c : Dev nD) (t : Fin cfg1.N) (r : Fin 32) (d : Fin 256) :
    (iblk V c 0 t : S32x256.Idx → Elt F .f32) (ix2 r d) = (V c main_v2 : S32x256.Idx → Elt F .f32) (ix2 r d) := by
  obtain ⟨e0, e1⟩ := index_0 t
  unfold iblk
  rw [View.read_apply]
  show (V c main_v2 : S32x256.Idx → Elt F .f32) (((cfg1.win 0).blk t).view.emb (ix2 r d)) = _
  refine congrArg (V c main_v2 : S32x256.Idx → Elt F .f32) (funext fun a => Fin.ext ?_)
  match a with
  | ⟨0, _⟩ => show win1_0.index t (0 : Fin 2) * 32 + 1 * r.val = r.val; rw [e0]; omega
  | ⟨1, _⟩ => show win1_0.index t (1 : Fin 2) * 256 + 1 * d.val = d.val; rw [e1]; omega

/-- The query norms' block is the whole column at every point. -/
theorem iblk_1_apply (c : Dev nD) (t : Fin cfg1.N) (r : Fin 32) (u : Fin 1) :
    (iblk V c 1 t : S32x1.Idx → Elt F .f32) (ix2 r u) = (V c main_v5 : S32x1.Idx → Elt F .f32) (ix2 r u) := by
  obtain ⟨e0, e1⟩ := index_1 t
  unfold iblk
  rw [View.read_apply]
  show (V c main_v5 : S32x1.Idx → Elt F .f32) (((cfg1.win 1).blk t).view.emb (ix2 r u)) = _
  refine congrArg (V c main_v5 : S32x1.Idx → Elt F .f32) (funext fun a => Fin.ext ?_)
  match a with
  | ⟨0, _⟩ => show win1_1.index t (0 : Fin 2) * 32 + 1 * r.val = r.val; rw [e0]; omega
  | ⟨1, _⟩ => show win1_1.index t (1 : Fin 2) * 1 + 1 * u.val = u.val; rw [e1]; omega

/-- The projected support rows' block at point t is rows 2048 t … 2048 t + 2047 of the array. -/
theorem iblk_2_apply (c : Dev nD) (t : Fin cfg1.N) (j : Fin 2048) (d : Fin 256) :
    (iblk V c 2 t : S2048x256.Idx → Elt F .f32) (ix2 j d)
      = (V c main_v1 : S8192x256.Idx → Elt F .f32) (ix2 (blockRow t j) d) := by
  obtain ⟨e0, e1⟩ := index_2 t
  unfold iblk
  rw [View.read_apply]
  show (V c main_v1 : S8192x256.Idx → Elt F .f32) (((cfg1.win 2).blk t).view.emb (ix2 j d)) = _
  refine congrArg (V c main_v1 : S8192x256.Idx → Elt F .f32) (funext fun a => Fin.ext ?_)
  match a with
  | ⟨0, _⟩ => show win1_2.index t (0 : Fin 2) * 2048 + 1 * j.val = 2048 * t.val + j.val; rw [e0]; omega
  | ⟨1, _⟩ => show win1_2.index t (1 : Fin 2) * 256 + 1 * d.val = d.val; rw [e1]; omega

/-- The labels' block at point t is rows 2048 t … 2048 t + 2047 of the label column. -/
theorem iblk_3_apply (c : Dev nD) (t : Fin cfg1.N) (j : Fin 2048) (u : Fin 1) :
    (iblk V c 3 t : S2048x1.Idx → Elt F .i32) (ix2 j u)
      = (V c main_v0 : S8192x1.Idx → Elt F .i32) (ix2 (blockRow t j) u) := by
  obtain ⟨e0, e1⟩ := index_3 t
  unfold iblk
  rw [View.read_apply]
  show (V c main_v0 : S8192x1.Idx → Elt F .i32) (((cfg1.win 3).blk t).view.emb (ix2 j u)) = _
  refine congrArg (V c main_v0 : S8192x1.Idx → Elt F .i32) (funext fun a => Fin.ext ?_)
  match a with
  | ⟨0, _⟩ => show win1_3.index t (0 : Fin 2) * 2048 + 1 * j.val = 2048 * t.val + j.val; rw [e0]; omega
  | ⟨1, _⟩ => show win1_3.index t (1 : Fin 2) * 1 + 1 * u.val = u.val; rw [e1]; omega

end Blocks

end Cert.KernelIdeal.Region1

end
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«131352_j66331474920046_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.HostValues.lean ====
/-
  The host stretches of the kernel program, read at an index, at the ideal values and for any contents of the buffers.

  Between and around its two kernel calls the program runs three short stretches of host operations. The first views
  the label vector [8192] as a column [8192, 1]. The second projects the query batch, x · W : [32, 256], squares it
  entrywise, sums each row from a zero initial value, and places the 32 row sums as a column [32, 1]: the squared norms
  of the projected queries. The third keeps the first 1000 of the 1024 columns of a [32, 1024] array. Each stretch writes
  only its own results; every other buffer is as it was.
-/
import proofs.«131352_j66331474920046_2_alg».proof.Proof.Gen.KernelIdeal.Launch
import proofs.«131352_j66331474920046_2_alg».proof.Proof.Gen.KernelIdeal.Regions
import proofs.«131352_j66331474920046_2_alg».proof.Proof.Spec
import proofs.«131352_j66331474920046_2_alg».proof.Proof.LibDotSums
import proofs.«131352_j66331474920046_2_alg».proof.Proof.LibBroadcastInDim
import proofs.«131352_j66331474920046_2_alg».proof.Proof.LibColumnLayout
import proofs.«131352_j66331474920046_2_alg».proof.Proof.LibIx2
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HostValues

open Cert.KernelIdeal Cert.KernelIdeal.Gen
open Idealize.ShloMosaic Idealize.ShloMosaic.TcCoe Idealize.SL.Sem Idealize.ShloMosaic.StableHlo Idealize.ShloMosaic.ValueIdx

-- the contents of the core's buffers before a stretch
variable (W : Valuation τ sig (Elt Ideal))

/-! ## The first stretch: the labels as a column -/

/-- After the first stretch the column buffer holds, in row j, label j. -/
theorem labels_column (j : Fin 8192) :
    StableHlo.after (hostOps0 (F := Ideal)) W (Proc.devRef .tc main_v0) (ix2 j (0 : Fin 1)) = W (Proc.devRef .tc main_arg3) (ix1 j) := by
  have e : (StableHlo.after (hostOps0 (F := Ideal)) W (Proc.devRef .tc main_v0) : S8192x1.Idx → BitVec 32)
      = shapeCast S8192x1 (W (Proc.devRef .tc main_arg3)) shapeCasts_S8192_S8192x1 := by
    dsimp only [hostOps0]; after_results; rfl
  refine (congrFun e (ix2 j (0 : Fin 1))).trans ?_
  exact Cert.ColumnLayout.shapeCast_a_a1_apply _ _ j 0

/-- The first stretch writes the column buffer only. -/
theorem first_keeps (r : Ref sig .tc) (h : r ∉ hostOps0_W) :
    StableHlo.after (hostOps0 (F := Ideal)) W (Proc.devRef .tc r) = W (Proc.devRef .tc r) :=
  StableHlo.after_of_writes_sub hostOps0 W hostOps0_writes h
theorem first_keeps_arg0 : StableHlo.after (hostOps0 (F := Ideal)) W (Proc.devRef .tc main_arg0) = W (Proc.devRef .tc main_arg0) := first_keeps W main_arg0 (by decide)
theorem first_keeps_arg1 : StableHlo.after (hostOps0 (F := Ideal)) W (Proc.devRef .tc main_arg1) = W (Proc.devRef .tc main_arg1) := first_keeps W main_arg1 (by decide)
theorem first_keeps_arg2 : StableHlo.after (hostOps0 (F := Ideal)) W (Proc.devRef .tc main_arg2) = W (Proc.devRef .tc main_arg2) := first_keeps W main_arg2 (by decide)
theorem first_keeps_arg3 : StableHlo.after (hostOps0 (F := Ideal)) W (Proc.devRef .tc main_arg3) = W (Proc.devRef .tc main_arg3) := first_keeps W main_arg3 (by decide)

/-! ## The second stretch: the projected queries and their squared norms -/

/-- The projected query batch as the stretch computes it: the host product of the query batch by the projection. -/
abbrev hostDot : FVec Ideal S32x256 .f32 :=
  Host.dotGeneral (F := Ideal) (φ₁ := .f32) (φ₂ := .f32) dot_S32x1024_S1024x256_S32x256_1_0_0_1_n_n none (W (Proc.devRef .tc main_arg0)) (W (Proc.devRef .tc main_arg2))

/-- Its entry (i, d) is row i of the query batch times column d of the projection. -/
theorem hostDot_apply (i : Fin 32) (d : Fin 256) :
    hostDot W (ix2 i d) = Cert.Spec.xq (W (Proc.devRef .tc main_arg0)) (W (Proc.devRef .tc main_arg2)) i d := by
  unfold hostDot Cert.Spec.xq
  simp only [Host.dotGeneral]
  exact Cert.DotSums.dotGeneral_ix2 dot_S32x1024_S1024x256_S32x256_1_0_0_1_n_n none _ rfl rfl rfl rfl rfl rfl rfl rfl _ _ i d

/-- After the second stretch the product's buffer holds the projected queries. -/
theorem query_projection (i : Fin 32) (d : Fin 256) :
    StableHlo.after (hostOps1 (F := Ideal)) W (Proc.devRef .tc main_v2) (ix2 i d)
      = Cert.Spec.xq (W (Proc.devRef .tc main_arg0)) (W (Proc.devRef .tc main_arg2)) i d := by
  have e : (StableHlo.after (hostOps1 (F := Ideal)) W (Proc.devRef .tc main_v2) : S32x256.Idx → EReal) = hostDot W := by
    dsimp only [hostOps1]; after_results
  exact (congrFun e (ix2 i d)).trans (hostDot_apply W i d)

/-- After the second stretch the column buffer holds, in row i, the squared norm of projected query i: the row sum of
    the squares, the zero initial value adding nothing. -/
theorem query_sqnorm (i : Fin 32) :
    StableHlo.after (hostOps1 (F := Ideal)) W (Proc.devRef .tc main_v5) (ix2 i (0 : Fin 1))
      = Cert.Spec.xsq (W (Proc.devRef .tc main_arg0)) (W (Proc.devRef .tc main_arg2)) i := by
  have e : (StableHlo.after (hostOps1 (F := Ideal)) W (Proc.devRef .tc main_v5) : S32x1.Idx → EReal)
      = broadcastInDim S32x1 ![0] bcast_S32_S32x1_0
          (Host.reduceAdd (mulf (hostDot W) (hostDot W)) (constant (F := Ideal) S_ .f32 0x00000000#32) reducesTo_S32x256_S32_d1 h_S_) := by
    dsimp only [hostOps1]; after_results
  refine (congrFun e (ix2 i (0 : Fin 1))).trans ?_
  refine (Cert.BroadcastInDim.column_apply _ bcast_S32_S32x1_0 i 0).trans ?_
  have hred : S32x256.Reduces [1] S32 := by decide
  simp only [Host.reduceAdd, Ideal.hostReduceAdd_def]
  rw [Ideal.hostReduceAdd_single reducesTo_S32x256_S32_d1 hred]
  unfold Cert.Spec.xsq
  refine (congrArg (· + _) Ideal.ofBits_zero_f32).trans ?_
  show (0 : EReal) + _ = _
  rw [zero_add]
  refine Finset.sum_congr rfl fun k _ => ?_
  have hk : hostDot W (hred.lift (ix1 i) k) = Cert.Spec.xq (W (Proc.devRef .tc main_arg0)) (W (Proc.devRef .tc main_arg2)) i k :=
    (congrArg (hostDot W) (Cert.LibIx2.lift_ix1 hred i k)).trans (hostDot_apply W i k)
  show hostDot W (hred.lift (ix1 i) k) * hostDot W (hred.lift (ix1 i) k) = _
  rw [hk]

/-- The second stretch writes its five results only. -/
theorem second_keeps (r : Ref sig .tc) (h : r ∉ hostOps1_W) :
    StableHlo.after (hostOps1 (F := Ideal)) W (Proc.devRef .tc r) = W (Proc.devRef .tc r) :=
  StableHlo.after_of_writes_sub hostOps1 W hostOps1_writes h
theorem second_keeps_v0 : StableHlo.after (hostOps1 (F := Ideal)) W (Proc.devRef .tc main_v0) = W (Proc.devRef .tc main_v0) := second_keeps W main_v0 (by decide)
theorem second_keeps_v1 : StableHlo.after (hostOps1 (F := Ideal)) W (Proc.devRef .tc main_v1) = W (Proc.devRef .tc main_v1) := second_keeps W main_v1 (by decide)
theorem second_keeps_arg0 : StableHlo.after (hostOps1 (F := Ideal)) W (Proc.devRef .tc main_arg0) = W (Proc.devRef .tc main_arg0) := second_keeps W main_arg0 (by decide)
theorem second_keeps_arg1 : StableHlo.after (hostOps1 (F := Ideal)) W (Proc.devRef .tc main_arg1) = W (Proc.devRef .tc main_arg1) := second_keeps W main_arg1 (by decide)
theorem second_keeps_arg2 : StableHlo.after (hostOps1 (F := Ideal)) W (Proc.devRef .tc main_arg2) = W (Proc.devRef .tc main_arg2) := second_keeps W main_arg2 (by decide)
theorem second_keeps_arg3 : StableHlo.after (hostOps1 (F := Ideal)) W (Proc.devRef .tc main_arg3) = W (Proc.devRef .tc main_arg3) := second_keeps W main_arg3 (by decide)

/-! ## The third stretch: the first 1000 columns -/

/-- After the third stretch the sliced buffer holds, at (i, c), the source's entry (i, c): the slice starts at column 0. -/
theorem first_columns (i : Fin 32) (c : Fin 1000) :
    StableHlo.after (hostOps2 (F := Ideal)) W (Proc.devRef .tc main_v7) (ix2 i c)
      = W (Proc.devRef .tc main_v6) (ix2 i ⟨c.val, by omega⟩) := by
  have e : (StableHlo.after (hostOps2 (F := Ideal)) W (Proc.devRef .tc main_v7) : S32x1000.Idx → EReal)
      = extractStridedSlice S32x1000 ![0, 0] (W (Proc.devRef .tc main_v6)) slices_S32x1024_S32x1000_0_0 := by
    dsimp only [hostOps2]; after_results
  refine (congrFun e (ix2 i c)).trans ?_
  exact slice2_axis1_apply 0 _ slices_S32x1024_S32x1000_0_0 i c ⟨c.val, by omega⟩ (Nat.zero_add _).symm

/-- The third stretch writes the sliced buffer only. -/
theorem third_keeps (r : Ref sig .tc) (h : r ∉ hostOps2_W) :
    StableHlo.after (hostOps2 (F := Ideal)) W (Proc.devRef .tc r) = W (Proc.devRef .tc r) :=
  StableHlo.after_of_writes_sub hostOps2 W hostOps2_writes h
theorem third_keeps_arg0 : StableHlo.after (hostOps2 (F := Ideal)) W (Proc.devRef .tc main_arg0) = W (Proc.devRef .tc main_arg0) := third_keeps W main_arg0 (by decide)
theorem third_keeps_arg1 : StableHlo.after (hostOps2 (F := Ideal)) W (Proc.devRef .tc main_arg1) = W (Proc.devRef .tc main_arg1) := third_keeps W main_arg1 (by decide)
theorem third_keeps_arg2 : StableHlo.after (hostOps2 (F := Ideal)) W (Proc.devRef .tc main_arg2) = W (Proc.devRef .tc main_arg2) := third_keeps W main_arg2 (by decide)
theorem third_keeps_arg3 : StableHlo.after (hostOps2 (F := Ideal)) W (Proc.devRef .tc main_arg3) = W (Proc.devRef .tc main_arg3) := third_keeps W main_arg3 (by decide)

end Cert.KernelIdeal.HostValues

end
-- ==== Proof.Region0Value.lean ====
/-
  What region 0 of @main leaves, at the ideal values: the projected support set as one function of the two argument
  arrays.

  The region runs the projection kernel on 4 grid points. At point t it multiplies rows 2048·t … 2048·t + 2047 of the
  support set sx : [8192, 1024] by the whole projection W : [1024, 256] into a zero accumulator and writes the product
  back as the same rows of the result [8192, 256]. An ideal matrix product into a zero accumulator has, at (p, q),
  the value ∑ k, lhs (p, k) · rhs (k, q). Row r of the result is written by point r / 2048 and by no other, so after
  the last point the result holds, at (r, d), ∑ k, sx (r, k) · W (k, d) for every r and d; the two inputs are
  never written.
-/
import proofs.«131352_j66331474920046_2_alg».proof.Proof.Region0
import proofs.«131352_j66331474920046_2_alg».proof.Proof.Spec
import proofs.«131352_j66331474920046_2_alg».proof.Proof.LibIx2
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx
open Idealize.ShloMosaic.Pipeline (Dat Cfg Window)

/-! ## The body's result at an index -/

/-- The offsets of the rectangles the body uses are all zero. -/
theorem offsets_zero : (![0, 0] : Fin 2 → Nat) = fun _ => 0 := funext fun a => by fin_cases a <;> rfl

/-- The output block as a function of the two input blocks, at row p and column q: the inner product of row p of the
    left block with column q of the right block. -/
theorem block_is_product (x0 : Vec Ideal S2048x1024 .f32) (x1 : Vec Ideal S1024x256 .f32) (p : Fin 2048) (q : Fin 256) :
    out0_2 (F := Ideal) x0 x1 (ix2 p q) = ∑ k : Fin 1024, x0 (ix2 p k) * x1 (ix2 k q) := by
  unfold out0_2
  rw [View.canon_unit_zero offsets_zero]
  simp only [View.ld_unit_zero (S := S2048x1024) offsets_zero, View.ld_unit_zero (S := S1024x256) offsets_zero]
  unfold k0_pay1
  exact Cert.LibIx2.matmul_zero_ix2_apply dot_S2048x1024_S1024x256_S2048x256_1_0_0_1_n_n rfl rfl rfl rfl rfl rfl rfl rfl none x0 x1 p q

/-! ## From the blocks to the array -/

-- the contents of the core's buffers when the region is entered
variable (V : (c : Dev nD) → (b : Ref sig .tc) → Buf (Elt Ideal) ((c : Thread nD τ).loc b))

/-- The projected support set: row r of the support set times column d of the projection. -/
abbrev projected (sx : S8192x1024.Idx → EReal) (W : S1024x256.Idx → EReal) : S8192x256.Idx → EReal :=
  fun idx => Cert.Spec.sxp sx W (idx 0) (idx 1)

/-- The block indices at a grid point: the left operand's row block is the result's, every other block index is 0,
    and the result's row block is one of 0, 1, 2, 3. -/
theorem rows_of_point : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every one of the four row blocks of the result is some grid point's. -/
theorem point_of_rows : ∀ b : Fin 4, ∃ t : Fin cfg0.N, win0_2.index t = ![b.val, 0] :=
  (by decide +kernel : ∀ b : Fin 4, ∃ t : Fin grid0.N, win0_2.index t = ![b.val, 0])

/-- What point t writes back is block t of the projected support set. -/
theorem flushed_is_rows (c : Dev nD) (t : Fin cfg0.N) :
    (dat0 V c).flushed 2 t = ((cfg0.win 2).blk t).view.read (Elt Ideal) (projected (V c main_arg1) (V c main_arg2)) := by
  show (cfg0.win 2).cut (grid0.coords t) ((dat0 V c).after 2 t) = _
  rw [after0_2]
  obtain ⟨e00, e01, e10, e11, e21, e20⟩ := rows_of_point t
  funext j
  obtain ⟨p, q, rfl⟩ : ∃ (p : Fin 2048) (q : Fin 256), j = ix2 p q := ⟨j 0, j 1, eq_ix2 j⟩
  show out0_2 (F := Ideal) (iblk0 V c 0 t) (iblk0 V c 1 t) (ix2 p q)
    = Cert.Spec.sxp (V c main_arg1) (V c main_arg2) ((((cfg0.win 2).blk t).view.emb (ix2 p q)) 0) ((((cfg0.win 2).blk t).view.emb (ix2 p q)) 1)
  refine (block_is_product (iblk0 V c 0 t) (iblk0 V c 1 t) p q).trans ?_
  unfold Cert.Spec.sxp
  refine Finset.sum_congr rfl fun k _ => ?_
  have h0 : iblk0 V c 0 t (ix2 p k) = V c main_arg1 (ix2 ((((cfg0.win 2).blk t).view.emb (ix2 p q)) 0) k) := by
    show V c main_arg1 (((cfg0.win 0).blk t).view.emb (ix2 p k)) = _
    refine congrArg (V c main_arg1) ?_
    funext a; apply Fin.ext
    match a with
    | ⟨0, _⟩ => show win0_0.index t (0 : Fin 2) * 2048 + 1 * p.val = win0_2.index t (0 : Fin 2) * 2048 + 1 * p.val; omega
    | ⟨1, _⟩ => show win0_0.index t (1 : Fin 2) * 1024 + 1 * k.val = k.val; omega
  have h1 : iblk0 V c 1 t (ix2 k q) = V c main_arg2 (ix2 k ((((cfg0.win 2).blk t).view.emb (ix2 p q)) 1)) := by
    show V c main_arg2 (((cfg0.win 1).blk t).view.emb (ix2 k q)) = _
    refine congrArg (V c main_arg2) ?_
    funext a; apply Fin.ext
    match a with
    | ⟨0, _⟩ => show win0_1.index t (0 : Fin 2) * 1024 + 1 * k.val = k.val; omega
    | ⟨1, _⟩ => show win0_1.index t (1 : Fin 2) * 256 + 1 * q.val = win0_2.index t (1 : Fin 2) * 256 + 1 * q.val; omega
  rw [h0, h1]

/-- An index of the result lies in point t's block iff each coordinate lies in the block's range on its axis. -/
theorem mem_rows (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v1).slice (win0_2.rect t)).set ↔ _
  rw [View.set_slice_whole, Rect.mem_set_unit]
  exact Iff.rfl

/-- Every index of the result is written back by some point: row r by the point whose row block is r / 2048. -/
theorem every_row_written (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ := point_of_rows ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_rows]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- THE ARRAY the region leaves in its result: the projected support set, at every index. -/
theorem sxp_final (c : Dev nD) :
    (dat0 V c).arrAt 2 cfg0.N = fun idx => Cert.Spec.sxp (V c main_arg1) (V c main_arg2) (idx 0) (idx 1) :=
  (dat0 V c).arrAt_eq_of_cover 2 (projected (V c main_arg1) (V c main_arg2)) (fun t _ => flushed_is_rows V c t) every_row_written

/-! ## The inputs are left as found -/

/-- The region never writes the support set's array, -/
theorem left_kept (c : Dev nD) : (dat0 V c).arrAt 0 cfg0.N = V c (Pipeline.arrRef spec0 0) :=
  ((dat0 V c).arrAt_in 0 rfl _).trans (A_eq0 V c 0)
/-- nor the projection's. -/
theorem right_kept (c : Dev nD) : (dat0 V c).arrAt 1 cfg0.N = V c (Pipeline.arrRef spec0 1) :=
  ((dat0 V c).arrAt_in 1 rfl _).trans (A_eq0 V c 1)

end Cert.KernelIdeal.Region0

end
-- ==== Proof.EntryValues.lean ====
/-
  The second kernel's entry arrays are the stages of the specification.

  When the tile-by-tile kernel is entered, four of the core's buffers hold what it reads: the projected queries, their
  squared norms, the projected support set and the labels as a column. Each is followed back through the program: the
  second host stretch computes the first two from the query batch and the projection, which no earlier step has changed;
  the projection kernel leaves the third, and the second host stretch does not touch it; the first host stretch lays the
  labels out as a column, and nothing later writes that column.
-/
import proofs.«131352_j66331474920046_2_alg».proof.Proof.Whole
import proofs.«131352_j66331474920046_2_alg».proof.Proof.HostValues
import proofs.«131352_j66331474920046_2_alg».proof.Proof.Region0Value

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The arguments as the second host stretch finds them -/

/-- The query batch is as launched when the second host stretch starts: the first stretch does not write it and the
    projection kernel does not stage it. -/
theorem B2_arg0 (c : Dev nD) : B2 m ρ c (Proc.devRef .tc main_arg0) = m ((c : Thread nD τ).loc main_arg0) :=
  (B2_of_ne m ρ c main_arg0 (by decide)).trans ((HostValues.first_keeps_arg0 (B0 m ρ c)).trans rfl)

/-- So is the projection: the first stretch does not write it and the projection kernel only reads it. -/
theorem B2_arg2 (c : Dev nD) : B2 m ρ c (Proc.devRef .tc main_arg2) = m ((c : Thread nD τ).loc main_arg2) :=
  ((B2_arr m ρ c 1).trans (Region0.right_kept (E1 m ρ) c)).trans ((HostValues.first_keeps_arg2 (B0 m ρ c)).trans rfl)

/-! ## The four entry arrays -/

/-- The projected queries: entry (r, d) is row r of the query batch times column d of the projection. -/
theorem entry_queries (c : Dev nD) (r : Fin 32) (d : Fin 256) :
    E3 m ρ c main_v2 (ix2 r d)
      = Cert.Spec.xq (m ((c : Thread nD τ).loc main_arg0)) (m ((c : Thread nD τ).loc main_arg2)) r d := by
  refine (HostValues.query_projection (B2 m ρ c) r d).trans ?_
  rw [B2_arg0 m ρ c, B2_arg2 m ρ c]

/-- Their squared norms, as a column. -/
theorem entry_sqnorms (c : Dev nD) (r : Fin 32) :
    E3 m ρ c main_v5 (ix2 r (0 : Fin 1))
      = Cert.Spec.xsq (m ((c : Thread nD τ).loc main_arg0)) (m ((c : Thread nD τ).loc main_arg2)) r := by
  refine (HostValues.query_sqnorm (B2 m ρ c) r).trans ?_
  rw [B2_arg0 m ρ c, B2_arg2 m ρ c]

/-- The projected support set: entry (j, d) is row j of the support set times column d of the projection. -/
theorem entry_support (c : Dev nD) (j : Fin 8192) (d : Fin 256) :
    E3 m ρ c main_v1 (ix2 j d)
      = Cert.Spec.sxp (m ((c : Thread nD τ).loc main_arg1)) (m ((c : Thread nD τ).loc main_arg2)) j d := by
  have e : E3 m ρ c main_v1 = fun idx => Cert.Spec.sxp (E1 m ρ c main_arg1) (E1 m ρ c main_arg2) (idx 0) (idx 1) :=
    (HostValues.second_keeps_v1 (B2 m ρ c)).trans ((B2_arr m ρ c 2).trans (Region0.sxp_final (E1 m ρ) c))
  refine (congrFun e (ix2 j d)).trans ?_
  show Cert.Spec.sxp (E1 m ρ c main_arg1) (E1 m ρ c main_arg2) j d = _
  rw [show E1 m ρ c main_arg1 = m ((c : Thread nD τ).loc main_arg1) from (HostValues.first_keeps_arg1 (B0 m ρ c)).trans rfl,
    show E1 m ρ c main_arg2 = m ((c : Thread nD τ).loc main_arg2) from (HostValues.first_keeps_arg2 (B0 m ρ c)).trans rfl]

/-- The labels as a column: row j holds label j. -/
theorem entry_labels (c : Dev nD) (j : Fin 8192) :
    E3 m ρ c main_v0 (ix2 j (0 : Fin 1)) = m ((c : Thread nD τ).loc main_arg3) (ix1 j) := by
  have e : E3 m ρ c main_v0 = StableHlo.after (hostOps0 (F := Ideal)) (B0 m ρ c) (Proc.devRef .tc main_v0) :=
    (HostValues.second_keeps_v0 (B2 m ρ c)).trans (B2_of_ne m ρ c main_v0 (by decide))
  refine (congrFun e (ix2 j (0 : Fin 1))).trans ?_
  exact (HostValues.labels_column (B0 m ρ c) j).trans rfl

end Cert.KernelIdeal.Whole

end
-- ==== Proof.Finite.lean ====
import proofs.«131352_j66331474920046_2_alg».proof.Pre_finite_inputs
import proofs.«131352_j66331474920046_2_alg».proof.Proof.Gen.Pre_finite_inputs
import proofs.«131352_j66331474920046_2_alg».proof.Proof.Spec
import proofs.«131352_j66331474920046_2_alg».proof.Proof.LibReal
import Idealize.ShloMosaic.Lib.ReduceAll
import Idealize.ShloMosaic.Lib.ValueIdx
import Idealize.ShloMosaic.PureOps.Ideal

/-!
# Finite inputs are real numbers, and so is every stage of the specification

The predicate on the inputs says, of each of the three float arrays, that the absolute value of every entry is below
`+∞`. On the extended reals that is the statement that every entry is a real number. Sums, products, differences and
negations of real numbers are real numbers, so the projections, the squared norms, the inner products and the scores of
the specification are real numbers, and a one-hot entry is `0` or `1`.
-/

noncomputable section

namespace Cert.Finite

open Idealize.ShloMosaic Idealize.ShloMosaic.ValueIdx Cert.LibReal
open scoped BigOperators

/-! ## From the predicate to the entries -/

/-- The scalar shape has one index. -/
instance : Subsingleton Cert.Pre_finite_inputs.S_.Idx := ⟨fun a b => funext fun d => d.elim0⟩

/-- The single-precision pattern `0x7F800000` is `+∞`. -/
theorem ofBits_pos_inf : Ideal.ofBits .f32 0x7F800000#32 = (⊤ : EReal) := by
  simp [Ideal.ofBits, Ideal.ieee]

/-- An extended real whose absolute value compares below `+∞` is a real number. -/
theorem isReal_of_abs_lt (v : EReal)
    (h : Ideal.cmp .olt (max v (-v)) (Ideal.ofBits .f32 0x7F800000#32) = 1#1) : IsReal v := by
  rw [ofBits_pos_inf] at h
  have hlt : max v (-v) < ⊤ := by
    by_contra hn
    unfold Ideal.cmp at h
    simp [hn] at h
  induction v using EReal.rec with
  | bot => simp at hlt
  | coe r => exact ⟨r, rfl⟩
  | top => simp at hlt

/-- **The entries are real.** When the predicate on the inputs holds, every entry of the three float arrays is a real
    number. -/
theorem entries_real (x : Cert.Spec.XArr) (sx : Cert.Spec.SxArr) (W : Cert.Spec.WArr) (sy : Cert.Spec.SyArr)
    (h : Cert.Pre_finite_inputs.fn (F := Ideal) x sx W sy = fun _ => 1#1) :
    (∀ i, IsReal (x i)) ∧ (∀ i, IsReal (sx i)) ∧ (∀ i, IsReal (W i)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨fun i => isReal_of_abs_lt (x i) (Host.reduce_andi_all _ _ _ _ ValueIdx.ix0 h1 i),
    fun i => isReal_of_abs_lt (sx i) (Host.reduce_andi_all _ _ _ _ ValueIdx.ix0 h2 i),
    fun i => isReal_of_abs_lt (W i) (Host.reduce_andi_all _ _ _ _ ValueIdx.ix0 h3 i)⟩

/-! ## The stages of the specification are real -/

/-- The negation of a real number is a real number. -/
theorem isReal_neg {a : EReal} (ha : IsReal a) : IsReal (-a) := by
  obtain ⟨r, rfl⟩ := ha
  exact ⟨-r, (EReal.coe_neg r).symm⟩

/-- The single-precision pattern `0x40000000` is `2`. -/
theorem ofBits_two : Ideal.ofBits .f32 0x40000000#32 = ((2 : ℝ) : EReal) := by
  simp [Ideal.ofBits, Ideal.ieee, -EReal.coe_mul]; norm_num

/-- A projected query entry is real. -/
theorem xq_real (x : Cert.Spec.XArr) (W : Cert.Spec.WArr) (hx : ∀ i, IsReal (x i)) (hW : ∀ i, IsReal (W i))
    (i : Fin 32) (d : Fin 256) : IsReal (Cert.Spec.xq x W i d) :=
  IsReal.sum _ _ fun _ _ => (hx _).mul (hW _)

/-- A projected support entry is real. -/
theorem sxp_real (sx : Cert.Spec.SxArr) (W : Cert.Spec.WArr) (hsx : ∀ i, IsReal (sx i)) (hW : ∀ i, IsReal (W i))
    (j : Fin 8192) (d : Fin 256) : IsReal (Cert.Spec.sxp sx W j d) :=
  IsReal.sum _ _ fun _ _ => (hsx _).mul (hW _)

/-- A projected query's squared norm is real. -/
theorem xsq_real (x : Cert.Spec.XArr) (W : Cert.Spec.WArr) (hx : ∀ i, IsReal (x i)) (hW : ∀ i, IsReal (W i))
    (i : Fin 32) : IsReal (Cert.Spec.xsq x W i) :=
  IsReal.sum _ _ fun _ _ => (xq_real x W hx hW _ _).mul (xq_real x W hx hW _ _)

/-- A projected support row's squared norm is real. -/
theorem ssq_real (sx : Cert.Spec.SxArr) (W : Cert.Spec.WArr) (hsx : ∀ i, IsReal (sx i)) (hW : ∀ i, IsReal (W i))
    (j : Fin 8192) : IsReal (Cert.Spec.ssq sx W j) :=
  IsReal.sum _ _ fun _ _ => (sxp_real sx W hsx hW _ _).mul (sxp_real sx W hsx hW _ _)

/-- The inner product of a projected query and a projected support row is real. -/
theorem cross_real (x : Cert.Spec.XArr) (sx : Cert.Spec.SxArr) (W : Cert.Spec.WArr) (hx : ∀ i, IsReal (x i))
    (hsx : ∀ i, IsReal (sx i)) (hW : ∀ i, IsReal (W i)) (i : Fin 32) (j : Fin 8192) :
    IsReal (Cert.Spec.cross x sx W i j) :=
  IsReal.sum _ _ fun _ _ => (xq_real x W hx hW _ _).mul (sxp_real sx W hsx hW _ _)

/-- **The scores are real.** -/
theorem score_real (x : Cert.Spec.XArr) (sx : Cert.Spec.SxArr) (W : Cert.Spec.WArr) (hx : ∀ i, IsReal (x i))
    (hsx : ∀ i, IsReal (sx i)) (hW : ∀ i, IsReal (W i)) (i : Fin 32) (j : Fin 8192) :
    IsReal (Cert.Spec.score x sx W i j) := by
  unfold Cert.Spec.score
  rw [ofBits_two]
  exact isReal_neg (((xsq_real x W hx hW i).add (ssq_real sx W hsx hW j)).sub
    ((isReal_coe 2).mul (cross_real x sx W hx hsx hW i j)))

/-- **A one-hot entry is real**: it is `0` or `1`. -/
theorem hot_real (sy : Cert.Spec.SyArr) (j : Fin 8192) (c : Fin 1000) : IsReal (Cert.Spec.hot sy j c) := by
  unfold Cert.Spec.hot
  split
  · exact isReal_one
  · exact isReal_zero

end Cert.Finite

end
-- ==== Proof.SpecOnline.lean ====
import proofs.«131352_j66331474920046_2_alg».proof.Proof.Finite
import proofs.«131352_j66331474920046_2_alg».proof.Proof.OnlineSoftmax

/-!
# The class mass of the specification, computed tile by tile

A row of the specification has 8192 scores. Read in 4 tiles of 2048, with the running maximum, the running sum of
exponentials and the running weighted sum of a tile-by-tile softmax, the class mass of the specification is the final
weighted sum divided by the final sum of exponentials. The weights are the one-hot entries of the class. This is the
general tile-by-tile law at 4 tiles of 2048, at the scores and one-hot entries of the specification, which are real
numbers when the inputs are.
-/

noncomputable section

namespace Cert.Finite

open Idealize.ShloMosaic Idealize.ShloMosaic.ValueIdx Cert.LibReal
open scoped BigOperators

/-- Position `j` of tile `k` among the 8192 support rows: row `2048 * k + j`. -/
def tileRow (k : Fin 4) (j : Fin 2048) : Fin 8192 := ⟨2048 * k.val + j.val, by omega⟩

/-- The value of a tile position. -/
theorem tileRow_val (k : Fin 4) (j : Fin 2048) : (tileRow k j).val = 2048 * k.val + j.val := rfl

/-- **The class mass, tile by tile.** For real inputs the class mass of the specification is the weighted sum divided by
    the sum of exponentials of the state reached after the four tiles of 2048 scores, weighted by the one-hot entries. -/
theorem mass_online (x : Cert.Spec.XArr) (sx : Cert.Spec.SxArr) (W : Cert.Spec.WArr) (sy : Cert.Spec.SyArr)
    (hx : ∀ i, IsReal (x i)) (hsx : ∀ i, IsReal (sx i)) (hW : ∀ i, IsReal (W i)) (i : Fin 32) (c : Fin 1000) :
    Cert.Spec.mass x sx W sy i c
      = Ideal.div
          (Cert.Online.run 4 (fun k j => Cert.Spec.score x sx W i (tileRow k j))
            (fun k j => Cert.Spec.hot sy (tileRow k j) c)).a
          (Cert.Online.run 4 (fun k j => Cert.Spec.score x sx W i (tileRow k j))
            (fun k j => Cert.Spec.hot sy (tileRow k j) c)).l :=
  (Cert.Online.online_eq_oneshot_flat (K := 4) (T := 2048) (N := 8192) (by norm_num) (by norm_num) (by norm_num)
    (fun j => Cert.Spec.score x sx W i j) (fun j => Cert.Spec.hot sy j c)
    (fun j => score_real x sx W hx hsx hW i j) (fun j => hot_real sy j c) tileRow tileRow_val
    (Cert.Spec.M x sx W i) (Cert.Spec.L x sx W i) rfl rfl).symm

/-- The same with the four steps written out. -/
theorem mass_online4 (x : Cert.Spec.XArr) (sx : Cert.Spec.SxArr) (W : Cert.Spec.WArr) (sy : Cert.Spec.SyArr)
    (hx : ∀ i, IsReal (x i)) (hsx : ∀ i, IsReal (sx i)) (hW : ∀ i, IsReal (W i)) (i : Fin 32) (c : Fin 1000) :
    Cert.Spec.mass x sx W sy i c
      = Ideal.div
          (Cert.Online.step (Cert.Online.step (Cert.Online.step (Cert.Online.step Cert.Online.init
              (fun j => Cert.Spec.score x sx W i (tileRow 0 j)) (fun j => Cert.Spec.hot sy (tileRow 0 j) c))
              (fun j => Cert.Spec.score x sx W i (tileRow 1 j)) (fun j => Cert.Spec.hot sy (tileRow 1 j) c))
              (fun j => Cert.Spec.score x sx W i (tileRow 2 j)) (fun j => Cert.Spec.hot sy (tileRow 2 j) c))
              (fun j => Cert.Spec.score x sx W i (tileRow 3 j)) (fun j => Cert.Spec.hot sy (tileRow 3 j) c)).a
          (Cert.Online.step (Cert.Online.step (Cert.Online.step (Cert.Online.step Cert.Online.init
              (fun j => Cert.Spec.score x sx W i (tileRow 0 j)) (fun j => Cert.Spec.hot sy (tileRow 0 j) c))
              (fun j => Cert.Spec.score x sx W i (tileRow 1 j)) (fun j => Cert.Spec.hot sy (tileRow 1 j) c))
              (fun j => Cert.Spec.score x sx W i (tileRow 2 j)) (fun j => Cert.Spec.hot sy (tileRow 2 j) c))
              (fun j => Cert.Spec.score x sx W i (tileRow 3 j)) (fun j => Cert.Spec.hot sy (tileRow 3 j) c)).l :=
  mass_online x sx W sy hx hsx hW i c

/-- The same from the predicate on the inputs. -/
theorem mass_online_of_finite (x : Cert.Spec.XArr) (sx : Cert.Spec.SxArr) (W : Cert.Spec.WArr) (sy : Cert.Spec.SyArr)
    (h : Cert.Pre_finite_inputs.fn (F := Ideal) x sx W sy = fun _ => 1#1) (i : Fin 32) (c : Fin 1000) :
    Cert.Spec.mass x sx W sy i c
      = Ideal.div
          (Cert.Online.run 4 (fun k j => Cert.Spec.score x sx W i (tileRow k j))
            (fun k j => Cert.Spec.hot sy (tileRow k j) c)).a
          (Cert.Online.run 4 (fun k j => Cert.Spec.score x sx W i (tileRow k j))
            (fun k j => Cert.Spec.hot sy (tileRow k j) c)).l :=
  mass_online x sx W sy (entries_real x sx W sy h).1 (entries_real x sx W sy h).2.1 (entries_real x sx W sy h).2.2 i c

end Cert.Finite

end
-- ==== Proof.TileEntries.lean ====
/-
  A tile's scores and one-hot entries, from the entries of the four arrays the second kernel reads.

  At grid point t the second kernel computes, for query row r and lane j of the tile, minus the expanded squared
  distance between projected query r and the tile's projected support row j, and compares the tile's label j with a
  class number. Row j of the tile at point t is row 2048 t + j of the support set. So if the four arrays hold the
  projected queries, their squared norms, the projected support set and the labels, the tile's score at (r, j) is the
  specification's score of query r against support row 2048 t + j, and the tile's one-hot entry at j is the
  specification's at that row.
-/
import proofs.«131352_j66331474920046_2_alg».proof.Proof.Region1Blocks
import proofs.«131352_j66331474920046_2_alg».proof.Proof.Payloads
import proofs.«131352_j66331474920046_2_alg».proof.Proof.Spec
import proofs.«131352_j66331474920046_2_alg».proof.Proof.SpecOnline

set_option maxRecDepth 16384

noncomputable section

open scoped BigOperators

namespace Cert.KernelIdeal.Tiles

open Idealize.ShloMosaic Idealize.ShloMosaic.TcCoe Idealize.ShloMosaic.ValueIdx
open Idealize.SL.Sem
open Cert.KernelIdeal Cert.KernelIdeal.Gen Cert.KernelIdeal.Region1

/-- The second grid coordinate of a point is one of 0, 1, 2, 3. -/
theorem coord_lt (t : Fin cfg1.N) : ((grid1.coords t) 1).val < 4 := ((grid1.coords t) 1).isLt

/-- Row j of the block at the k-th point is position j of tile k. -/
theorem blockRow_eq_tileRow (k : Fin 4) (hk : k.val < cfg1.N) (j : Fin 2048) :
    blockRow ⟨k.val, hk⟩ j = Cert.Finite.tileRow k j := Fin.ext rfl

section Entries
variable (V : (c : Dev nD) → (b : Ref sig .tc) → Buf (Elt Ideal) ((c : Thread nD τ).loc b)) (c : Dev nD)
variable (x : Cert.Spec.XArr) (sx : Cert.Spec.SxArr) (W : Cert.Spec.WArr) (sy : Cert.Spec.SyArr)

/-- The tile's score at (r, j) is the specification's score of query r against support row 2048 t + j, when the three
    float arrays hold the projected queries, their squared norms and the projected support set. -/
theorem score_of_entries
    (hq : ∀ (r : Fin 32) (d : Fin 256), (V c main_v2 : S32x256.Idx → EReal) (ix2 r d) = Cert.Spec.xq x W r d)
    (hn : ∀ r : Fin 32, (V c main_v5 : S32x1.Idx → EReal) (ix2 r (0 : Fin 1)) = Cert.Spec.xsq x W r)
    (hs : ∀ (j : Fin 8192) (d : Fin 256), (V c main_v1 : S8192x256.Idx → EReal) (ix2 j d) = Cert.Spec.sxp sx W j d)
    (r : Fin 32) (t : Fin cfg1.N) (j : Fin 2048) :
    k1_pay8 (F := Ideal) (grid1.coords t) (iblk V c 2 t) (iblk V c 0 t) (iblk V c 1 t) (ix2 r j)
      = Cert.Spec.score x sx W r (blockRow t j) := by
  refine (Payloads.pay8_apply (grid1.coords t) (coord_lt t) _ _ _ r j).trans ?_
  have h1 : (iblk V c 1 t : S32x1.Idx → EReal) (ix2 r (0 : Fin 1)) = Cert.Spec.xsq x W r :=
    (iblk_1_apply V c t r 0).trans (hn r)
  have h2 : ∀ d : Fin 256, (iblk V c 2 t : S2048x256.Idx → EReal) (ix2 j d) = Cert.Spec.sxp sx W (blockRow t j) d :=
    fun d => (iblk_2_apply V c t j d).trans (hs (blockRow t j) d)
  have h0 : ∀ d : Fin 256, (iblk V c 0 t : S32x256.Idx → EReal) (ix2 r d) = Cert.Spec.xq x W r d :=
    fun d => (iblk_0_apply V c t r d).trans (hq r d)
  unfold Cert.Spec.score Cert.Spec.ssq Cert.Spec.cross
  refine (zero_sub _).trans (congrArg Neg.neg ?_)
  refine congrArg₂ (· - ·) (congrArg₂ (· + ·) h1 (Finset.sum_congr rfl fun d _ => congrArg₂ (· * ·) (h2 d) (h2 d))) ?_
  exact congrArg (_ * ·) (Finset.sum_congr rfl fun d _ => congrArg₂ (· * ·) (h0 d) (h2 d))

/-- The tile's one-hot entry at j for class number n is the specification's at support row 2048 t + j, when the label
    column holds the labels. -/
theorem hot_of_entries
    (hy : ∀ j : Fin 8192, (V c main_v0 : S8192x1.Idx → BitVec 32) (ix2 j (0 : Fin 1)) = sy (ix1 j))
    (cls : Fin 1000) (t : Fin cfg1.N) (j : Fin 2048) :
    (if ((iblk V c 3 t : Vec Ideal S2048x1 .i32) (ix2 j 0) : BitVec 32) = BitVec.ofNat 32 cls.val then (1 : EReal) else 0)
      = Cert.Spec.hot sy (blockRow t j) cls := by
  have h3 : (iblk V c 3 t : S2048x1.Idx → BitVec 32) (ix2 j (0 : Fin 1)) = sy (ix1 (blockRow t j)) :=
    (iblk_3_apply V c t j 0).trans (hy (blockRow t j))
  unfold Cert.Spec.hot
  exact if_congr (by rw [h3]) rfl rfl

end Entries

end Cert.KernelIdeal.Tiles

end
-- ==== Proof.TileValues.lean ====
/-
  The tiles of the second kernel, at the contents it is entered with, against the specification.

  When the second kernel is entered its four input arrays hold the projected queries, their squared norms, the projected
  support set and the labels. Hence at every grid point t the scores it computes for query row r are the specification's
  scores of query r against support rows 2048 t … 2048 t + 2047, and the one-hot entries it forms for a class are the
  specification's for those rows. Row j of the block at the k-th point is position j of tile k.
-/
import proofs.«131352_j66331474920046_2_alg».proof.Proof.KernelOnline
import proofs.«131352_j66331474920046_2_alg».proof.Proof.Payloads
import proofs.«131352_j66331474920046_2_alg».proof.Proof.Region1Blocks
import proofs.«131352_j66331474920046_2_alg».proof.Proof.EntryValues
import proofs.«131352_j66331474920046_2_alg».proof.Proof.SpecOnline
import proofs.«131352_j66331474920046_2_alg».proof.Proof.TileEntries

set_option maxRecDepth 16384

noncomputable section

open scoped BigOperators

namespace Cert.KernelIdeal.Whole

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The score the kernel computes at point t for query row r and lane j, at the entry contents, is the specification's
    score of query r against support row 2048 t + j. -/
theorem tile_score_pay (c : Dev nD) (r : Fin 32) (t : Fin cfg1.N) (j : Fin 2048) :
    k1_pay8 (F := Ideal) (grid1.coords t) (Region1.iblk (E3 m ρ) c 2 t) (Region1.iblk (E3 m ρ) c 0 t) (Region1.iblk (E3 m ρ) c 1 t) (ix2 r j)
      = Cert.Spec.score (m ((c : Thread nD τ).loc main_arg0)) (m ((c : Thread nD τ).loc main_arg1))
          (m ((c : Thread nD τ).loc main_arg2)) r (Region1.blockRow t j) :=
  Tiles.score_of_entries (E3 m ρ) c (m ((c : Thread nD τ).loc main_arg0)) (m ((c : Thread nD τ).loc main_arg1))
    (m ((c : Thread nD τ).loc main_arg2)) (entry_queries m ρ c) (entry_sqnorms m ρ c) (entry_support m ρ c) r t j

/-- The one-hot entry the kernel forms at point t for lane j and class number cls, at the entry contents, is the
    specification's for support row 2048 t + j. -/
theorem tile_hot_if (c : Dev nD) (cls : Fin 1000) (t : Fin cfg1.N) (j : Fin 2048) :
    (if ((Region1.iblk (E3 m ρ) c 3 t : Vec Ideal S2048x1 .i32) (ix2 j 0) : BitVec 32) = BitVec.ofNat 32 cls.val then (1 : EReal) else 0)
      = Cert.Spec.hot (m ((c : Thread nD τ).loc main_arg3)) (Region1.blockRow t j) cls :=
  Tiles.hot_of_entries (E3 m ρ) c (m ((c : Thread nD τ).loc main_arg3)) (entry_labels m ρ c) cls t j

/-- Row r's scores of the tile of point t are the specification's scores against the tile's support rows. -/
theorem tile_score (c : Dev nD) (r : Fin 32) (t : Fin cfg1.N) (j : Fin 2048) :
    Region1.tileScore (E3 m ρ) c r t j
      = Cert.Spec.score (m ((c : Thread nD τ).loc main_arg0)) (m ((c : Thread nD τ).loc main_arg1))
          (m ((c : Thread nD τ).loc main_arg2)) r (Region1.blockRow t j) :=
  (Region1.tileScore_apply (E3 m ρ) c r t j).trans (tile_score_pay m ρ c r t j)

/-- The one-hot entries of a class among the labels of the tile of point t are the specification's for the tile's
    support rows; the class number is read as a column of the 1024-wide numerator. -/
theorem tile_hot (c : Dev nD) (cls : Fin 1000) (t : Fin cfg1.N) (j : Fin 2048) :
    Region1.tileHot (E3 m ρ) c (⟨cls.val, by omega⟩ : Fin 1024) t j
      = Cert.Spec.hot (m ((c : Thread nD τ).loc main_arg3)) (Region1.blockRow t j) cls :=
  (Region1.tileHot_apply (E3 m ρ) c (⟨cls.val, by omega⟩ : Fin 1024) t j).trans (tile_hot_if m ρ c cls t j)

/-- Row j of the block at the k-th point is position j of tile k. -/
theorem blockRow_tileRow (k : Fin 4) (hk : k.val < cfg1.N) (j : Fin 2048) :
    Region1.blockRow ⟨k.val, hk⟩ j = Cert.Finite.tileRow k j := Fin.ext rfl

end Cert.KernelIdeal.Whole

end
-- ==== Proof.Region1Out.lean ====
/-
  What the second kernel's pipeline leaves in its five arrays: the four inputs as the region found them, and the
  output array whole at what the last grid point's body stored. The output's window sits on one block, the whole
  array, and is written back once, at the last point.
-/
import proofs.«131352_j66331474920046_2_alg».proof.Proof.Region1
import proofs.«131352_j66331474920046_2_alg».proof.Proof.Region1Blocks
import Idealize.ShloMosaic.Lib.Pipeline.Value

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]

section Out
variable (V : (c : Dev nD) → (b : Ref sig .tc) → Buf (Elt F) ((c : Thread nD τ).loc b))

/-! ## The inputs are left as found -/

theorem arrAt_0 (c : Dev nD) : (dat1 V c).arrAt 0 cfg1.N = V c (Pipeline.arrRef spec1 0) :=
  ((dat1 V c).arrAt_in 0 rfl cfg1.N).trans (A_eq V c 0)
theorem arrAt_1 (c : Dev nD) : (dat1 V c).arrAt 1 cfg1.N = V c (Pipeline.arrRef spec1 1) :=
  ((dat1 V c).arrAt_in 1 rfl cfg1.N).trans (A_eq V c 1)
theorem arrAt_2 (c : Dev nD) : (dat1 V c).arrAt 2 cfg1.N = V c (Pipeline.arrRef spec1 2) :=
  ((dat1 V c).arrAt_in 2 rfl cfg1.N).trans (A_eq V c 2)
theorem arrAt_3 (c : Dev nD) : (dat1 V c).arrAt 3 cfg1.N = V c (Pipeline.arrRef spec1 3) :=
  ((dat1 V c).arrAt_in 3 rfl cfg1.N).trans (A_eq V c 3)

/-! ## The output is the last point's store -/

/-- The last point is a point of the grid. -/
theorem last_lt : 3 < cfg1.N := Nat.lt_of_lt_of_eq (by decide : 3 < 4) N_1.symm

/-- The one write-back, at the last point, writes what that point's body stored: the block at offsets zero of the
    array's own sizes is the array. -/
theorem flushed_4 (c : Dev nD) (t : Fin cfg1.N) (hf : (cfg1.win 4).flush t = true) :
    (dat1 V c).flushed 4 t = ((cfg1.win 4).blk t).view.read (Elt F) (stateAt V c 3 last_lt).1 := by
  have h1 : t.val = 3 := by have := (flush1_4 t).mp hf; have := point_lt t; omega
  obtain rfl : t = t1_3 := Fin.ext h1
  show (cfg1.win 4).cut (grid1.coords t1_3) ((dat1 V c).after 4 t1_3) = _
  rw [after_4]
  have hz' : (fun a => win1_4.index t1_3 a * main_v6.ty.shape.size a) = fun _ => 0 :=
    funext fun a => by fin_cases a <;> decide +kernel
  exact (Memref.read_access_unit_zero (Elt F) main_v6 hz' (fun a => by rw [congrFun hz' a]; simp)
    (stateAt V c 3 last_lt).1).symm

/-- The output array after the run is what the last point's body stored. -/
theorem out_final (c : Dev nD) : (dat1 V c).arrAt 4 cfg1.N = (stateAt V c 3 last_lt).1 :=
  (dat1 V c).arrAt_eq_of_cover 4 (stateAt V c 3 last_lt).1 (flushed_4 V c) fun i =>
    ⟨t1_3, (flush1_4 t1_3).mpr rfl, by
      show i ∈ ((View.whole main_v6).slice (win1_4.rect t1_3)).set
      rw [View.set_slice_whole, Rect.mem_set_unit]
      intro a
      have h0 : (i 0 : Nat) < 32 := (i 0).isLt
      have h1 : (i 1 : Nat) < 1024 := (i 1).isLt
      match a with
      | ⟨0, _⟩ =>
        show win1_4.index t1_3 0 * win1_4.size 0 ≤ (i 0 : Nat)
          ∧ (i 0 : Nat) < win1_4.index t1_3 0 * win1_4.size 0 + win1_4.xsize (grid1.coords t1_3) 0
        rw [show win1_4.index t1_3 0 * win1_4.size 0 = 0 from by decide +kernel,
          show win1_4.xsize (grid1.coords t1_3) 0 = 32 from by decide +kernel]
        omega
      | ⟨1, _⟩ =>
        show win1_4.index t1_3 1 * win1_4.size 1 ≤ (i 1 : Nat)
          ∧ (i 1 : Nat) < win1_4.index t1_3 1 * win1_4.size 1 + win1_4.xsize (grid1.coords t1_3) 1
        rw [show win1_4.index t1_3 1 * win1_4.size 1 = 0 from by decide +kernel,
          show win1_4.xsize (grid1.coords t1_3) 1 = 1024 from by decide +kernel]
        omega⟩

end Out

end Cert.KernelIdeal.Region1

end
-- ==== Proof.Bridge.lean ====
/-
  The kernel's result is the specification's output, and the claim of equal results follows.

  The result's entry (i, c), c < 1000, is column c of the output array the tile-by-tile kernel leaves; that array is what
  the last grid point stored: log (a / l + ε) for the state (m, l, a) the kernel carried through its four tiles at row i
  and column c. That state is the recurrence run over the four tiles; each tile's scores and one-hot entries are the
  specification's at the tile's rows; and the recurrence's a / l is the softmax-weighted sum over all support rows,
  because the inputs are finite. The reference's run ends at the same function of the same inputs.
-/
import proofs.«131352_j66331474920046_2_alg».proof.Defs
import proofs.«131352_j66331474920046_2_alg».proof.Proof.WholeFrame
import proofs.«131352_j66331474920046_2_alg».proof.Proof.TileValues
import proofs.«131352_j66331474920046_2_alg».proof.Proof.Region1Out
import proofs.«131352_j66331474920046_2_alg».proof.Proof.RefSpec

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.Whole

variable (m : (ℓ : Loc nD τ sig) → Buf (Elt Ideal) ℓ) (ρ : Dev nD → PrngReg)

/-- The recurrence over the kernel's four tiles at row `i` and class `cls` is the recurrence over the specification's
    scores and one-hot entries, tile by tile. -/
theorem kernel_recurrence (c : Dev nD) (i : Fin 32) (cls : Fin 1000) (h3 : 3 < cfg1.N) :
    Region1.onlineAt (E3 m ρ) c i (⟨cls.val, by omega⟩ : Fin 1024) 3 h3
      = Cert.Online.step (Cert.Online.step (Cert.Online.step (Cert.Online.step Cert.Online.init
          (fun j => Cert.Spec.score (m ((c : Thread nD τ).loc main_arg0)) (m ((c : Thread nD τ).loc main_arg1)) (m ((c : Thread nD τ).loc main_arg2)) i (Cert.Finite.tileRow 0 j))
          (fun j => Cert.Spec.hot (m ((c : Thread nD τ).loc main_arg3)) (Cert.Finite.tileRow 0 j) cls))
          (fun j => Cert.Spec.score (m ((c : Thread nD τ).loc main_arg0)) (m ((c : Thread nD τ).loc main_arg1)) (m ((c : Thread nD τ).loc main_arg2)) i (Cert.Finite.tileRow 1 j))
          (fun j => Cert.Spec.hot (m ((c : Thread nD τ).loc main_arg3)) (Cert.Finite.tileRow 1 j) cls))
          (fun j => Cert.Spec.score (m ((c : Thread nD τ).loc main_arg0)) (m ((c : Thread nD τ).loc main_arg1)) (m ((c : Thread nD τ).loc main_arg2)) i (Cert.Finite.tileRow 2 j))
          (fun j => Cert.Spec.hot (m ((c : Thread nD τ).loc main_arg3)) (Cert.Finite.tileRow 2 j) cls))
          (fun j => Cert.Spec.score (m ((c : Thread nD τ).loc main_arg0)) (m ((c : Thread nD τ).loc main_arg1)) (m ((c : Thread nD τ).loc main_arg2)) i (Cert.Finite.tileRow 3 j))
          (fun j => Cert.Spec.hot (m ((c : Thread nD τ).loc main_arg3)) (Cert.Finite.tileRow 3 j) cls) := by
  have hs : ∀ (t : Fin cfg1.N) (k : Fin 4), t.val = k.val →
      Region1.tileScore (E3 m ρ) c i t = fun j => Cert.Spec.score (m ((c : Thread nD τ).loc main_arg0)) (m ((c : Thread nD τ).loc main_arg1)) (m ((c : Thread nD τ).loc main_arg2)) i (Cert.Finite.tileRow k j) := by
    intro t k hk; funext j
    refine (tile_score m ρ c i t j).trans ?_
    congr 1; exact Fin.ext (by rw [Region1.blockRow_val, Cert.Finite.tileRow_val, hk])
  have ho : ∀ (t : Fin cfg1.N) (k : Fin 4), t.val = k.val →
      Region1.tileHot (E3 m ρ) c (⟨cls.val, by omega⟩ : Fin 1024) t = fun j => Cert.Spec.hot (m ((c : Thread nD τ).loc main_arg3)) (Cert.Finite.tileRow k j) cls := by
    intro t k hk; funext j
    refine (tile_hot m ρ c cls t j).trans ?_
    congr 1; exact Fin.ext (by rw [Region1.blockRow_val, Cert.Finite.tileRow_val, hk])
  rw [Region1.onlineAt_three (E3 m ρ) c i _ h3]
  rw [hs ⟨0, _⟩ 0 rfl, hs ⟨1, _⟩ 1 rfl, hs ⟨2, _⟩ 2 rfl, hs ⟨3, _⟩ 3 rfl, ho ⟨0, _⟩ 0 rfl, ho ⟨1, _⟩ 1 rfl, ho ⟨2, _⟩ 2 rfl, ho ⟨3, _⟩ 3 rfl]

/-- **The kernel's result.** Under the precondition the result's buffer at the return holds the specification's output
    of the four argument arrays. -/
theorem kernel_value (c : Dev nD)
    (hfin : Cert.Pre_finite_inputs.fn (F := Ideal) (m ((c : Thread nD τ).loc main_arg0)) (m ((c : Thread nD τ).loc main_arg1))
      (m ((c : Thread nD τ).loc main_arg2)) (m ((c : Thread nD τ).loc main_arg3)) = fun _ => 1#1) :
    B5 m ρ c (Proc.devRef .tc main_v7)
      = fun idx => Cert.Spec.refOut (m ((c : Thread nD τ).loc main_arg0)) (m ((c : Thread nD τ).loc main_arg1))
          (m ((c : Thread nD τ).loc main_arg2)) (m ((c : Thread nD τ).loc main_arg3)) (idx 0) (idx 1) := by
  funext idx
  obtain ⟨i, cls, rfl⟩ : ∃ (i : Fin 32) (cls : Fin 1000), idx = ix2 i cls := ⟨idx 0, idx 1, eq_ix2 idx⟩
  -- the result's columns are the first thousand of the output array the second kernel leaves
  refine (HostValues.first_columns (B4 m ρ c) i cls).trans ?_
  -- which is what its last grid point stored
  have hout : B4 m ρ c (Proc.devRef .tc main_v6) = (Region1.stateAt (E3 m ρ) c 3 Region1.last_lt).1 :=
    (B4_arr m ρ c 4).trans (Region1.out_final (E3 m ρ) c)
  refine (congrFun hout (ix2 i ⟨cls.val, by omega⟩)).trans ?_
  -- the logarithm of the carried numerator over the carried denominator
  refine (Region1.out_is_online (E3 m ρ) c i ⟨cls.val, by omega⟩ Region1.last_lt).trans ?_
  -- the carried state is the recurrence over the specification's tiles, whose quotient is the weighted sum
  rw [kernel_recurrence m ρ c i cls Region1.last_lt]
  show _ = Ideal.log (Cert.Spec.mass _ _ _ _ i cls + _)
  rw [Cert.Finite.mass_online4 _ _ _ _ (Cert.Finite.entries_real _ _ _ _ hfin).1 (Cert.Finite.entries_real _ _ _ _ hfin).2.1
    (Cert.Finite.entries_real _ _ _ _ hfin).2.2 i cls]

end Cert.Bridge

/-! ## The claim of equal results -/

namespace Cert.Bridge

open Idealize.ShloMosaic Idealize.SL.Sem

/-- From memories agreeing on the arguments both idealized programs run to the end, their results one function of those
    arguments, and leave the arguments as launched. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun idx => Cert.Spec.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (idx 0) (idx 1), ?_, ?_⟩
  · exact (θ_run Cert.KernelIdeal.defs _ _).mono (fun r h c => ⟨(h c).1.trans (kernel_value m ρ c (hpre c)), (h c).2⟩)
      (Cert.KernelIdeal.Whole.run_result m ρ)
  · refine (θ_run Cert.ReferenceIdeal.defs _ _).mono (fun r h c => ⟨(h c).1.trans ?_, (h c).2⟩) (Cert.RefSpec.ref_run m' ρ')
    rw [(hagree c).1, (hagree c).2.1, (hagree c).2.2.1, (hagree c).2.2.2]
    rfl

end Cert.Bridge

end
-- ==== Proof.lean ====
/-
  A softmax-weighted class histogram, computed two ways, is one function of the inputs on the extended reals.

  Inputs: queries x [32,1024], support rows sx [8192,1024], a projection W [1024,256], support labels sy [8192].
  Both programs project (xq = x·W, sxp = sx·W), score every query against every support row by the negated squared
  distance  s(i,j) = -(‖xq i‖² + ‖sxp j‖² - 2 ⟨xq i, sxp j⟩), weight the support labels' one-hot rows by the softmax of the
  scores over j, and return  log (Σ_j softmax_j(s i) · [sy j = c] + ε)  for the classes c < 1000.

  The reference does this in one pass over all 8192 support rows. The kernel first writes sxp with one matrix product per
  block of 2048 rows, then walks the four blocks keeping, per query, a running maximum m, a running denominator l and a
  running numerator a (per class): a block rescales l and a by exp (m_old - m_new) and adds the block's exp (s - m_new)
  terms; after the last block it returns log (a / l + ε). Over the reals the rescalings telescope, so after the last
  block m is the global maximum, l = Σ_j exp (s j - m), a = Σ_j exp (s j - m)·[sy j = c], and a / l is the softmax-weighted
  sum: division by the positive real l distributes over the finite sum. That step needs the scores to be real numbers,
  which is what the precondition (finite inputs) gives; the kernel's guard against rows past the end of the support set
  never fires on this grid, so its finite stand-in for minus infinity is never read.

  The modules: Spec (the stages as functions of the inputs), RefSpec (the reference's run is refOut), OnlineSoftmax and
  SpecOnline (the telescoping law, at the specification), Finite (the precondition makes every entry real), Region0 /
  Region0Value (the projection kernel's blocks and the array it leaves), Region1* (the tile-by-tile kernel's body at its
  three kinds of grid point, the state it carries from point to point, and that state as the recurrence), Whole /
  WholeFrame (the program as five segments; every buffer's contents at the return), HostValues / EntryValues (the host
  stretches), Bridge (the kernel's result is refOut). The word-level program's frame is the same text at its namespace.
-/
import proofs.«131352_j66331474920046_2_alg».proof.Defs
import proofs.«131352_j66331474920046_2_alg».proof.Proof.Gen.Kernel
import proofs.«131352_j66331474920046_2_alg».proof.Proof.Gen.Kernel.Skeleton
import proofs.«131352_j66331474920046_2_alg».proof.Proof.Gen.Kernel.Launch
import proofs.«131352_j66331474920046_2_alg».proof.Proof.Gen.Kernel.Regions
import proofs.«131352_j66331474920046_2_alg».proof.Proof.Gen.Kernel.Points
import proofs.«131352_j66331474920046_2_alg».proof.Proof.Gen.KernelIdeal
import proofs.«131352_j66331474920046_2_alg».proof.Proof.Gen.KernelIdeal.Skeleton
import proofs.«131352_j66331474920046_2_alg».proof.Proof.Gen.KernelIdeal.Launch
import proofs.«131352_j66331474920046_2_alg».proof.Proof.Gen.KernelIdeal.Regions
import proofs.«131352_j66331474920046_2_alg».proof.Proof.Gen.KernelIdeal.Points
import proofs.«131352_j66331474920046_2_alg».proof.Proof.Gen.ReferenceIdeal
import proofs.«131352_j66331474920046_2_alg».proof.Proof.Gen.Pre_finite_inputs
import proofs.«131352_j66331474920046_2_alg».proof.Proof.Gen.ReferenceIdeal.Run
import proofs.«131352_j66331474920046_2_alg».proof.Proof.Gen.ReferenceIdeal.Read
import proofs.«131352_j66331474920046_2_alg».proof.Proof.WholeFrameK
import proofs.«131352_j66331474920046_2_alg».proof.Proof.RefFrame
import proofs.«131352_j66331474920046_2_alg».proof.Proof.Bridge
import Idealize.ShloMosaic.Adequacy
import Idealize.ShloMosaic.Init

noncomputable section

namespace Cert.Proof

open Idealize.ShloMosaic Idealize.SL.Sem

/-- The word-level program runs to the end and leaves its arguments as launched. -/
theorem frame_word : Cert.frame_Kernel (hKernel := Cert.Kernel.Gen.facts) (hPre_finite_inputs := Cert.Pre_finite_inputs.Gen.facts) :=
  fun m ρ _ => Cert.Kernel.Whole.frame m ρ

/-- So does the idealized program. -/
theorem frame_ideal : Cert.frame_KernelIdeal (hKernelIdeal := Cert.KernelIdeal.Gen.facts) (hPre_finite_inputs := Cert.Pre_finite_inputs.Gen.facts) :=
  fun m ρ _ => Cert.KernelIdeal.Whole.frame m ρ

theorem claim : Cert.Claim := ⟨Cert.Kernel.Gen.facts, Cert.KernelIdeal.Gen.facts, Cert.ReferenceIdeal.Gen.facts, Cert.Pre_finite_inputs.Gen.facts,
  frame_word, frame_ideal, Cert.RefFrame.frame_ri, trivial, Cert.Bridge.algebraic⟩

end Cert.Proof

end
